-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_arg10 : FVec F S128x128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : FVec F S800000x128 .f32) (main_arg2 : IVec S800000 32) (main_arg3 : IVec S800000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S_ : Shape := ⟨0, ![]⟩
abbrev S800000x1 : Shape := ⟨2, ![800000, 1]⟩
abbrev S800000x136 : Shape := ⟨2, ![800000, 136]⟩
abbrev S4000x128 : Shape := ⟨2, ![4000, 128]⟩
abbrev S4000x136 : Shape := ⟨2, ![4000, 136]⟩
abbrev S4000x16 : Shape := ⟨2, ![4000, 16]⟩
abbrev S4000 : Shape := ⟨1, ![4000]⟩
abbrev S4000x1 : Shape := ⟨2, ![4000, 1]⟩
abbrev S4000x8 : Shape := ⟨2, ![4000, 8]⟩
abbrev S800000x8x16 : Shape := ⟨3, ![800000, 8, 16]⟩
abbrev S50000x136 : Shape := ⟨2, ![50000, 136]⟩
abbrev S50000x8x16 : Shape := ⟨3, ![50000, 8, 16]⟩
abbrev S50000x8 : Shape := ⟨2, ![50000, 8]⟩
abbrev S50000x8x1 : Shape := ⟨3, ![50000, 8, 1]⟩

abbrev nBuf : Space → Nat
  | .hbm => 52
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S50000x128, .bf16⟩
  | .hbm, ⟨17, _⟩ => ⟨S800000x128, .bf16⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .bf16⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .bf16⟩
  | .hbm, ⟨36, _⟩ => ⟨S800000x128, .f32⟩
  | .hbm, ⟨37, _⟩ => ⟨S800000x136, .f32⟩
  | .hbm, ⟨38, _⟩ => ⟨S800000x8x16, .f32⟩
  | .hbm, ⟨39, _⟩ => ⟨S_, .f32⟩
  | .hbm, ⟨40, _⟩ => ⟨S50000x136, .f32⟩
  | .hbm, ⟨41, _⟩ => ⟨S800000x1, .i32⟩
  | .hbm, ⟨42, _⟩ => ⟨S50000x136, .f32⟩
  | .hbm, ⟨43, _⟩ => ⟨S50000x128, .f32⟩
  | .hbm, ⟨44, _⟩ => ⟨S50000x8x16, .f32⟩
  | .hbm, ⟨45, _⟩ => ⟨S50000x8, .f32⟩
  | .hbm, ⟨46, _⟩ => ⟨S50000x8x1, .f32⟩
  | .hbm, ⟨47, _⟩ => ⟨S_, .f32⟩
  | .hbm, ⟨48, _⟩ => ⟨S50000x8x1, .f32⟩
  | .hbm, ⟨49, _⟩ => ⟨S50000x8x1, .f32⟩
  | .hbm, ⟨50, _⟩ => ⟨S50000x8x16, .f32⟩
  | .hbm, ⟨51, _⟩ => ⟨S50000x8x16, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x128, .bf16⟩
  | .local _ .vmem, ⟨5, _⟩ => ⟨S4000x128, .bf16⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S4000x136, .f32⟩
  | .local _ .vmem, ⟨17, _⟩ => ⟨S4000x136, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4000x136 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S128_S1x128 : S128.ShapeCasts S1x128
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S4000x128_o0_0_S4000x16 : S4000x128.Slices ![0, 0] S4000x16
  reduces_S4000x16_S4000 : S4000x16.Reduces [1] S4000
  shapeCasts_S4000_S4000x1 : S4000.ShapeCasts S4000x1
  broadcasts_S4000x1_S4000x16 : S4000x1.Broadcasts S4000x16
  slices_S4000x128_o0_16_S4000x16 : S4000x128.Slices ![0, 16] S4000x16
  slices_S4000x128_o0_32_S4000x16 : S4000x128.Slices ![0, 32] S4000x16
  slices_S4000x128_o0_48_S4000x16 : S4000x128.Slices ![0, 48] S4000x16
  slices_S4000x128_o0_64_S4000x16 : S4000x128.Slices ![0, 64] S4000x16
  slices_S4000x128_o0_80_S4000x16 : S4000x128.Slices ![0, 80] S4000x16
  slices_S4000x128_o0_96_S4000x16 : S4000x128.Slices ![0, 96] S4000x16
  slices_S4000x128_o0_112_S4000x16 : S4000x128.Slices ![0, 112] S4000x16
  concatenates_S4000x16_S4000x16_S4000x16_S4000x16_S4000x16_S4000x16_S4000x16_S4000x16_S4000x128_d1 : Shape.Concatenates [S4000x16, S4000x16, S4000x16, S4000x16, S4000x16, S4000x16, S4000x16, S4000x16] S4000x128 1
  concatenates_S4000x1_S4000x1_S4000x1_S4000x1_S4000x1_S4000x1_S4000x1_S4000x1_S4000x8_d1 : Shape.Concatenates [S4000x1, S4000x1, S4000x1, S4000x1, S4000x1, S4000x1, S4000x1, S4000x1] S4000x8 1
  inb_S4000x136_S4000x128_0_0 : ∀ a, (![0, 0] : Fin 2 → Nat) a + S4000x128.size a ≤ S4000x136.size a
  inb_S4000x136_S4000x8_0_128 : ∀ a, (![0, 128] : Fin 2 → Nat) a + S4000x8.size a ≤ S4000x136.size a
  h_S4000x8 : 0 < S4000x8.numel
  shapeCasts_S800000x128_S800000x8x16 : S800000x128.ShapeCasts S800000x8x16
  bcast_S_S50000x136 : S_.BroadcastsInDim S50000x136 (![] : Fin 0 → Fin S50000x136.rank)
  slices_S50000x136_S50000x128_0_0 : S50000x136.Slices ![0, 0] S50000x128
  shapeCasts_S50000x128_S50000x8x16 : S50000x128.ShapeCasts S50000x8x16
  slices_S50000x136_S50000x8_0_128 : S50000x136.Slices ![0, 128] S50000x8
  shapeCasts_S50000x8_S50000x8x1 : S50000x8.ShapeCasts S50000x8x1
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  gather_S50000x128_S800000x1_S800000x128_1_0_n_n_0_1_1128_wf : GatherDims.WF S50000x128 S800000x1 S800000x128 [1] [0] [] [0] [] 1 ![1, 128]
  dot_S4000x128_S128x128_S4000x128_1_0_0_1_n_n_wf : DotDims.WF S4000x128 S128x128 S4000x128 [1] [0] [0] [1] [] []
  scatter_S50000x136_S800000x1_S800000x136_1_0_0_1_wf : ScatterDims.WF S50000x136 S800000x1 S800000x136 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .bf16 = 32 ∨ (Rect.block (s := S800000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .bf16 = 32 ∨ (Rect.block (s := S800000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S800000x128.size a
  hwx0_2 : ∀ i : grid0.Coords, EltTy.bits .bf16 = 32 ∨ (Rect.block (s := S800000x128) S4000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S800000x128.size a
  hwx0_11 : ∀ i : grid0.Coords, EltTy.bits .f32 = 32 ∨ (Rect.block (s := S800000x128) S4000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x136.size a ≤ S800000x136.size a
  hwx0_12 : ∀ i : grid0.Coords, EltTy.bits .f32 = 32 ∨ (Rect.block (s := S800000x136) S4000x136.size (cc0_transform_12 i) (hinb0_12 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x136_S800000x1_S800000x136_1_0_0_1 : ScatterDims S50000x136 S800000x1 S800000x136 where
  updateWindowDims := [1]
  insertedWindowDims := [0]
  scatterDimsToOperandDims := [0]
  indexVectorDim := 1
  wf := scatter_S50000x136_S800000x1_S800000x136_1_0_0_1_wf

abbrev win0_0 : Pipeline.Window sig grid0 :=
  Pipeline.Window.ofSpec (Memref.whole main_v12) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v20_0) S4000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v20_1) S4000x136.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S50000x8x16 : Shape := ⟨3, ![50000, 8, 16]⟩
abbrev S800000x8x16 : Shape := ⟨3, ![800000, 8, 16]⟩
abbrev S_ : Shape := ⟨0, ![]⟩
abbrev S800000x1 : Shape := ⟨2, ![800000, 1]⟩
abbrev S800000x8 : Shape := ⟨2, ![800000, 8]⟩
abbrev S800000x8x1 : Shape := ⟨3, ![800000, 8, 1]⟩
abbrev S50000x8x1 : Shape := ⟨3, ![50000, 8, 1]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S50000x128, .f32⟩
  | .hbm, ⟨13, _⟩ => ⟨S1x128, .f32⟩
  | .hbm, ⟨14, _⟩ => ⟨S50000x128, .f32⟩
  | .hbm, ⟨15, _⟩ => ⟨S50000x128, .f32⟩
  | .hbm, ⟨16, _⟩ => ⟨S50000x8x16, .f32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S50000x8x16, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S50000x8x16, .f32⟩
  | .hbm, ⟨27, _⟩ => ⟨S800000x128, .f32⟩
  | .hbm, ⟨28, _⟩ => ⟨S1x128, .f32⟩
  | .hbm, ⟨29, _⟩ => ⟨S800000x128, .f32⟩
  | .hbm, ⟨30, _⟩ => ⟨S800000x128, .f32⟩
  | .hbm, ⟨31, _⟩ => ⟨S800000x8x16, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x8x16, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x8x16, .f32⟩
  | .hbm, ⟨50, _⟩ => ⟨S800000x8x16, .f32⟩
  | .hbm, ⟨51, _⟩ => ⟨S_, .f32⟩
  | .hbm, ⟨52, _⟩ => ⟨S_, .f32⟩
  | .hbm, ⟨53, _⟩ => ⟨S800000x8x16, .f32⟩
  | .hbm, ⟨54, _⟩ => ⟨S800000x8x16, .f32⟩
  | .hbm, ⟨55, _⟩ => ⟨S800000x8x16, .f32⟩
  | .hbm, ⟨56, _⟩ => ⟨S_, .f32⟩
  | .hbm, ⟨57, _⟩ => ⟨S800000x8, .f32⟩
  | .hbm, ⟨58, _⟩ => ⟨S800000x8x1, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S800000x8x1, .f32⟩
  | .hbm, ⟨63, _⟩ => ⟨S800000x8x1, .f32⟩
  | .hbm, ⟨64, _⟩ => ⟨S_, .f32⟩
  | .hbm, ⟨65, _⟩ => ⟨S800000x8x1, .f32⟩
  | .hbm, ⟨66, _⟩ => ⟨S800000x8x1, .f32⟩
  | .hbm, ⟨67, _⟩ => ⟨S800000x8x1, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x8x16, .f32⟩
  | .hbm, ⟨77, _⟩ => ⟨S800000x8x16, .f32⟩
  | .hbm, ⟨78, _⟩ => ⟨S800000x8x16, .f32⟩
  | .hbm, ⟨79, _⟩ => ⟨S_, .f32⟩
  | .hbm, ⟨80, _⟩ => ⟨S50000x8x16, .f32⟩
  | .hbm, ⟨81, _⟩ => ⟨S800000x1, .i32⟩
  | .hbm, ⟨82, _⟩ => ⟨S50000x8x16, .f32⟩
  | .hbm, ⟨83, _⟩ => ⟨S_, .f32⟩
  | .hbm, ⟨84, _⟩ => ⟨S50000x8x1, .f32⟩
  | .hbm, ⟨85, _⟩ => ⟨S800000x1, .i32⟩
  | .hbm, ⟨86, _⟩ => ⟨S50000x8x1, .f32⟩
  | .hbm, ⟨87, _⟩ => ⟨S_, .f32⟩
  | .hbm, ⟨88, _⟩ => ⟨S50000x8x1, .f32⟩
  | .hbm, ⟨89, _⟩ => ⟨S50000x8x1, .f32⟩
  | .hbm, ⟨90, _⟩ => ⟨S50000x8x16, .f32⟩
  | .hbm, ⟨91, _⟩ => ⟨S50000x8x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_1 : Ref sig .tc := ⟨.hbm, 41, rfl⟩
abbrev main_v27 : Ref sig .tc := ⟨.hbm, 42, rfl⟩
abbrev main_v28 : Ref sig .tc := ⟨.hbm, 43, rfl⟩
abbrev main_c_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_cst_4 : Ref sig .tc := ⟨.hbm, 59, rfl⟩
abbrev main_cst_5 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_v41 : Ref sig .tc := ⟨.hbm, 66, rfl⟩
abbrev main_v42 : Ref sig .tc := ⟨.hbm, 67, rfl⟩
abbrev main_c_6 : Ref sig .tc := ⟨.hbm, 68, rfl⟩
abbrev main_v43 : Ref sig .tc := ⟨.hbm, 69, rfl⟩
abbrev main_v44 : Ref sig .tc := ⟨.hbm, 70, rfl⟩
abbrev main_c_7 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_8 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_9 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S50000x8x16 : S50000x128.ShapeCasts S50000x8x16
  bcast_S1x128_S800000x128_0_1 : S1x128.BroadcastsInDim S800000x128 (![0, 1] : Fin 2 → Fin S800000x128.rank)
  shapeCasts_S800000x128_S800000x8x16 : S800000x128.ShapeCasts S800000x8x16
  bcast_S_S800000 : S_.BroadcastsInDim S800000 (![] : Fin 0 → Fin S800000.rank)
  bcast_S800000_S800000x1_0 : S800000.BroadcastsInDim S800000x1 (![0] : Fin 1 → Fin S800000x1.rank)
  bcast_S_S800000x8x16 : S_.BroadcastsInDim S800000x8x16 (![] : Fin 0 → Fin S800000x8x16.rank)
  reducesTo_S800000x8x16_S800000x8_d2 : S800000x8x16.ReducesTo [2] S800000x8
  h_S_ : 0 < S_.numel
  bcast_S800000x8_S800000x8x1_0_1 : S800000x8.BroadcastsInDim S800000x8x1 (![0, 1] : Fin 2 → Fin S800000x8x1.rank)
  bcast_S_S800000x8x1 : S_.BroadcastsInDim S800000x8x1 (![] : Fin 0 → Fin S800000x8x1.rank)
  bcast_S800000x8x1_S800000x8x16_0_1_2 : S800000x8x1.BroadcastsInDim S800000x8x16 (![0, 1, 2] : Fin 3 → Fin S800000x8x16.rank)
  bcast_S_S50000x8x16 : S_.BroadcastsInDim S50000x8x16 (![] : Fin 0 → Fin S50000x8x16.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x8x16_S800000x1_S800000x8x16_12_0_n_n_0_1_1816_wf : GatherDims.WF S50000x8x16 S800000x1 S800000x8x16 [1, 2] [0] [] [0] [] 1 ![1, 8, 16]
  scatter_S50000x8x16_S800000x1_S800000x8x16_12_0_0_1_wf : ScatterDims.WF S50000x8x16 S800000x1 S800000x8x16 [1, 2] [0] [0] 1
  scatter_S50000x8x1_S800000x1_S800000x8x1_12_0_0_1_wf : ScatterDims.WF S50000x8x1 S800000x1 S800000x8x1 [1, 2] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf

class Facts : Prop extends Facts₀ where

variable [Facts]
-- ==== Proof.Spec.lean ====
/-
  The edge attention layer, row by row, on the extended reals.

  One edge contributes three rows of 128 numbers: the features of its source node, of its destination node, and its
  own.  Four affine maps of such rows (a 128 × 128 matrix and a bias each) give the key and the value of the source,
  the query of the destination and the edge's own projection.  The edge's score, column by column, is
  key · query · 1/4 · edge projection; the 128 columns are 8 heads of 16 columns (column = 16 · head + lane); a head's
  weight is exp of the head's score sum clipped to [-5, 5]; the message of the edge on a column is the source's value
  there times its head's weight.  Everything below is a function of the three rows and the eight parameter arrays only.
-/
import Idealize.ShloMosaic.PureOps.Ideal
import Idealize.ShloMosaic.Lib.ValueIdx

noncomputable section

namespace Cert.Bridge

open Idealize.ShloMosaic Idealize.ShloMosaic.ValueIdx

/-- A matrix of extended reals. -/
abbrev Mat (a b : Nat) : Type := (⟨2, ![a, b]⟩ : Shape).Idx → EReal

/-- A row of 128 extended reals. -/
abbrev Row : Type := Fin 128 → EReal

/-- The eight parameter arrays: a matrix and a bias row for the key, the value, the query and the edge projection. -/
structure Wts where
  WK : Mat 128 128
  bK : Row
  WV : Mat 128 128
  bV : Row
  WQ : Mat 128 128
  bQ : Row
  WE : Mat 128 128
  bE : Row

/-- Column `16 · head + lane` of the 128 columns. -/
def col (hh : Fin 8) (d : Fin 16) : Fin 128 := ⟨hh.val * 16 + d.val, by omega⟩

/-- An affine map of a row, at column j: the row times column j of the matrix, plus the bias. -/
def proj (x : Row) (W : Mat 128 128) (b : Row) (j : Fin 128) : EReal :=
  (∑ k : Fin 128, x k * W (ix2 k j)) + b j

/-- The score of an edge at column j, from its source, destination and edge rows. -/
def score (P : Wts) (xs xd xe : Row) (j : Fin 128) : EReal :=
  ((proj xs P.WK P.bK j * proj xd P.WQ P.bQ j) * Ideal.ofBits .f32 0x3E800000#32) * proj xe P.WE P.bE j

/-- The weight of an edge on a head: exp of the head's score sum clipped to [-5, 5]. -/
def wgt (P : Wts) (xs xd xe : Row) (hh : Fin 8) : EReal :=
  Ideal.exp (min (Ideal.ofBits .f32 0x40A00000#32) (max (Ideal.ofBits .f32 0xC0A00000#32)
    (∑ d : Fin 16, score P xs xd xe (col hh d))))

/-- The message of an edge on lane d of a head: the source's value there times the head's weight. -/
def msg (P : Wts) (xs xd xe : Row) (hh : Fin 8) (d : Fin 16) : EReal :=
  proj xs P.WV P.bV (col hh d) * wgt P xs xd xe hh

/-- Row r of a matrix with 128 columns. -/
def rowAt {R : Nat} (x : Mat R 128) (r : Fin R) : Row := fun k => x (ix2 r k)

end Cert.Bridge

end
-- ==== Proof.LibGather.lean ====
/-
  Row gathers read at an entry.

  Two lowerings of array indexing by a vector of row numbers, with one scalar start index per result row (an E × 1
  index array, index vector along axis 1):
    * rows of a matrix: operand N × C, result E × C, offset axis 1, collapsed axis 0, slice sizes (1, C);
      result entry (e, c) is the operand's entry (rho e, c);
    * entries of a vector: operand of length N, result of length E, collapsed axis 0, slice size 1;
      result entry e is the operand's entry rho e;
  where rho e is row e's start index read signed and clamped into [0, N - 1]. Both pick the SAME row rho e from the
  same index array. They hold for every extent N, E, C.
-/
import Idealize.ShloMosaic.PureOps.Ideal
import Idealize.ShloMosaic.Lib.ValueIdx

noncomputable section

namespace Cert.LibGather

open Idealize.ShloMosaic Idealize.ShloMosaic.ValueIdx

variable {α : Type}

/-- The row a start index selects: the index word read signed, clamped into [0, N - 1]. -/
def clampRow (N : Nat) {w : Nat} (v : BitVec w) : Nat := min v.toInt.toNat (N - 1)

theorem clampRow_lt {N w : Nat} (hN : 0 < N) (v : BitVec w) : clampRow N v < N := by
  unfold clampRow; omega

/-- A start index that, read signed, is a row number below N selects that row. -/
theorem clampRow_of_toInt {N w : Nat} (v : BitVec w) (n : Nat) (hn : n < N) (h : v.toInt = (n : Int)) :
    clampRow N v = n := by
  unfold clampRow; rw [h]; simp only [Int.toNat_natCast]; omega

section Rows

variable {N E C w : Nat}
  (wf : GatherDims.WF (⟨2, ![N, C]⟩ : Shape) ⟨2, ![E, 1]⟩ ⟨2, ![E, C]⟩ [1] [0] [] [0] [] 1 ![1, C])

/-- The row gather's dimension numbers. -/
abbrev rowDims : GatherDims (⟨2, ![N, C]⟩ : Shape) ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather read at (e, c): the operand at (rho e, c). -/
theorem rows_gather_apply (hN : 0 < N) (x : (⟨2, ![N, C]⟩ : Shape).Idx → α) (idx : IVec ⟨2, ![E, 1]⟩ w)
    (e : Fin E) (c : Fin C) :
    Host.gather (rowDims wf) x idx (ix2 e c)
      = x (ix2 ⟨clampRow N (idx (ix2 e (0 : Fin 1))), clampRow_lt hN _⟩ c) := by
  unfold Host.gather
  refine congrArg x (funext fun a => Fin.ext ?_)
  have hsi : (rowDims wf).siIdx (ix2 e c) ⟨List.idxOf (0 : Fin 2) (rowDims wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  match a with
  | ⟨0, _⟩ =>
    show (rowDims wf).start (ix2 e c) idx 0 + (rowDims wf).batchCoord (ix2 e c) 0 + (rowDims wf).offCoord (ix2 e c) 0
      = clampRow N (idx (ix2 e (0 : Fin 1)))
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl), hsi]
    rfl
  | ⟨1, _⟩ =>
    show (rowDims wf).start (ix2 e c) idx 1 + (rowDims wf).batchCoord (ix2 e c) 1 + (rowDims wf).offCoord (ix2 e c) 1
      = c.val
    rw [GatherDims.batchCoord_eq_zero _ _ _ List.not_mem_nil]
    have hs : (rowDims wf).start (ix2 e c) idx 1 = 0 := by
      unfold GatherDims.start
      rw [dif_neg (by decide : (1 : Fin 2) ∉ ([0] : List (Fin 2)))]
    have ho : (rowDims wf).offCoord (ix2 e c) 1 = c.val := by
      unfold GatherDims.offCoord
      rw [dif_pos (show (1 : Fin 2) ∈ (rowDims wf).sKept from
        (GatherDims.mem_sKept _ _).mpr ⟨(by decide : (1 : Fin 2) ∉ ([0] : List (Fin 2))), List.not_mem_nil⟩)]
      rfl
    rw [hs, ho]; omega

end Rows

section Entries

variable {N E w : Nat}
  (wf : GatherDims.WF (⟨1, ![N]⟩ : Shape) ⟨2, ![E, 1]⟩ ⟨1, ![E]⟩ [] [0] [] [0] [] 1 ![1])

/-- The entry gather's dimension numbers. -/
abbrev vecDims : GatherDims (⟨1, ![N]⟩ : Shape) ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The entry gather read at e: the operand at rho e. -/
theorem vec_gather_apply (hN : 0 < N) (x : (⟨1, ![N]⟩ : Shape).Idx → α) (idx : IVec ⟨2, ![E, 1]⟩ w) (e : Fin E) :
    Host.gather (vecDims wf) x idx (ix1 e) = x (ix1 ⟨clampRow N (idx (ix2 e (0 : Fin 1))), clampRow_lt hN _⟩) := by
  unfold Host.gather
  refine congrArg x (funext fun a => Fin.ext ?_)
  obtain rfl : a = 0 := Subsingleton.elim _ _
  have hsi : (vecDims wf).siIdx (ix1 e) ⟨List.idxOf (0 : Fin 1) (vecDims wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  show (vecDims wf).start (ix1 e) idx 0 + (vecDims wf).batchCoord (ix1 e) 0 + (vecDims wf).offCoord (ix1 e) 0
    = clampRow N (idx (ix2 e (0 : Fin 1)))
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims wf).startIndexMap from List.mem_singleton.mpr rfl), hsi]
  rfl

end Entries

/-- A row gather as a program states it (any record with the row gather's dimension numbers), read at (e, c):
    the operand at (rho e, c). -/
theorem gather_rows_apply {N E C w : Nat} (hN : 0 < N)
    (d : GatherDims (⟨2, ![N, C]⟩ : Shape) ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (c : Fin C) :
    Host.gather d x idx (ix2 e c) = x (ix2 ⟨clampRow N (idx (ix2 e (0 : Fin 1))), clampRow_lt hN _⟩ c) := by
  obtain ⟨o, cs, ob, sb, sm, iv, ss, wf⟩ := d
  simp only at h1 h2 h3 h4 h5 h6 h7
  subst h1 h2 h3 h4 h5 h6 h7
  exact rows_gather_apply wf hN x idx e c

/-- An entry gather as a program states it, read at e: the operand at rho e. -/
theorem gather_vec_apply {N E w : Nat} (hN : 0 < N)
    (d : GatherDims (⟨1, ![N]⟩ : Shape) ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 ⟨clampRow N (idx (ix2 e (0 : Fin 1))), clampRow_lt hN _⟩) := by
  obtain ⟨o, cs, ob, sb, sm, iv, ss, wf⟩ := d
  simp only at h1 h2 h3 h4 h5 h6 h7
  subst h1 h2 h3 h4 h5 h6 h7
  exact vec_gather_apply wf hN x idx e

end Cert.LibGather

end
-- ==== Proof.Edges.lean ====
/-
  The layer's two results as functions of the twelve argument arrays.

  An edge reads the node features at two rows: its source index and its destination index, each with a negative
  index wrapped by the number of nodes and then clamped into the table (what array indexing does), and its own
  row of the edge features.  Its messages and weights are summed into the node that its destination index, read
  as it is, names (an index outside the table is dropped).  The first result is, per node, head and lane, the summed
  messages divided by the summed weights plus the word of 1e-6; the second is the score of each edge.
-/
import proofs.«129676_j36979668418616_2_alg».proof.Proof.Gen.ReferenceIdeal.Read
import proofs.«129676_j36979668418616_2_alg».proof.Proof.Spec
import proofs.«129676_j36979668418616_2_alg».proof.Proof.LibGather

noncomputable section

namespace Cert.Bridge

open Idealize.ShloMosaic Idealize.ShloMosaic.ValueIdx Cert.ReferenceIdeal Cert.ReferenceIdeal.Read

/-- What the layer reads of its edges: per edge the source row, the destination row and the edge's own row, and
    the node it is summed into. -/
structure Edges where
  xs : Fin 800000 → Row
  xd : Fin 800000 → Row
  xe : Fin 800000 → Row
  seg : Fin 800000 → Int

/-- The score of edge e on lane d of head hh. -/
def eOut (P : Wts) (G : Edges) (e : Fin 800000) (hh : Fin 8) (d : Fin 16) : EReal :=
  score P (G.xs e) (G.xd e) (G.xe e) (col hh d)

/-- The summed messages of node n over its summed weights plus the word of 1e-6. -/
def hOut (P : Wts) (G : Edges) (n : Fin 50000) (hh : Fin 8) (d : Fin 16) : EReal :=
  Ideal.div
    (∑ e : Fin 800000, if G.seg e = (n.val : Int) then msg P (G.xs e) (G.xd e) (G.xe e) hh d else 0)
    ((∑ e : Fin 800000, if G.seg e = (n.val : Int) then wgt P (G.xs e) (G.xd e) (G.xe e) hh else 0)
      + Ideal.ofBits .f32 0x358637BD#32)

section Args

variable (x0 : (⟨S50000x128, .f32⟩ : BufTy).Contents (Elt Ideal)) (x1 : (⟨S800000x128, .f32⟩ : BufTy).Contents (Elt Ideal))
  (x2 x3 : (⟨S800000, .i32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))

/-- The node row an edge's wrapped source index picks. -/
def srcRow (e : Fin 800000) : Fin 50000 :=
  ⟨Cert.LibGather.clampRow 50000 (val_main_v25 (F := Ideal) x2 (ix2 e (0 : Fin 1))),
    Cert.LibGather.clampRow_lt (by norm_num) _⟩

/-- The node row an edge's wrapped destination index picks. -/
def dstRow (e : Fin 800000) : Fin 50000 :=
  ⟨Cert.LibGather.clampRow 50000 (val_main_v32 (F := Ideal) x3 (ix2 e (0 : Fin 1))),
    Cert.LibGather.clampRow_lt (by norm_num) _⟩

/-- The edges of the argument arrays: node features x0, edge features x1, source indices x2, destination indices x3. -/
def edges : Edges where
  xs e := rowAt x0 (srcRow x2 e)
  xd e := rowAt x0 (dstRow x3 e)
  xe e := rowAt x1 e
  seg e := (val_main_v53 (F := Ideal) x3 (ix2 e (0 : Fin 1))).toInt

/-- The parameters of the argument arrays: query (x4, x5), key (x6, x7), value (x8, x9), edge projection (x10, x11). -/
def wtsR : Wts where
  WK := x6
  bK j := x7 (ix1 j)
  WV := x8
  bV j := x9 (ix1 j)
  WQ := x4
  bQ j := x5 (ix1 j)
  WE := x10
  bE j := x11 (ix1 j)

/-- The first result, as an array of nodes × heads × lanes. -/
def outH : (⟨S50000x8x16, .f32⟩ : BufTy).Contents (Elt Ideal) :=
  fun i => hOut (wtsR x4 x5 x6 x7 x8 x9 x10 x11) (edges x0 x1 x2 x3) (i 0) (i 1) (i 2)

/-- The second result, as an array of edges × heads × lanes. -/
def outE : (⟨S800000x8x16, .f32⟩ : BufTy).Contents (Elt Ideal) :=
  fun i => eOut (wtsR x4 x5 x6 x7 x8 x9 x10 x11) (edges x0 x1 x2 x3) (i 0) (i 1) (i 2)

end Args

end Cert.Bridge

end
-- ==== Proof.LibScatter.lean ====
/-
  A row scatter-add read at an entry, on the extended reals.

  The lowering of a segment sum: an N × C operand, E update rows of C columns, and one scalar row index per update row
  (an E × 1 index array); update row e is added into operand row idx(e). On the extended reals the result's entry (n, c)
  is the operand's entry plus the sum, over the update rows e whose index (read signed) equals n, of the update's entry
  (e, c): an update lands on (n, c) exactly when its row index is n and its column is c, and an index outside
  [0, N) lands nowhere. It holds for every extent N, E, C.
-/
import Idealize.ShloMosaic.PureOps.Ideal
import Idealize.ShloMosaic.Lib.ValueIdx

noncomputable section

namespace Cert.LibScatter

open Idealize.ShloMosaic Idealize.ShloMosaic.ValueIdx

section Rows

variable {N E C w : Nat}
  (wf : ScatterDims.WF (⟨2, ![N, C]⟩ : Shape) ⟨2, ![E, 1]⟩ ⟨2, ![E, C]⟩ [1] [0] [0] 1)

/-- The row scatter's dimension numbers: window axis 1 of the updates, inserted axis 0 of the operand, the one
    index component goes to operand axis 0, and the index vector lies along axis 1 of the indices. -/
abbrev rowDims : ScatterDims (⟨2, ![N, C]⟩ : Shape) ⟨2, ![E, 1]⟩ ⟨2, ![E, C]⟩ := ⟨[1], [0], [0], 1, wf⟩

/-- On operand axis 0 the window of update entry (e, c') starts at row e's index, read signed: the one index component
    goes to axis 0, and it is read at (e, 0) of the indices. -/
theorem rows_start0 (idx : IVec ⟨2, ![E, 1]⟩ w) (e : Fin E) (c' : Fin C) :
    (rowDims wf).start (ix2 e c') idx 0 = (idx (ix2 e (0 : Fin 1))).toInt := by
  unfold ScatterDims.start
  rw [dif_pos (show (0 : Fin 2) ∈ (rowDims wf).scatterDimsToOperandDims from List.mem_singleton.mpr rfl)]
  have hsi : (rowDims wf).siIdx (ix2 e c') ⟨List.idxOf (0 : Fin 2) (rowDims wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which no index component goes to, every window starts at 0. -/
theorem rows_start1 (idx : IVec ⟨2, ![E, 1]⟩ w) (j : (⟨2, ![E, C]⟩ : Shape).Idx) :
    (rowDims wf).start j idx 1 = 0 := by
  unfold ScatterDims.start
  have h : (1 : Fin 2) ∉ (rowDims wf).scatterDimsToOperandDims :=
    (by decide : (1 : Fin 2) ∉ ([0] : List (Fin 2)))
  rw [dif_neg h]

/-- Operand axis 0 is inserted, so the window coordinate on it is 0. -/
theorem rows_window0 (j : (⟨2, ![E, C]⟩ : Shape).Idx) : (rowDims wf).window j 0 = 0 := by
  unfold ScatterDims.window
  have h : (0 : Fin 2) ∉ (rowDims wf).sKept :=
    (by decide : (0 : Fin 2) ∉ (List.finRange 2).filter (· ∉ ([0] : List (Fin 2))))
  rw [dif_neg h]

/-- Operand axis 1 is the one kept axis; the window coordinate on it is the update entry's column. -/
theorem rows_window1 (e : Fin E) (c' : Fin C) : (rowDims wf).window (ix2 e c') 1 = c'.val := by
  unfold ScatterDims.window
  have h : (1 : Fin 2) ∈ (rowDims wf).sKept :=
    (by decide : (1 : Fin 2) ∈ (List.finRange 2).filter (· ∉ ([0] : List (Fin 2))))
  rw [dif_pos h]
  rfl

/-- An update entry (e, c') lands on the operand entry (n, c) exactly when row e's index, read signed, is n and the
    columns agree: on axis 0 the result coordinate is the index itself (window coordinate 0), on axis 1 it is the
    window coordinate c' (start 0); an index outside [0, N) lands nowhere. -/
theorem rows_resultIdx?_eq_some_iff (idx : IVec ⟨2, ![E, 1]⟩ w) (e : Fin E) (c' : Fin C) (n : Fin N) (c : Fin C) :
    (rowDims wf).resultIdx? (ix2 e c') idx = some (ix2 n c)
      ↔ (idx (ix2 e (0 : Fin 1))).toInt = (n.val : Int) ∧ c' = c := by
  unfold ScatterDims.resultIdx?
  constructor
  · intro h
    split at h
    · rename_i hb
      have hf := Option.some.inj h
      have h0 := congrArg Fin.val (congrFun hf 0)
      have h1 := congrArg Fin.val (congrFun hf 1)
      have hb0 := (hb 0).1
      simp only [rows_start0, rows_start1, rows_window0, rows_window1] at h0 h1 hb0
      have h0' : ((idx (ix2 e (0 : Fin 1))).toInt + ((0 : Nat) : Int)).toNat = n.val := h0
      have h1' : ((0 : Int) + (c'.val : Int)).toNat = c.val := h1
      refine ⟨by omega, Fin.ext (by omega)⟩
    · exact absurd h (by simp)
  · rintro ⟨hi, rfl⟩
    have hb : ∀ a, 0 ≤ (rowDims wf).start (ix2 e c') idx a + (rowDims wf).window (ix2 e c') a ∧
        (rowDims wf).start (ix2 e c') idx a + (rowDims wf).window (ix2 e c') a
          < (⟨2, ![N, C]⟩ : Shape).size a := by
      intro a
      match a with
      | ⟨0, _⟩ =>
        show 0 ≤ (rowDims wf).start (ix2 e c') idx 0 + (rowDims wf).window (ix2 e c') 0 ∧
          (rowDims wf).start (ix2 e c') idx 0 + (rowDims wf).window (ix2 e c') 0 < (N : Int)
        rw [rows_start0, rows_window0]
        have := n.isLt
        omega
      | ⟨1, _⟩ =>
        show 0 ≤ (rowDims wf).start (ix2 e c') idx 1 + (rowDims wf).window (ix2 e c') 1 ∧
          (rowDims wf).start (ix2 e c') idx 1 + (rowDims wf).window (ix2 e c') 1 < (C : Int)
        rw [rows_start1, rows_window1]
        have := c'.isLt
        omega
    rw [dif_pos hb]
    congr 1
    funext a
    refine Fin.ext ?_
    match a with
    | ⟨0, _⟩ =>
      show ((rowDims wf).start (ix2 e c') idx 0 + (rowDims wf).window (ix2 e c') 0).toNat = n.val
      rw [rows_start0, rows_window0]
      omega
    | ⟨1, _⟩ =>
      show ((rowDims wf).start (ix2 e c') idx 1 + (rowDims wf).window (ix2 e c') 1).toNat = c'.val
      rw [rows_start1, rows_window1]
      omega

/-- The row scatter-add at the literal dimension numbers, read at entry (n, c). -/
theorem rows_hostScatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims wf) x idx upd (ix2 n c)
      = x (ix2 n c) + ∑ e : Fin E, if (idx (ix2 e (0 : Fin 1))).toInt = (n.val : Int) then upd (ix2 e c) else 0 := by
  unfold Ideal.hostScatterAdd
  congr 1
  rw [Finset.sum_filter, sum_idx2]
  refine Finset.sum_congr rfl fun e _ => ?_
  simp only [rows_resultIdx?_eq_some_iff]
  by_cases hA : (idx (ix2 e (0 : Fin 1))).toInt = (n.val : Int)
  · simp [hA]
  · simp [hA]

end Rows

/-- A row scatter-add (the lowering of a segment sum): operand N×C, one scalar row index per update row (indices E×1),
    updates E×C, window axis 1, inserted axis 0. At the exact instance, entry (n, c) of the result is the operand's
    entry plus the sum, over the update rows e whose index (read signed) is n, of the update's entry (e, c). -/
theorem hostScatterAdd_rows_apply {N E C w : Nat}
    (d : ScatterDims (⟨2, ![N, C]⟩ : Shape) ⟨2, ![E, 1]⟩ ⟨2, ![E, C]⟩)
    (hu : d.updateWindowDims = [1]) (hi : d.insertedWindowDims = [0])
    (hs : d.scatterDimsToOperandDims = [0]) (hv : d.indexVectorDim = 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd d x idx upd (ix2 n c)
      = x (ix2 n c) + ∑ e : Fin E, if (idx (ix2 e (0 : Fin 1))).toInt = (n.val : Int) then upd (ix2 e c) else 0 := by
  obtain ⟨uw, iw, sd, iv, wf⟩ := d
  simp only at hu hi hs hv
  subst hu hi hs hv
  exact rows_hostScatterAdd_apply wf x idx upd n c

/-- The same, for the scatter as a host program states it. -/
theorem scatterAdd_rows_apply {N E C w : Nat}
    (d : ScatterDims (⟨2, ![N, C]⟩ : Shape) ⟨2, ![E, 1]⟩ ⟨2, ![E, C]⟩)
    (hu : d.updateWindowDims = [1]) (hi : d.insertedWindowDims = [0])
    (hs : d.scatterDimsToOperandDims = [0]) (hv : d.indexVectorDim = 1)
    (x : FVec Ideal (⟨2, ![N, C]⟩ : Shape) .f32) (idx : IVec ⟨2, ![E, 1]⟩ w)
    (upd : FVec Ideal (⟨2, ![E, C]⟩ : Shape) .f32) (n : Fin N) (c : Fin C) :
    Host.scatterAdd d x idx upd (ix2 n c)
      = x (ix2 n c) + ∑ e : Fin E, if (idx (ix2 e (0 : Fin 1))).toInt = (n.val : Int) then upd (ix2 e c) else 0 :=
  hostScatterAdd_rows_apply d hu hi hs hv x idx upd n c

end Cert.LibScatter

end
-- ==== Proof.LibSplitCols.lean ====
/-
  Splitting a matrix's trailing axis into two, adding a trailing unit axis, and repeating along a trailing unit axis,
  read at an index.

  A reshape keeps every element's row-major position. For an R × K matrix read as R × A × B (K = A · B), entry
  (r, a, b) is entry (r, a · B + b) of the matrix: the row-major position of (r, a, b) is (r · A + a) · B + b, the
  position of (r, k) is r · K + k, and the two agree when k = a · B + b. For an R × A matrix read as R × A × 1, entry
  (r, a, 0) is entry (r, a). An R × A × 1 array repeated along its unit trailing axis to R × A × B (each axis kept in
  place) reads, at (r, a, b), the array at (r, a, 0). All three are generic in the extents and in the element type; an
  axis of the operand whose extent happens to be 1 has only the coordinate 0, so the two readings agree there.
-/
import Idealize.ShloMosaic.Lib.Pipeline.Value
import Idealize.ShloMosaic.Lib.ValueIdx

namespace Cert.LibSplitCols

open Idealize.ShloMosaic Idealize.ShloMosaic.ValueIdx

variable {α : Type}

/-- An R × K matrix reshaped to R × A × B (K = A · B), at (r, a, b), reads the matrix at (r, k) with k = a · B + b. -/
theorem shapeCast_splitCols_apply {R K A B : ℕ} (y : (⟨2, ![R, K]⟩ : Shape).Idx → α)
    (h : (⟨2, ![R, K]⟩ : Shape).ShapeCasts ⟨3, ![R, A, B]⟩) (hK : K = A * B) (r : Fin R) (a : Fin A) (b : Fin B)
    (k : Fin K) (hk : k.val = a.val * B + b.val) : shapeCast ⟨3, ![R, A, B]⟩ y h (ix3 r a b) = y (ix2 r k) :=
  shapeCast_apply y h _ _ (by
    rw [Shape.rowMajor_val_two, Shape.rowMajor_val_three]
    show r.val * K + k.val = (r.val * A + a.val) * B + b.val
    rw [hk, hK, Nat.add_mul, Nat.mul_assoc, Nat.add_assoc])

/-- An R × A matrix reshaped to R × A × 1, at (r, a, u), reads the matrix at (r, a). -/
theorem shapeCast_unitLast_apply {R A : ℕ} (y : (⟨2, ![R, A]⟩ : Shape).Idx → α)
    (h : (⟨2, ![R, A]⟩ : Shape).ShapeCasts ⟨3, ![R, A, 1]⟩) (r : Fin R) (a : Fin A) (u : Fin 1) :
    shapeCast ⟨3, ![R, A, 1]⟩ y h (ix3 r a u) = y (ix2 r a) :=
  shapeCast_apply y h _ _ (by
    have hu : u.val = 0 := by omega
    rw [Shape.rowMajor_val_two, Shape.rowMajor_val_three]
    show r.val * A + a.val = (r.val * A + a.val) * 1 + u.val
    rw [hu, Nat.mul_one, Nat.add_zero])

/-- An R × A × 1 array repeated along its trailing unit axis to R × A × B, every axis kept in place, reads at
    (r, a, b) the array at (r, a, 0). -/
theorem broadcastInDim_lastUnit_apply {R A B : ℕ} (v : (⟨3, ![R, A, 1]⟩ : Shape).Idx → α)
    (h : (⟨3, ![R, A, 1]⟩ : Shape).BroadcastsInDim ⟨3, ![R, A, B]⟩ ![0, 1, 2]) (r : Fin R) (a : Fin A) (b : Fin B) :
    broadcastInDim ⟨3, ![R, A, B]⟩ ![0, 1, 2] h v (ix3 r a b) = v (ix3 r a (0 : Fin 1)) := by
  refine broadcastInDim_apply ![0, 1, 2] h v (ix3 r a b) (ix3 r a (0 : Fin 1)) fun ax => ?_
  match ax with
  | ⟨0, _⟩ =>
    show r.val = if R = 1 then 0 else r.val
    split
    · have := r.isLt; omega
    · rfl
  | ⟨1, _⟩ =>
    show a.val = if A = 1 then 0 else a.val
    split
    · have := a.isLt; omega
    · rfl
  | ⟨2, _⟩ => rfl

end Cert.LibSplitCols
-- ==== Proof.LibBcast.lean ====
/-
  Host broadcasts and a row reshape, read at an index.

  A vector of length `a` broadcast first to an `a × 1` column and then across `b` columns reads, at `(i, c)`, the vector
  at `i`; a vector of length `b` broadcast first to a `1 × b` row and then down `a` rows reads, at `(i, c)`, the vector
  at `c`; a scalar broadcast to any shape reads the scalar everywhere; and a `1 × n` array reshaped to length `n`
  reads, at `j`, the array at `(0, j)`.  A broadcast reads its operand at the coordinates its axes are sent to, and at
  `0` on an operand axis of extent one; when the extent of a broadcast axis happens to be one as well, the coordinate
  read is below one, hence `0`, and the two descriptions agree.  A reshape keeps the row-major position.
-/
import Idealize.ShloMosaic.Lib.Pipeline.Value
import Idealize.ShloMosaic.Lib.ValueIdx

namespace Cert.LibBcast

open Idealize.ShloMosaic Idealize.ShloMosaic.ValueIdx

/-- A vector broadcast to a column and then across `b` columns, read at `(i, c)`, is the vector at `i`. -/
theorem rows_apply {α : Type} {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![a, 1]⟩ ![0] h1 v) (ix2 i c) = v (ix1 i) := by
  have hi : i.val < a := i.isLt
  have e2 := broadcastInDim_apply ![0, 1] h2 (broadcastInDim ⟨2, ![a, 1]⟩ ![0] h1 v) (ix2 i c) (ix2 i (0 : Fin 1)) (by
    intro d
    match d with
    | ⟨0, _⟩ =>
      show i.val = if a = 1 then 0 else i.val
      split
      · omega
      · rfl
    | ⟨1, _⟩ =>
      show 0 = if 1 = 1 then 0 else c.val
      exact (if_pos rfl).symm)
  have e1 := broadcastInDim_apply ![0] h1 v (ix2 i (0 : Fin 1)) (ix1 i) (by
    intro d
    match d with
    | ⟨0, _⟩ =>
      show i.val = if a = 1 then 0 else i.val
      split
      · omega
      · rfl)
  exact e2.trans e1

/-- A vector broadcast to a row and then down `a` rows, read at `(i, c)`, is the vector at `c`. -/
theorem cols_apply {α : Type} {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![1, b]⟩ ![1] h1 v) (ix2 i c) = v (ix1 c) := by
  have hc : c.val < b := c.isLt
  have e2 := broadcastInDim_apply ![0, 1] h2 (broadcastInDim ⟨2, ![1, b]⟩ ![1] h1 v) (ix2 i c) (ix2 (0 : Fin 1) c) (by
    intro d
    match d with
    | ⟨0, _⟩ =>
      show 0 = if 1 = 1 then 0 else i.val
      exact (if_pos rfl).symm
    | ⟨1, _⟩ =>
      show c.val = if b = 1 then 0 else c.val
      split
      · omega
      · rfl)
  have e1 := broadcastInDim_apply ![1] h1 v (ix2 (0 : Fin 1) c) (ix1 c) (by
    intro d
    match d with
    | ⟨0, _⟩ =>
      show c.val = if b = 1 then 0 else c.val
      split
      · omega
      · rfl)
  exact e2.trans e1

/-- A scalar broadcast to any shape reads the scalar at every index. -/
theorem scalar_apply {α : Type} (T : Shape) (v : (⟨0, ![]⟩ : Shape).Idx → α)
    (h : (⟨0, ![]⟩ : Shape).BroadcastsInDim T (![] : Fin 0 → Fin T.rank)) (i : T.Idx) :
    broadcastInDim T ![] h v i = v ix0 :=
  broadcastInDim_apply ![] h v i ix0 fun d => d.elim0

/-- A `1 × n` array reshaped to length `n` reads, at `j`, the array at `(0, j)`: the same row-major position. -/
theorem row_reshape_apply {α : Type} {n : ℕ} (x : (⟨2, ![1, n]⟩ : Shape).Idx → α)
    (h : (⟨2, ![1, n]⟩ : Shape).ShapeCasts ⟨1, ![n]⟩) (j : Fin n) :
    shapeCast ⟨1, ![n]⟩ x h (ix1 j) = x (ix2 (0 : Fin 1) j) :=
  shapeCast_apply x h (ix1 j) (ix2 (0 : Fin 1) j) (by
    rw [Shape.rowMajor_val_two, Shape.rowMajor_val_one]
    show 0 * n + j.val = j.val
    omega)

end Cert.LibBcast
-- ==== Proof.Tail.lean ====
/-
  The host operations after the kernel call, read at an index.

  After the kernel has written the score array (800000 × 128) and the combined array (800000 × 136: the eight heads'
  messages in columns 0–127, the eight heads' weights in columns 128–135), the program
    * reads the score array's 128 columns as 8 heads of 16 lanes: entry (e, h, d) is entry (e, 16 h + d);
    * sums the combined array's rows into the nodes their destination indices name (a scatter-add into zeros): entry
      (n, c) of the sum is the sum, over the rows e whose destination index is n, of entry (e, c);
    * divides the summed messages, read as 8 heads of 16 lanes, by the summed weight of the head plus the constant
      word of 1e-6: entry (n, h, d) is the sum's entry (n, 16 h + d) over the sum's entry (n, 128 + h) plus that word.
  Every step is a layout operation or a pointwise operation read at one index: a reshape keeps the row-major position,
  a slice shifts by its offsets, a broadcast reads coordinate 0 on a unit axis, and the scatter-add is the sum above.
-/
import proofs.«129676_j36979668418616_2_alg».proof.KernelIdeal
import proofs.«129676_j36979668418616_2_alg».proof.Proof.LibScatter
import proofs.«129676_j36979668418616_2_alg».proof.Proof.LibSplitCols
import proofs.«129676_j36979668418616_2_alg».proof.Proof.LibBcast
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Cert.KernelIdeal.Tail

open Cert.KernelIdeal Idealize.ShloMosaic Idealize.ShloMosaic.ValueIdx
open Cert.KernelIdeal.Facts₀ Cert.KernelIdeal.Facts

variable [Cert.KernelIdeal.Facts]

/-- The combined array summed into the nodes its rows' destination indices name. -/
def scat (dst : IVec S800000 32) (A : FVec Ideal S800000x136 .f32) : FVec Ideal S50000x136 .f32 :=
  Host.scatterAdd scatter_S50000x136_S800000x1_S800000x136_1_0_0_1
    (broadcastInDim S50000x136 ![] bcast_S_S50000x136 (constant (F := Ideal) S_ .f32 0x00000000#32))
    (broadcastInDim S800000x1 ![0] bcast_S800000_S800000x1_0 dst) A

/-- The first result: summed messages over summed weights plus the word of 1e-6. -/
def tailH (dst : IVec S800000 32) (A : FVec Ideal S800000x136 .f32) : FVec Ideal S50000x8x16 .f32 :=
  Host.divf
    (shapeCast S50000x8x16 (extractStridedSlice S50000x128 ![0, 0] (scat dst A) slices_S50000x136_S50000x128_0_0) shapeCasts_S50000x128_S50000x8x16)
    (broadcastInDim S50000x8x16 ![0, 1, 2] bcast_S50000x8x1_S50000x8x16_0_1_2
      (addf (shapeCast S50000x8x1 (extractStridedSlice S50000x8 ![0, 128] (scat dst A) slices_S50000x136_S50000x8_0_128) shapeCasts_S50000x8_S50000x8x1)
        (broadcastInDim S50000x8x1 ![] bcast_S_S50000x8x1 (constant (F := Ideal) S_ .f32 0x358637BD#32))))

/-- The second result: the score array with its 128 columns read as 8 heads of 16 lanes. -/
def tailE (A : FVec Ideal S800000x128 .f32) : FVec Ideal S800000x8x16 .f32 :=
  shapeCast S800000x8x16 A shapeCasts_S800000x128_S800000x8x16

/-- The score array read as heads and lanes: entry (e, h, d) is entry (e, 16 h + d). -/
theorem tailE_apply (A : FVec Ideal S800000x128 .f32) (e : Fin 800000) (hh : Fin 8) (d : Fin 16) :
    tailE A (ix3 e hh d) = A (ix2 e (⟨hh.val * 16 + d.val, by omega⟩ : Fin 128)) :=
  Cert.LibSplitCols.shapeCast_splitCols_apply (R := 800000) (K := 128) (A := 8) (B := 16) A
    shapeCasts_S800000x128_S800000x8x16 rfl e hh d ⟨hh.val * 16 + d.val, by omega⟩ rfl

/-- The scatter-add into zeros read at (n, c): the sum, over the rows whose destination index (read signed) is n, of
    the combined array's entry (e, c). -/
theorem scat_apply (dst : IVec S800000 32) (A : FVec Ideal S800000x136 .f32) (n : Fin 50000) (c : Fin 136) :
    scat dst A (ix2 n c)
      = ∑ e : Fin 800000, if (broadcastInDim S800000x1 ![0] bcast_S800000_S800000x1_0 dst (ix2 e (0 : Fin 1))).toInt
          = (n.val : Int) then A (ix2 e c) else 0 := by
  have h := Cert.LibScatter.scatterAdd_rows_apply (N := 50000) (E := 800000) (C := 136) (w := 32)
    scatter_S50000x136_S800000x1_S800000x136_1_0_0_1 rfl rfl rfl rfl
    (broadcastInDim S50000x136 ![] bcast_S_S50000x136 (constant (F := Ideal) S_ .f32 0x00000000#32))
    (broadcastInDim S800000x1 ![0] bcast_S800000_S800000x1_0 dst) A n c
  have hz : broadcastInDim S50000x136 ![] bcast_S_S50000x136 (constant (F := Ideal) S_ .f32 0x00000000#32) (ix2 n c)
      = (0 : EReal) :=
    (Cert.LibBcast.scalar_apply S50000x136 (constant (F := Ideal) S_ .f32 0x00000000#32) bcast_S_S50000x136
      (ix2 n c)).trans Ideal.ofBits_zero_f32
  unfold scat
  rw [h, hz, zero_add]

/-- Columns 0–127 of a 50000 × 136 array read as 8 heads of 16 lanes: entry (n, h, d) is the array's entry
    (n, 16 h + d). -/
theorem msgs_apply (X : FVec Ideal S50000x136 .f32) (n : Fin 50000) (hh : Fin 8) (d : Fin 16) :
    shapeCast S50000x8x16 (extractStridedSlice S50000x128 ![0, 0] X slices_S50000x136_S50000x128_0_0)
        shapeCasts_S50000x128_S50000x8x16 (ix3 n hh d)
      = X (ix2 n (⟨hh.val * 16 + d.val, by omega⟩ : Fin 136)) := by
  have h1 := Cert.LibSplitCols.shapeCast_splitCols_apply (R := 50000) (K := 128) (A := 8) (B := 16)
    (extractStridedSlice S50000x128 ![0, 0] X slices_S50000x136_S50000x128_0_0)
    shapeCasts_S50000x128_S50000x8x16 rfl n hh d ⟨hh.val * 16 + d.val, by omega⟩ rfl
  have h2 := extractStridedSlice_apply ![0, 0] X slices_S50000x136_S50000x128_0_0
    (ix2 n (⟨hh.val * 16 + d.val, by omega⟩ : Fin 128)) (ix2 n (⟨hh.val * 16 + d.val, by omega⟩ : Fin 136))
    (fun a => by
      match a with
      | ⟨0, _⟩ => exact (Nat.zero_add _).symm
      | ⟨1, _⟩ => exact (Nat.zero_add _).symm)
  exact h1.trans h2

/-- Columns 128–135 of a 50000 × 136 array read with a trailing unit axis: entry (n, h, 0) is the array's entry
    (n, 128 + h). -/
theorem wgts_apply (X : FVec Ideal S50000x136 .f32) (n : Fin 50000) (hh : Fin 8) :
    shapeCast S50000x8x1 (extractStridedSlice S50000x8 ![0, 128] X slices_S50000x136_S50000x8_0_128)
        shapeCasts_S50000x8_S50000x8x1 (ix3 n hh (0 : Fin 1))
      = X (ix2 n (⟨128 + hh.val, by omega⟩ : Fin 136)) := by
  have h1 := Cert.LibSplitCols.shapeCast_unitLast_apply (R := 50000) (A := 8)
    (extractStridedSlice S50000x8 ![0, 128] X slices_S50000x136_S50000x8_0_128)
    shapeCasts_S50000x8_S50000x8x1 n hh (0 : Fin 1)
  have h2 := extractStridedSlice_apply ![0, 128] X slices_S50000x136_S50000x8_0_128
    (ix2 n hh) (ix2 n (⟨128 + hh.val, by omega⟩ : Fin 136))
    (fun a => by
      match a with
      | ⟨0, _⟩ => exact (Nat.zero_add _).symm
      | ⟨1, _⟩ => rfl)
  exact h1.trans h2

/-- The quotient of the two column groups of any 50000 × 136 array, read at (n, h, d): its entry (n, 16 h + d) over
    its entry (n, 128 + h) plus the word of 1e-6. -/
theorem quot_apply (X : FVec Ideal S50000x136 .f32) (n : Fin 50000) (hh : Fin 8) (d : Fin 16) :
    Host.divf
        (shapeCast S50000x8x16 (extractStridedSlice S50000x128 ![0, 0] X slices_S50000x136_S50000x128_0_0) shapeCasts_S50000x128_S50000x8x16)
        (broadcastInDim S50000x8x16 ![0, 1, 2] bcast_S50000x8x1_S50000x8x16_0_1_2
          (addf (shapeCast S50000x8x1 (extractStridedSlice S50000x8 ![0, 128] X slices_S50000x136_S50000x8_0_128) shapeCasts_S50000x8_S50000x8x1)
            (broadcastInDim S50000x8x1 ![] bcast_S_S50000x8x1 (constant (F := Ideal) S_ .f32 0x358637BD#32))))
        (ix3 n hh d)
      = Ideal.div (X (ix2 n (⟨hh.val * 16 + d.val, by omega⟩ : Fin 136)))
          (X (ix2 n (⟨128 + hh.val, by omega⟩ : Fin 136)) + Ideal.ofBits .f32 0x358637BD#32) := by
  -- the constant word laid over the weights' shape
  have hc : broadcastInDim S50000x8x1 ![] bcast_S_S50000x8x1 (constant (F := Ideal) S_ .f32 0x358637BD#32)
        (ix3 n hh (0 : Fin 1)) = Ideal.ofBits .f32 0x358637BD#32 :=
    Cert.LibBcast.scalar_apply S50000x8x1 (constant (F := Ideal) S_ .f32 0x358637BD#32) bcast_S_S50000x8x1
      (ix3 n hh (0 : Fin 1))
  -- the denominator: the broadcast along the lanes reads lane 0
  have hb := Cert.LibSplitCols.broadcastInDim_lastUnit_apply (R := 50000) (A := 8) (B := 16)
    (addf (shapeCast S50000x8x1 (extractStridedSlice S50000x8 ![0, 128] X slices_S50000x136_S50000x8_0_128) shapeCasts_S50000x8_S50000x8x1)
      (broadcastInDim S50000x8x1 ![] bcast_S_S50000x8x1 (constant (F := Ideal) S_ .f32 0x358637BD#32)))
    bcast_S50000x8x1_S50000x8x16_0_1_2 n hh d
  have hden := hb.trans ((addf_apply _ _ _).trans (congrArg₂ (· + ·) (wgts_apply X n hh) hc))
  show Ideal.div _ _ = _
  rw [msgs_apply X n hh d, hden]

/-- The first result read at (n, h, d): the summed messages' entry (n, 16 h + d) over the summed weights' entry
    (n, 128 + h) plus the word of 1e-6. -/
theorem tailH_apply (dst : IVec S800000 32) (A : FVec Ideal S800000x136 .f32) (n : Fin 50000) (hh : Fin 8)
    (d : Fin 16) :
    tailH dst A (ix3 n hh d)
      = Ideal.div
          (∑ e : Fin 800000, if (broadcastInDim S800000x1 ![0] bcast_S800000_S800000x1_0 dst (ix2 e (0 : Fin 1))).toInt = (n.val : Int) then A (ix2 e (⟨hh.val * 16 + d.val, by omega⟩ : Fin 136)) else 0)
          ((∑ e : Fin 800000, if (broadcastInDim S800000x1 ![0] bcast_S800000_S800000x1_0 dst (ix2 e (0 : Fin 1))).toInt = (n.val : Int) then A (ix2 e (⟨128 + hh.val, by omega⟩ : Fin 136)) else 0)
            + Ideal.ofBits .f32 0x358637BD#32) := by
  unfold tailH
  rw [quot_apply (scat dst A) n hh d, scat_apply, scat_apply]

end Cert.KernelIdeal.Tail

end
-- ==== Proof.KernelTerms.lean ====
/-
  What one grid step stores, as three pure terms of the eleven input blocks.

  The body stores the score block (4000 × 128) whole into its first output, and into its second output (4000 × 136)
  the eight heads' messages side by side (columns 0–127) and the eight heads' weights (columns 128–135).  Each term
  below is the stored value written over the loads: the source, destination and edge blocks `x0 x1 x2`, and the
  key, value, query and edge-projection matrices and bias rows `x3 … x10` in the order the body receives them.
-/
import proofs.«129676_j36979668418616_2_alg».proof.Proof.Gen.KernelIdeal.Skeleton

noncomputable section

namespace Cert.KernelIdeal.Terms

open Idealize.ShloMosaic Idealize.SL.Sem Cert.KernelIdeal Cert.KernelIdeal.Gen

variable {F : FTy → Type} [FloatOps F]

section
variable (x0 x1 x2 : Vec F S4000x128 .bf16) (x3 : Vec F S128x128 .f32) (x4 : Vec F S1x128 .f32)
  (x5 : Vec F S128x128 .f32) (x6 : Vec F S1x128 .f32) (x7 : Vec F S128x128 .f32) (x8 : Vec F S1x128 .f32)
  (x9 : Vec F S128x128 .f32) (x10 : Vec F S1x128 .f32)

/-- The source's keys: source block times the key matrix, plus the key bias. -/
abbrev keys : FVec F S4000x128 .f32 := k0_pay4 x0 x3 x4
/-- The source's values. -/
abbrev vals : FVec F S4000x128 .f32 := k0_pay5 x0 x5 x6
/-- The destination's queries. -/
abbrev qrys : FVec F S4000x128 .f32 := k0_pay6 x1 x7 x8
/-- The edge block times the edge-projection matrix (its bias is added inside the score). -/
abbrev eprj : FVec F S4000x128 .f32 := k0_pay7 x2 x9
/-- The edge-projection bias laid over the block's rows. -/
abbrev ebias : FVec F S4000x128 .f32 := k0_pay8 x10

/-- The score block: what the body stores into its first output. -/
def scoreBlk : FVec F S4000x128 .f32 :=
  k0_pay9 (keys x0 x3 x4) (qrys x1 x7 x8) (eprj x2 x9) (ebias x10)

/-- The upper clip bound as the body's scalar. -/
abbrev hi : F .f32 := Scalar.ofBits .f32 0x40A00000#32

/-- The weights of heads 0 … 7, one 4000 × 1 column each. -/
abbrev w0 : FVec F S4000x1 .f32 := k0_pay10 (keys x0 x3 x4) (qrys x1 x7 x8) (eprj x2 x9) (ebias x10)
abbrev w1 : FVec F S4000x1 .f32 := k0_pay12 (keys x0 x3 x4) (qrys x1 x7 x8) (eprj x2 x9) (ebias x10)
abbrev w2 : FVec F S4000x1 .f32 := k0_pay14 (keys x0 x3 x4) (qrys x1 x7 x8) (eprj x2 x9) (ebias x10)
abbrev w3 : FVec F S4000x1 .f32 :=
  k0_pay17 (hi (F := F)) (k0_pay16 (keys x0 x3 x4) (qrys x1 x7 x8) (eprj x2 x9) (ebias x10))
abbrev w4 : FVec F S4000x1 .f32 := k0_pay19 (scoreBlk x0 x1 x2 x3 x4 x7 x8 x9 x10)
abbrev w5 : FVec F S4000x1 .f32 := k0_pay21 (scoreBlk x0 x1 x2 x3 x4 x7 x8 x9 x10)
abbrev w6 : FVec F S4000x1 .f32 := k0_pay23 (scoreBlk x0 x1 x2 x3 x4 x7 x8 x9 x10)
abbrev w7 : FVec F S4000x1 .f32 := k0_pay25 (scoreBlk x0 x1 x2 x3 x4 x7 x8 x9 x10)

/-- The eight heads' messages side by side: what the body stores into columns 0–127 of its second output. -/
def msgBlk : FVec F S4000x128 .f32 :=
  k0_pay1
    (k0_pay11 (keys x0 x3 x4) (vals x0 x5 x6) (qrys x1 x7 x8) (eprj x2 x9) (ebias x10))
    (k0_pay13 (keys x0 x3 x4) (vals x0 x5 x6) (qrys x1 x7 x8) (eprj x2 x9) (ebias x10))
    (k0_pay15 (keys x0 x3 x4) (vals x0 x5 x6) (qrys x1 x7 x8) (eprj x2 x9) (ebias x10))
    (k0_pay18 (vals x0 x5 x6) (hi (F := F)) (k0_pay16 (keys x0 x3 x4) (qrys x1 x7 x8) (eprj x2 x9) (ebias x10)))
    (k0_pay20 (vals x0 x5 x6) (scoreBlk x0 x1 x2 x3 x4 x7 x8 x9 x10))
    (k0_pay22 (vals x0 x5 x6) (scoreBlk x0 x1 x2 x3 x4 x7 x8 x9 x10))
    (k0_pay24 (vals x0 x5 x6) (scoreBlk x0 x1 x2 x3 x4 x7 x8 x9 x10))
    (w7 x0 x1 x2 x3 x4 x7 x8 x9 x10)
    (k0_pay26 (vals x0 x5 x6))

/-- The eight heads' weights side by side: what the body stores into columns 128–135 of its second output. -/
def wgtBlk : FVec F S4000x8 .f32 :=
  k0_pay2 (w0 x0 x1 x2 x3 x4 x7 x8 x9 x10) (w1 x0 x1 x2 x3 x4 x7 x8 x9 x10) (w2 x0 x1 x2 x3 x4 x7 x8 x9 x10)
    (w3 x0 x1 x2 x3 x4 x7 x8 x9 x10) (w4 x0 x1 x2 x3 x4 x7 x8 x9 x10) (w5 x0 x1 x2 x3 x4 x7 x8 x9 x10)
    (w6 x0 x1 x2 x3 x4 x7 x8 x9 x10) (w7 x0 x1 x2 x3 x4 x7 x8 x9 x10)

end

end Cert.KernelIdeal.Terms

end
-- ==== Proof.KernelPieces.lean ====
/-
  What one grid step leaves in its two output staging buffers, as pure terms of the eleven input blocks.

  The body's stores are read back through the buffers' views: a read of writes over arbitrary prior contents is the
  canonical overlay of the written pieces.  The first output is written by one store over the whole buffer, so it
  holds that store's value, the score block.  The second output (4000 × 136) is written by two stores over disjoint
  column ranges: columns 0–127 hold the messages, columns 128–135 hold the weights.  The loads inside each stored
  value read whole input buffers, hence the input blocks themselves.
-/
import proofs.«129676_j36979668418616_2_alg».proof.Proof.Gen.KernelIdeal.Frame
import proofs.«129676_j36979668418616_2_alg».proof.Proof.KernelTerms
import Idealize.ShloMosaic.Lib.ValueIdx
import Idealize.ShloMosaic.Lib.Pipeline.Value

set_option maxRecDepth 16384

noncomputable section

namespace Cert.KernelIdeal.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

section
variable (c : Dev nD) (i : grid0.Coords) (arg1 : Memref sig .tc .vmem S4000x128 .bf16) (harg1 : arg1.IsWhole) (arg2 : Memref sig .tc .vmem S4000x128 .bf16) (harg2 : arg2.IsWhole) (arg3 : Memref sig .tc .vmem S4000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S4000x128 .f32) (harg12 : arg12.IsWhole) (arg13 : Memref sig .tc .vmem S4000x136 .f32) (harg13 : arg13.IsWhole)
  (x0 x1 x2 : Vec F S4000x128 .bf16) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32)

/-- The zero offsets of a rank-two access, as the constant function. -/
theorem hz : (![0, 0] : Fin 2 → Nat) = fun _ => 0 := funext fun a => by fin_cases a <;> rfl

/-- The first output holds the score block: its one store covers the whole buffer. -/
theorem out11_eq : Gen.out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 = Terms.scoreBlk x0 x1 x2 x3 x4 x7 x8 x9 x10 := by
  unfold Gen.out0_A_11
  rw [View.read_writes_junk_eq_canon]
  unfold Gen.kernelRun0_A
  dsimp only
  sl_unfold_words
  rw [View.canon_unit_zero (S := S4000x128) hz]
  simp only [View.readAt_eq_ld, harg1.read_unread, harg2.read_unread, harg3.read_unread, harg4.read_unread,
    harg5.read_unread, harg8.read_unread, harg9.read_unread, harg10.read_unread, harg11.read_unread,
    View.ld_unit_zero (S := S4000x128) hz, View.ld_unit_zero (S := S128x128) hz, View.ld_unit_zero (S := S1x128) hz]
  rfl

/-- The second output is the overlay of its two stores: the weights over columns 128–135, written last, and the
    messages over columns 0–127. -/
theorem out12_canon : Gen.out0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10
    = View.canon (Val := Elt F)
        [⟨Rect.unit (s := S4000x136) ![0, 128] S4000x8.size inb_S4000x136_S4000x8_0_128,
            Terms.wgtBlk x0 x1 x2 x3 x4 x7 x8 x9 x10⟩,
         ⟨Rect.unit (s := S4000x136) ![0, 0] S4000x128.size inb_S4000x136_S4000x128_0_0,
            Terms.msgBlk x0 x1 x2 x3 x4 x5 x6 x7 x8 x9 x10⟩] := by
  unfold Gen.out0_A_12
  rw [View.read_writes_junk_eq_canon]
  unfold Gen.kernelRun0_A
  dsimp only
  sl_unfold_words
  simp only [View.readAt_eq_ld, harg1.read_unread, harg2.read_unread, harg3.read_unread, harg4.read_unread,
    harg5.read_unread, harg6.read_unread, harg7.read_unread, harg8.read_unread, harg9.read_unread, harg10.read_unread,
    harg11.read_unread,
    View.ld_unit_zero (S := S4000x128) hz, View.ld_unit_zero (S := S128x128) hz, View.ld_unit_zero (S := S1x128) hz]
  rfl

/-- Where the messages' rectangle places its index (p, j): at (p, j) of the buffer. -/
theorem emb_left (p : Fin 4000) (j : Fin 128) :
    (Rect.unit (s := S4000x136) ![0, 0] S4000x128.size inb_S4000x136_S4000x128_0_0).emb (ValueIdx.ix2 p j)
      = ValueIdx.ix2 p (⟨j.val, by omega⟩ : Fin 136) := by
  funext a
  match a with
  | ⟨0, _⟩ => exact Fin.ext (by show 0 + 1 * p.val = p.val; omega)
  | ⟨1, _⟩ => exact Fin.ext (by show 0 + 1 * j.val = j.val; omega)

/-- Where the weights' rectangle places its index (p, h): at (p, 128 + h) of the buffer. -/
theorem emb_right (p : Fin 4000) (hh : Fin 8) :
    (Rect.unit (s := S4000x136) ![0, 128] S4000x8.size inb_S4000x136_S4000x8_0_128).emb (ValueIdx.ix2 p hh)
      = ValueIdx.ix2 p (⟨128 + hh.val, by omega⟩ : Fin 136) := by
  funext a
  match a with
  | ⟨0, _⟩ => exact Fin.ext (by show 0 + 1 * p.val = p.val; omega)
  | ⟨1, _⟩ => exact Fin.ext (by show 128 + 1 * hh.val = 128 + hh.val; omega)

/-- A column below 128 lies outside the weights' rectangle. -/
theorem not_mem_right (p : Fin 4000) (j : Fin 128) :
    ValueIdx.ix2 p (⟨j.val, by omega⟩ : Fin 136)
      ∉ (Rect.unit (s := S4000x136) ![0, 128] S4000x8.size inb_S4000x136_S4000x8_0_128).set := by
  rw [Rect.mem_set_unit]
  intro h
  have h1 : 128 ≤ j.val := (h 1).1
  omega

/-- Columns 0–127 of the second output hold the messages. -/
theorem out12_left (p : Fin 4000) (j : Fin 128) :
    Gen.out0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 (ValueIdx.ix2 p (⟨j.val, by omega⟩ : Fin 136))
      = Terms.msgBlk x0 x1 x2 x3 x4 x5 x6 x7 x8 x9 x10 (ValueIdx.ix2 p j) := by
  rw [out12_canon]
  refine (View.canon_cons_of_not_mem
    (⟨Rect.unit (s := S4000x136) ![0, 128] S4000x8.size inb_S4000x136_S4000x8_0_128,
      Terms.wgtBlk x0 x1 x2 x3 x4 x7 x8 x9 x10⟩ : View.Piece (Elt F) S4000x136 .f32)
    _ (not_mem_right p j)).trans ?_
  rw [← emb_left p j]
  exact View.canon_cons_emb _ _ _ _

/-- Columns 128–135 of the second output hold the weights. -/
theorem out12_right (p : Fin 4000) (hh : Fin 8) :
    Gen.out0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 (ValueIdx.ix2 p (⟨128 + hh.val, by omega⟩ : Fin 136))
      = Terms.wgtBlk x0 x1 x2 x3 x4 x7 x8 x9 x10 (ValueIdx.ix2 p hh) := by
  rw [out12_canon, ← emb_right p hh]
  exact View.canon_cons_emb _ _ _ _

end
end Cert.KernelIdeal.Pieces
end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.LibRows.lean ====
/-
  Rows of a matrix, read at an index, on the extended reals.

  For an a × b matrix v: the sum along the second axis, read at row p, is the sum over k of v (p, k); the maximum
  along the second axis, read at row p, is the fold of max over k of v (p, k) from the start value the accumulator
  word denotes; and one value per row, re-cast as an a × 1 column and laid across c columns ("keepdims", then a
  broadcast), reads at (p, q) the value of row p.  The index of the matrix that a row index with the coordinate k
  put back on the second axis names is (p, k).  All for any extents; nothing is evaluated.
-/
import proofs.«129676_j36979668418616_2_alg».proof.Proof.LibColumn
import Idealize.ShloMosaic.Lib.ValueIdx
import Idealize.ShloMosaic.Lib.Pipeline.Value
import Idealize.ShloMosaic.PureOps.Ideal.Laws

noncomputable section

namespace Cert.LibRows

open Idealize.ShloMosaic Idealize.ShloMosaic.ValueIdx

variable {a b : ℕ}

/-- The index of a matrix over row p with coordinate k put on the second axis is (p, k). -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A sum along the second axis, read at row p: the sum of the row's entries. -/
theorem rowSum_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A maximum along the second axis, read at row p: the fold of max over the row's entries from the start value. -/
theorem rowMaxf_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (Finset.fold_congr fun k _ => congrArg v (lift_row h p k))

/-- One value per row, re-cast as a column and laid across c columns, read at (p, q): the value of row p. -/
theorem column_apply {α : Type} {c : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, c]⟩)
    (p : Fin a) (q : Fin c) :
    broadcastTo ⟨2, ![a, c]⟩ (shapeCast ⟨2, ![a, 1]⟩ u hc) hb (ix2 p q) = u (ix1 p) :=
  (Cert.LibColumn.broadcastTo_a1_ab_apply (shapeCast ⟨2, ![a, 1]⟩ u hc) hb p q).trans
    (Cert.LibColumn.shapeCast_a_a1_apply u hc p 0)

end Cert.LibRows

end
-- ==== Proof.KernelPayload.lean ====
/-
  The three values one grid step stores, read at an index, on the extended reals.

  With every float an extended real, every operation the textbook one and a change of float format the identity, the
  score block at (p, j) is the score of the edge in row p at column j, the weight block at (p, h) the weight of that
  edge on head h, and the message block at (p, 16 · h + d) the message of that edge on lane d of head h — each as the
  row-by-row specification gives it from rows p of the source, destination and edge blocks and the eight parameter
  arrays.
-/
import proofs.«129676_j36979668418616_2_alg».proof.Proof.KernelTerms
import proofs.«129676_j36979668418616_2_alg».proof.Proof.Spec
import proofs.«129676_j36979668418616_2_alg».proof.Proof.LibDot
import proofs.«129676_j36979668418616_2_alg».proof.Proof.LibRows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.SL.Sem Idealize.ShloMosaic.ValueIdx Cert.KernelIdeal Cert.KernelIdeal.Gen Cert.Bridge

/-! ## The four affine maps -/

/-- A block of rows times a matrix, accumulated into zero, at (p, j): row p of the block times column j of the matrix.
    The matrix's change of format and the block's cast to its own shape are identities. -/
theorem prod_apply (x : Vec Ideal S4000x128 .bf16) (W : Vec Ideal S128x128 .f32) (p : Fin 4000) (j : Fin 128) :
    matmul dot_S4000x128_S128x128_S4000x128_1_0_0_1_n_n none
        (shapeCast S4000x128 x shapeCasts_S4000x128_S4000x128 : FVec Ideal S4000x128 .bf16)
        (truncf .bf16 W bitsLt_bf16_f32 : FVec Ideal S128x128 .bf16) (constant S4000x128 .f32 0x00000000#32) (ix2 p j)
      = ∑ k : Fin 128, rowAt x p k * W (ix2 k j) := by
  refine (Cert.LibDot.matmul_zero_plain_apply dot_S4000x128_S128x128_S4000x128_1_0_0_1_n_n rfl rfl rfl rfl rfl rfl none
    _ _ (ix2 p j)).trans ?_
  refine Finset.sum_congr rfl fun k _ => ?_
  rw [shapeCast_self]
  rfl

/-- A 1 × 128 bias block cast to its own shape and laid over 4000 rows, at (p, j): the block's row at j. -/
theorem bias_apply (b : Vec Ideal S1x128 .f32) (p : Fin 4000) (j : Fin 128) :
    broadcastTo S4000x128 (shapeCast S1x128 b shapeCasts_S1x128_S1x128) broadcasts_S1x128_S4000x128 (ix2 p j)
      = b (ix2 (0 : Fin 1) j) := by
  refine (broadcastTo_1b_ab_apply _ broadcasts_S1x128_S4000x128 p j).trans ?_
  rw [shapeCast_self]

/-- The keys (and, by the same operations, the values) of the block's rows. -/
theorem pay4_apply (x : Vec Ideal S4000x128 .bf16) (W : Vec Ideal S128x128 .f32) (b : Vec Ideal S1x128 .f32)
    (p : Fin 4000) (j : Fin 128) :
    k0_pay4 (F := Ideal) x W b (ix2 p j) = proj (rowAt x p) W (fun j => b (ix2 (0 : Fin 1) j)) j := by
  unfold k0_pay4 k0_pay3 proj
  exact congrArg₂ (· + ·) (prod_apply x W p j) (bias_apply b p j)

theorem pay5_apply (x : Vec Ideal S4000x128 .bf16) (W : Vec Ideal S128x128 .f32) (b : Vec Ideal S1x128 .f32)
    (p : Fin 4000) (j : Fin 128) :
    k0_pay5 (F := Ideal) x W b (ix2 p j) = proj (rowAt x p) W (fun j => b (ix2 (0 : Fin 1) j)) j := by
  unfold k0_pay5 k0_pay3 proj
  exact congrArg₂ (· + ·) (prod_apply x W p j) (bias_apply b p j)

theorem pay6_apply (x : Vec Ideal S4000x128 .bf16) (W : Vec Ideal S128x128 .f32) (b : Vec Ideal S1x128 .f32)
    (p : Fin 4000) (j : Fin 128) :
    k0_pay6 (F := Ideal) x W b (ix2 p j) = proj (rowAt x p) W (fun j => b (ix2 (0 : Fin 1) j)) j := by
  unfold k0_pay6 proj
  exact congrArg₂ (· + ·) (prod_apply x W p j) (bias_apply b p j)

theorem pay7_apply (x : Vec Ideal S4000x128 .bf16) (W : Vec Ideal S128x128 .f32) (p : Fin 4000) (j : Fin 128) :
    k0_pay7 (F := Ideal) x W (ix2 p j) = ∑ k : Fin 128, rowAt x p k * W (ix2 k j) := by
  unfold k0_pay7
  exact prod_apply x W p j

theorem pay8_apply (b : Vec Ideal S1x128 .f32) (p : Fin 4000) (j : Fin 128) :
    k0_pay8 (F := Ideal) b (ix2 p j) = b (ix2 (0 : Fin 1) j) := by
  unfold k0_pay8
  exact bias_apply b p j

section
variable (x0 x1 x2 : Vec Ideal S4000x128 .bf16) (x3 : Vec Ideal S128x128 .f32) (x4 : Vec Ideal S1x128 .f32)
  (x5 : Vec Ideal S128x128 .f32) (x6 : Vec Ideal S1x128 .f32) (x7 : Vec Ideal S128x128 .f32) (x8 : Vec Ideal S1x128 .f32)
  (x9 : Vec Ideal S128x128 .f32) (x10 : Vec Ideal S1x128 .f32)

/-- The parameter arrays as the body receives them: key, value, query, edge projection; a bias row is row 0 of its
    1 × 128 block. -/
def wtsB : Cert.Bridge.Wts :=
  { WK := x3, bK := fun j => x4 (ix2 (0 : Fin 1) j), WV := x5, bV := fun j => x6 (ix2 (0 : Fin 1) j),
    WQ := x7, bQ := fun j => x8 (ix2 (0 : Fin 1) j), WE := x9, bE := fun j => x10 (ix2 (0 : Fin 1) j) }

/-- The score block at (p, j): the score of the edge in row p at column j. -/
theorem scoreBlk_apply (p : Fin 4000) (j : Fin 128) :
    Terms.scoreBlk (F := Ideal) x0 x1 x2 x3 x4 x7 x8 x9 x10 (ix2 p j)
      = score (wtsB x3 x4 x5 x6 x7 x8 x9 x10) (rowAt x0 p) (rowAt x1 p) (rowAt x2 p) j := by
  unfold Terms.scoreBlk k0_pay9 score
  show ((k0_pay4 x0 x3 x4 (ix2 p j) * k0_pay6 x1 x7 x8 (ix2 p j)) * Ideal.ofBits .f32 0x3E800000#32)
      * (k0_pay7 x2 x9 (ix2 p j) + k0_pay8 x10 (ix2 p j)) = _
  rw [pay4_apply, pay6_apply, pay7_apply, pay8_apply]
  rfl
end

/-! ## A head's weight -/

/-- The weight column of the head whose 16 columns start at column o of a 4000 × 128 block: the sum along the 16 columns
    accumulated from zero, one value per row re-cast as a column, clipped below and above, and exp. -/
def headCol (o : Nat) (h : S4000x128.Slices ![0, o] S4000x16) (v : FVec Ideal S4000x128 .f32) : FVec Ideal S4000x1 .f32 :=
  exp (minimumf (broadcast S4000x1 (Scalar.ofBits .f32 0x40A00000#32))
    (maximumf (broadcast S4000x1 (Scalar.ofBits .f32 0xC0A00000#32))
      (shapeCast S4000x1 (multiReduction .add [1] S4000 (extractStridedSlice S4000x16 ![0, o] v h) 0x00000000#32
        reduces_S4000x16_S4000 (.inl rfl) rfl) shapeCasts_S4000_S4000x1)))

/-- The head's weight column at row p: exp of the clipped sum of the block's 16 entries of that head in row p. -/
theorem headCol_apply (o : Nat) (h : S4000x128.Slices ![0, o] S4000x16) (v : FVec Ideal S4000x128 .f32) (hh : Fin 8)
    (ho : o = 16 * hh.val) (p : Fin 4000) (u : Fin 1) :
    headCol o h v (ix2 p u)
      = Ideal.exp (min (Ideal.ofBits .f32 0x40A00000#32) (max (Ideal.ofBits .f32 0xC0A00000#32)
          (∑ d : Fin 16, v (ix2 p (col hh d))))) := by
  unfold headCol
  show Ideal.exp (min (Ideal.ofBits .f32 0x40A00000#32) (max (Ideal.ofBits .f32 0xC0A00000#32)
      (shapeCast S4000x1 (multiReduction .add [1] S4000 (extractStridedSlice S4000x16 ![0, o] v h) 0x00000000#32
        reduces_S4000x16_S4000 (.inl rfl) rfl) shapeCasts_S4000_S4000x1 (ix2 p u)))) = _
  refine congrArg (fun s => Ideal.exp (min (Ideal.ofBits .f32 0x40A00000#32) (max (Ideal.ofBits .f32 0xC0A00000#32) s))) ?_
  refine (Cert.LibColumn.shapeCast_a_a1_apply _ shapeCasts_S4000_S4000x1 p u).trans ?_
  refine (Cert.LibRows.rowSum_apply (extractStridedSlice S4000x16 ![0, o] v h) 0x00000000#32 reduces_S4000x16_S4000
    (.inl rfl) rfl p).trans ?_
  refine Finset.sum_congr rfl fun d _ => ?_
  exact slice2_axis1_apply o v h p d (col hh d) (by show hh.val * 16 + d.val = o + d.val; omega)

/-! ## Eight pieces side by side -/

/-- Eight a × c pieces concatenated along the columns into an a × n array, at (p, k · c + d): piece k at (p, d). -/
theorem concat8_apply {α : Type} {a c n : Nat} (f : Fin 8 → (⟨2, ![a, c]⟩ : Shape).Idx → α)
    (h : Shape.Concatenates [(⟨2, ![a, c]⟩ : Shape), (⟨2, ![a, c]⟩ : Shape), (⟨2, ![a, c]⟩ : Shape), (⟨2, ![a, c]⟩ : Shape), (⟨2, ![a, c]⟩ : Shape), (⟨2, ![a, c]⟩ : Shape), (⟨2, ![a, c]⟩ : Shape), (⟨2, ![a, c]⟩ : Shape)] ⟨2, ![a, n]⟩ 1)
    (p : Fin a) (q : Fin n) (hh : Fin 8) (d : Fin c) (hq : q.val = hh.val * c + d.val) :
    concatenate ⟨2, ![a, n]⟩ 1 [⟨(⟨2, ![a, c]⟩ : Shape), f 0⟩, ⟨(⟨2, ![a, c]⟩ : Shape), f 1⟩, ⟨(⟨2, ![a, c]⟩ : Shape), f 2⟩, ⟨(⟨2, ![a, c]⟩ : Shape), f 3⟩, ⟨(⟨2, ![a, c]⟩ : Shape), f 4⟩, ⟨(⟨2, ![a, c]⟩ : Shape), f 5⟩, ⟨(⟨2, ![a, c]⟩ : Shape), f 6⟩, ⟨(⟨2, ![a, c]⟩ : Shape), f 7⟩] h (ix2 p q)
      = f hh (ix2 p d) :=
  match hh, hq with
  | ⟨0, _⟩, hq =>
    concatenate_apply_piece (t := ⟨2, ![a, n]⟩) (1 : Fin 2)
      [⟨(⟨2, ![a, c]⟩ : Shape), f 0⟩, ⟨(⟨2, ![a, c]⟩ : Shape), f 1⟩, ⟨(⟨2, ![a, c]⟩ : Shape), f 2⟩, ⟨(⟨2, ![a, c]⟩ : Shape), f 3⟩, ⟨(⟨2, ![a, c]⟩ : Shape), f 4⟩, ⟨(⟨2, ![a, c]⟩ : Shape), f 5⟩, ⟨(⟨2, ![a, c]⟩ : Shape), f 6⟩, ⟨(⟨2, ![a, c]⟩ : Shape), f 7⟩]
      h (ix2 p q) 0 (by show 0 < 8; omega) (⟨2, ![a, c]⟩ : Shape) (f 0) rfl rfl (0 * c)
      (by show (0 : Nat) = 0 * c; omega) (ix2 p d)
      (fun b hb => match b, hb with
        | ⟨0, _⟩, _ => rfl
        | ⟨1, _⟩, hb => absurd rfl hb)
      hq.symm
  | ⟨1, _⟩, hq =>
    concatenate_apply_piece (t := ⟨2, ![a, n]⟩) (1 : Fin 2)
      [⟨(⟨2, ![a, c]⟩ : Shape), f 0⟩, ⟨(⟨2, ![a, c]⟩ : Shape), f 1⟩, ⟨(⟨2, ![a, c]⟩ : Shape), f 2⟩, ⟨(⟨2, ![a, c]⟩ : Shape), f 3⟩, ⟨(⟨2, ![a, c]⟩ : Shape), f 4⟩, ⟨(⟨2, ![a, c]⟩ : Shape), f 5⟩, ⟨(⟨2, ![a, c]⟩ : Shape), f 6⟩, ⟨(⟨2, ![a, c]⟩ : Shape), f 7⟩]
      h (ix2 p q) 1 (by show 1 < 8; omega) (⟨2, ![a, c]⟩ : Shape) (f 1) rfl rfl (1 * c)
      (by show c + (0) = 1 * c; omega) (ix2 p d)
      (fun b hb => match b, hb with
        | ⟨0, _⟩, _ => rfl
        | ⟨1, _⟩, hb => absurd rfl hb)
      hq.symm
  | ⟨2, _⟩, hq =>
    concatenate_apply_piece (t := ⟨2, ![a, n]⟩) (1 : Fin 2)
      [⟨(⟨2, ![a, c]⟩ : Shape), f 0⟩, ⟨(⟨2, ![a, c]⟩ : Shape), f 1⟩, ⟨(⟨2, ![a, c]⟩ : Shape), f 2⟩, ⟨(⟨2, ![a, c]⟩ : Shape), f 3⟩, ⟨(⟨2, ![a, c]⟩ : Shape), f 4⟩, ⟨(⟨2, ![a, c]⟩ : Shape), f 5⟩, ⟨(⟨2, ![a, c]⟩ : Shape), f 6⟩, ⟨(⟨2, ![a, c]⟩ : Shape), f 7⟩]
      h (ix2 p q) 2 (by show 2 < 8; omega) (⟨2, ![a, c]⟩ : Shape) (f 2) rfl rfl (2 * c)
      (by show c + (c + (0)) = 2 * c; omega) (ix2 p d)
      (fun b hb => match b, hb with
        | ⟨0, _⟩, _ => rfl
        | ⟨1, _⟩, hb => absurd rfl hb)
      hq.symm
  | ⟨3, _⟩, hq =>
    concatenate_apply_piece (t := ⟨2, ![a, n]⟩) (1 : Fin 2)
      [⟨(⟨2, ![a, c]⟩ : Shape), f 0⟩, ⟨(⟨2, ![a, c]⟩ : Shape), f 1⟩, ⟨(⟨2, ![a, c]⟩ : Shape), f 2⟩, ⟨(⟨2, ![a, c]⟩ : Shape), f 3⟩, ⟨(⟨2, ![a, c]⟩ : Shape), f 4⟩, ⟨(⟨2, ![a, c]⟩ : Shape), f 5⟩, ⟨(⟨2, ![a, c]⟩ : Shape), f 6⟩, ⟨(⟨2, ![a, c]⟩ : Shape), f 7⟩]
      h (ix2 p q) 3 (by show 3 < 8; omega) (⟨2, ![a, c]⟩ : Shape) (f 3) rfl rfl (3 * c)
      (by show c + (c + (c + (0))) = 3 * c; omega) (ix2 p d)
      (fun b hb => match b, hb with
        | ⟨0, _⟩, _ => rfl
        | ⟨1, _⟩, hb => absurd rfl hb)
      hq.symm
  | ⟨4, _⟩, hq =>
    concatenate_apply_piece (t := ⟨2, ![a, n]⟩) (1 : Fin 2)
      [⟨(⟨2, ![a, c]⟩ : Shape), f 0⟩, ⟨(⟨2, ![a, c]⟩ : Shape), f 1⟩, ⟨(⟨2, ![a, c]⟩ : Shape), f 2⟩, ⟨(⟨2, ![a, c]⟩ : Shape), f 3⟩, ⟨(⟨2, ![a, c]⟩ : Shape), f 4⟩, ⟨(⟨2, ![a, c]⟩ : Shape), f 5⟩, ⟨(⟨2, ![a, c]⟩ : Shape), f 6⟩, ⟨(⟨2, ![a, c]⟩ : Shape), f 7⟩]
      h (ix2 p q) 4 (by show 4 < 8; omega) (⟨2, ![a, c]⟩ : Shape) (f 4) rfl rfl (4 * c)
      (by show c + (c + (c + (c + (0)))) = 4 * c; omega) (ix2 p d)
      (fun b hb => match b, hb with
        | ⟨0, _⟩, _ => rfl
        | ⟨1, _⟩, hb => absurd rfl hb)
      hq.symm
  | ⟨5, _⟩, hq =>
    concatenate_apply_piece (t := ⟨2, ![a, n]⟩) (1 : Fin 2)
      [⟨(⟨2, ![a, c]⟩ : Shape), f 0⟩, ⟨(⟨2, ![a, c]⟩ : Shape), f 1⟩, ⟨(⟨2, ![a, c]⟩ : Shape), f 2⟩, ⟨(⟨2, ![a, c]⟩ : Shape), f 3⟩, ⟨(⟨2, ![a, c]⟩ : Shape), f 4⟩, ⟨(⟨2, ![a, c]⟩ : Shape), f 5⟩, ⟨(⟨2, ![a, c]⟩ : Shape), f 6⟩, ⟨(⟨2, ![a, c]⟩ : Shape), f 7⟩]
      h (ix2 p q) 5 (by show 5 < 8; omega) (⟨2, ![a, c]⟩ : Shape) (f 5) rfl rfl (5 * c)
      (by show c + (c + (c + (c + (c + (0))))) = 5 * c; omega) (ix2 p d)
      (fun b hb => match b, hb with
        | ⟨0, _⟩, _ => rfl
        | ⟨1, _⟩, hb => absurd rfl hb)
      hq.symm
  | ⟨6, _⟩, hq =>
    concatenate_apply_piece (t := ⟨2, ![a, n]⟩) (1 : Fin 2)
      [⟨(⟨2, ![a, c]⟩ : Shape), f 0⟩, ⟨(⟨2, ![a, c]⟩ : Shape), f 1⟩, ⟨(⟨2, ![a, c]⟩ : Shape), f 2⟩, ⟨(⟨2, ![a, c]⟩ : Shape), f 3⟩, ⟨(⟨2, ![a, c]⟩ : Shape), f 4⟩, ⟨(⟨2, ![a, c]⟩ : Shape), f 5⟩, ⟨(⟨2, ![a, c]⟩ : Shape), f 6⟩, ⟨(⟨2, ![a, c]⟩ : Shape), f 7⟩]
      h (ix2 p q) 6 (by show 6 < 8; omega) (⟨2, ![a, c]⟩ : Shape) (f 6) rfl rfl (6 * c)
      (by show c + (c + (c + (c + (c + (c + (0)))))) = 6 * c; omega) (ix2 p d)
      (fun b hb => match b, hb with
        | ⟨0, _⟩, _ => rfl
        | ⟨1, _⟩, hb => absurd rfl hb)
      hq.symm
  | ⟨7, _⟩, hq =>
    concatenate_apply_piece (t := ⟨2, ![a, n]⟩) (1 : Fin 2)
      [⟨(⟨2, ![a, c]⟩ : Shape), f 0⟩, ⟨(⟨2, ![a, c]⟩ : Shape), f 1⟩, ⟨(⟨2, ![a, c]⟩ : Shape), f 2⟩, ⟨(⟨2, ![a, c]⟩ : Shape), f 3⟩, ⟨(⟨2, ![a, c]⟩ : Shape), f 4⟩, ⟨(⟨2, ![a, c]⟩ : Shape), f 5⟩, ⟨(⟨2, ![a, c]⟩ : Shape), f 6⟩, ⟨(⟨2, ![a, c]⟩ : Shape), f 7⟩]
      h (ix2 p q) 7 (by show 7 < 8; omega) (⟨2, ![a, c]⟩ : Shape) (f 7) rfl rfl (7 * c)
      (by show c + (c + (c + (c + (c + (c + (c + (0))))))) = 7 * c; omega) (ix2 p d)
      (fun b hb => match b, hb with
        | ⟨0, _⟩, _ => rfl
        | ⟨1, _⟩, hb => absurd rfl hb)
      hq.symm

/-! ## The eight heads -/

/-- 16 columns of a block from column o, times a column laid across them, at (p, d). -/
theorem headMsg_apply (o : Nat) (h : S4000x128.Slices ![0, o] S4000x16) (V : FVec Ideal S4000x128 .f32)
    (w : FVec Ideal S4000x1 .f32) (p : Fin 4000) (d : Fin 16) (k : Fin 128) (hk : k.val = o + d.val) :
    mulf (extractStridedSlice S4000x16 ![0, o] V h) (broadcastTo S4000x16 w broadcasts_S4000x1_S4000x16) (ix2 p d)
      = V (ix2 p k) * w (ix2 p (0 : Fin 1)) :=
  congrArg₂ (· * ·) (slice2_axis1_apply o V h p d k hk)
    (Cert.LibColumn.broadcastTo_a1_ab_apply w broadcasts_S4000x1_S4000x16 p d)

section
variable (x0 x1 x2 : Vec Ideal S4000x128 .bf16) (x3 : Vec Ideal S128x128 .f32) (x4 : Vec Ideal S1x128 .f32)
  (x5 : Vec Ideal S128x128 .f32) (x6 : Vec Ideal S1x128 .f32) (x7 : Vec Ideal S128x128 .f32) (x8 : Vec Ideal S1x128 .f32)
  (x9 : Vec Ideal S128x128 .f32) (x10 : Vec Ideal S1x128 .f32)

/-- The weight column of head hh — the one at column offset 16 · hh of the score block — at row p: the weight of the
    edge in row p on that head. -/
theorem headW_apply (o : Nat) (h : S4000x128.Slices ![0, o] S4000x16) (hh : Fin 8) (ho : o = 16 * hh.val)
    (p : Fin 4000) (u : Fin 1) :
    headCol o h (Terms.scoreBlk (F := Ideal) x0 x1 x2 x3 x4 x7 x8 x9 x10) (ix2 p u)
      = wgt (wtsB x3 x4 x5 x6 x7 x8 x9 x10) (rowAt x0 p) (rowAt x1 p) (rowAt x2 p) hh := by
  unfold wgt
  refine (headCol_apply o h _ hh ho p u).trans ?_
  refine congrArg (fun s => Ideal.exp (min (Ideal.ofBits .f32 0x40A00000#32) (max (Ideal.ofBits .f32 0xC0A00000#32) s))) ?_
  exact Finset.sum_congr rfl fun d _ => scoreBlk_apply x0 x1 x2 x3 x4 x5 x6 x7 x8 x9 x10 p (col hh d)

/-- The eight heads' weight columns, in the order the body lays them side by side. -/
def wCols : Fin 8 → FVec Ideal S4000x1 .f32 :=
  ![Terms.w0 (F := Ideal) x0 x1 x2 x3 x4 x7 x8 x9 x10,
    Terms.w1 (F := Ideal) x0 x1 x2 x3 x4 x7 x8 x9 x10,
    Terms.w2 (F := Ideal) x0 x1 x2 x3 x4 x7 x8 x9 x10,
    Terms.w3 (F := Ideal) x0 x1 x2 x3 x4 x7 x8 x9 x10,
    Terms.w4 (F := Ideal) x0 x1 x2 x3 x4 x7 x8 x9 x10,
    Terms.w5 (F := Ideal) x0 x1 x2 x3 x4 x7 x8 x9 x10,
    Terms.w6 (F := Ideal) x0 x1 x2 x3 x4 x7 x8 x9 x10,
    Terms.w7 (F := Ideal) x0 x1 x2 x3 x4 x7 x8 x9 x10]

/-- Each of them is the weight column of its head over the score block. -/
theorem wCols_eq (hh : Fin 8) : ∃ (o : Nat) (h : S4000x128.Slices ![0, o] S4000x16), o = 16 * hh.val ∧
    wCols x0 x1 x2 x3 x4 x7 x8 x9 x10 hh = headCol o h (Terms.scoreBlk (F := Ideal) x0 x1 x2 x3 x4 x7 x8 x9 x10) :=
  match hh with
  | ⟨0, _⟩ => ⟨0, slices_S4000x128_o0_0_S4000x16, rfl, rfl⟩
  | ⟨1, _⟩ => ⟨16, slices_S4000x128_o0_16_S4000x16, rfl, rfl⟩
  | ⟨2, _⟩ => ⟨32, slices_S4000x128_o0_32_S4000x16, rfl, rfl⟩
  | ⟨3, _⟩ => ⟨48, slices_S4000x128_o0_48_S4000x16, rfl, rfl⟩
  | ⟨4, _⟩ => ⟨64, slices_S4000x128_o0_64_S4000x16, rfl, rfl⟩
  | ⟨5, _⟩ => ⟨80, slices_S4000x128_o0_80_S4000x16, rfl, rfl⟩
  | ⟨6, _⟩ => ⟨96, slices_S4000x128_o0_96_S4000x16, rfl, rfl⟩
  | ⟨7, _⟩ => ⟨112, slices_S4000x128_o0_112_S4000x16, rfl, rfl⟩

/-- A head's weight column at row p: the weight of the edge in row p on that head. -/
theorem wCols_apply (hh : Fin 8) (p : Fin 4000) (u : Fin 1) :
    wCols x0 x1 x2 x3 x4 x7 x8 x9 x10 hh (ix2 p u) = wgt (wtsB x3 x4 x5 x6 x7 x8 x9 x10) (rowAt x0 p) (rowAt x1 p) (rowAt x2 p) hh := by
  obtain ⟨o, h, ho, e⟩ := wCols_eq x0 x1 x2 x3 x4 x7 x8 x9 x10 hh
  rw [e]
  exact headW_apply x0 x1 x2 x3 x4 x5 x6 x7 x8 x9 x10 o h hh ho p u

/-- The weight block at (p, hh): the weight of the edge in row p on head hh. -/
theorem wgtBlk_apply (p : Fin 4000) (hh : Fin 8) :
    Terms.wgtBlk (F := Ideal) x0 x1 x2 x3 x4 x7 x8 x9 x10 (ix2 p hh)
      = wgt (wtsB x3 x4 x5 x6 x7 x8 x9 x10) (rowAt x0 p) (rowAt x1 p) (rowAt x2 p) hh := by
  unfold Terms.wgtBlk k0_pay2
  refine (concat8_apply (wCols x0 x1 x2 x3 x4 x7 x8 x9 x10)
    concatenates_S4000x1_S4000x1_S4000x1_S4000x1_S4000x1_S4000x1_S4000x1_S4000x1_S4000x8_d1 p hh hh (0 : Fin 1)
    (by show hh.val = hh.val * 1 + 0; omega)).trans ?_
  exact wCols_apply x0 x1 x2 x3 x4 x5 x6 x7 x8 x9 x10 hh p 0

/-- The eight heads' message blocks, in the order the body lays them side by side. -/
def mCols : Fin 8 → FVec Ideal S4000x16 .f32 :=
  ![k0_pay11 (Terms.keys x0 x3 x4) (Terms.vals x0 x5 x6) (Terms.qrys x1 x7 x8) (Terms.eprj x2 x9) (Terms.ebias x10),
    k0_pay13 (Terms.keys x0 x3 x4) (Terms.vals x0 x5 x6) (Terms.qrys x1 x7 x8) (Terms.eprj x2 x9) (Terms.ebias x10),
    k0_pay15 (Terms.keys x0 x3 x4) (Terms.vals x0 x5 x6) (Terms.qrys x1 x7 x8) (Terms.eprj x2 x9) (Terms.ebias x10),
    k0_pay18 (Terms.vals x0 x5 x6) (Terms.hi (F := Ideal)) (k0_pay16 (Terms.keys x0 x3 x4) (Terms.qrys x1 x7 x8) (Terms.eprj x2 x9) (Terms.ebias x10)),
    k0_pay20 (Terms.vals x0 x5 x6) (Terms.scoreBlk (F := Ideal) x0 x1 x2 x3 x4 x7 x8 x9 x10),
    k0_pay22 (Terms.vals x0 x5 x6) (Terms.scoreBlk (F := Ideal) x0 x1 x2 x3 x4 x7 x8 x9 x10),
    k0_pay24 (Terms.vals x0 x5 x6) (Terms.scoreBlk (F := Ideal) x0 x1 x2 x3 x4 x7 x8 x9 x10),
    mulf (k0_pay26 (Terms.vals x0 x5 x6)) (broadcastTo S4000x16 (Terms.w7 (F := Ideal) x0 x1 x2 x3 x4 x7 x8 x9 x10) broadcasts_S4000x1_S4000x16)]

/-- Each of them is its head's 16 columns of the values times its head's weight column laid across them. -/
theorem mCols_eq (hh : Fin 8) : ∃ (o : Nat) (h : S4000x128.Slices ![0, o] S4000x16), o = 16 * hh.val ∧
    mCols x0 x1 x2 x3 x4 x5 x6 x7 x8 x9 x10 hh = mulf (extractStridedSlice S4000x16 ![0, o] (Terms.vals x0 x5 x6) h)
      (broadcastTo S4000x16 (wCols x0 x1 x2 x3 x4 x7 x8 x9 x10 hh) broadcasts_S4000x1_S4000x16) :=
  match hh with
  | ⟨0, _⟩ => ⟨0, slices_S4000x128_o0_0_S4000x16, rfl, rfl⟩
  | ⟨1, _⟩ => ⟨16, slices_S4000x128_o0_16_S4000x16, rfl, rfl⟩
  | ⟨2, _⟩ => ⟨32, slices_S4000x128_o0_32_S4000x16, rfl, rfl⟩
  | ⟨3, _⟩ => ⟨48, slices_S4000x128_o0_48_S4000x16, rfl, rfl⟩
  | ⟨4, _⟩ => ⟨64, slices_S4000x128_o0_64_S4000x16, rfl, rfl⟩
  | ⟨5, _⟩ => ⟨80, slices_S4000x128_o0_80_S4000x16, rfl, rfl⟩
  | ⟨6, _⟩ => ⟨96, slices_S4000x128_o0_96_S4000x16, rfl, rfl⟩
  | ⟨7, _⟩ => ⟨112, slices_S4000x128_o0_112_S4000x16, rfl, rfl⟩

/-- A head's message block at (p, d): the message of the edge in row p on lane d of that head. -/
theorem mCols_apply (hh : Fin 8) (p : Fin 4000) (d : Fin 16) :
    mCols x0 x1 x2 x3 x4 x5 x6 x7 x8 x9 x10 hh (ix2 p d) = msg (wtsB x3 x4 x5 x6 x7 x8 x9 x10) (rowAt x0 p) (rowAt x1 p) (rowAt x2 p) hh d := by
  obtain ⟨o, h, ho, e⟩ := mCols_eq x0 x1 x2 x3 x4 x5 x6 x7 x8 x9 x10 hh
  rw [e]
  refine (headMsg_apply o h _ _ p d (col hh d) (by show hh.val * 16 + d.val = o + d.val; omega)).trans ?_
  unfold msg
  exact congrArg₂ (· * ·) (pay5_apply x0 x5 x6 p (col hh d)) (wCols_apply x0 x1 x2 x3 x4 x5 x6 x7 x8 x9 x10 hh p 0)

/-- The message block at (p, 16 · hh + d): the message of the edge in row p on lane d of head hh. -/
theorem msgBlk_apply (p : Fin 4000) (hh : Fin 8) (d : Fin 16) :
    Terms.msgBlk (F := Ideal) x0 x1 x2 x3 x4 x5 x6 x7 x8 x9 x10 (ix2 p (col hh d))
      = msg (wtsB x3 x4 x5 x6 x7 x8 x9 x10) (rowAt x0 p) (rowAt x1 p) (rowAt x2 p) hh d := by
  unfold Terms.msgBlk k0_pay1
  refine (concat8_apply (mCols x0 x1 x2 x3 x4 x5 x6 x7 x8 x9 x10)
    concatenates_S4000x16_S4000x16_S4000x16_S4000x16_S4000x16_S4000x16_S4000x16_S4000x16_S4000x128_d1 p (col hh d) hh d
    rfl).trans ?_
  exact mCols_apply x0 x1 x2 x3 x4 x5 x6 x7 x8 x9 x10 hh p d
end

end Cert.KernelIdeal.Payload

end
-- ==== Proof.Blocks.lean ====
/-
  From one grid step's blocks to the whole output arrays, on the extended reals.

  The grid has 200 points; point t reads rows 4000 · t … 4000 · t + 3999 of the three edge-row arrays (source,
  destination, edge) and the eight parameter arrays whole, and writes rows 4000 · t … 4000 · t + 3999 of the two output
  arrays.  Since the stored values depend on the blocks only through their rows, the first output array ends holding, at
  (e, j), the score of edge e at column j, and the second, at (e, c), the message of edge e on lane c mod 16 of head
  c / 16 for c < 128 and the weight of edge e on head c − 128 for c ≥ 128 — every row is written by exactly the point
  its row number divided by 4000 names, and every column by that point's stores.
-/
import proofs.«129676_j36979668418616_2_alg».proof.Proof.KernelPieces
import proofs.«129676_j36979668418616_2_alg».proof.Proof.KernelPayload
import proofs.«129676_j36979668418616_2_alg».proof.Proof.Spec
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Bridge
open Idealize.ShloMosaic.Pipeline (Dat)

section
variable (A0 A1 A2 : S800000x128.Idx → EReal) (W3 : S128x128.Idx → EReal) (b4 : S1x128.Idx → EReal)
  (W5 : S128x128.Idx → EReal) (b6 : S1x128.Idx → EReal) (W7 : S128x128.Idx → EReal) (b8 : S1x128.Idx → EReal)
  (W9 : S128x128.Idx → EReal) (b10 : S1x128.Idx → EReal)

/-- The score array: at (e, j), the score of edge e at column j. -/
def G11 : S800000x128.Idx → EReal := fun i =>
  score (Payload.wtsB W3 b4 W5 b6 W7 b8 W9 b10) (rowAt A0 (i 0)) (rowAt A1 (i 0)) (rowAt A2 (i 0)) (i 1)

/-- The message-and-weight array: at (e, c), for c < 128 the message of edge e on lane c mod 16 of head c / 16, and
    for c ≥ 128 the weight of edge e on head c − 128. -/
def G12 : S800000x136.Idx → EReal := fun i =>
  if h : (i 1).val < 128 then
    msg (Payload.wtsB W3 b4 W5 b6 W7 b8 W9 b10) (rowAt A0 (i 0)) (rowAt A1 (i 0)) (rowAt A2 (i 0))
      ⟨(i 1).val / 16, by omega⟩ ⟨(i 1).val % 16, by omega⟩
  else
    wgt (Payload.wtsB W3 b4 W5 b6 W7 b8 W9 b10) (rowAt A0 (i 0)) (rowAt A1 (i 0)) (rowAt A2 (i 0))
      ⟨(i 1).val - 128, by have h2 : (i 1).val < 136 := (i 1).isLt; omega⟩

theorem G11_apply (e : Fin 800000) (j : Fin 128) :
    G11 A0 A1 A2 W3 b4 W5 b6 W7 b8 W9 b10 (ix2 e j)
      = score (Payload.wtsB W3 b4 W5 b6 W7 b8 W9 b10) (rowAt A0 e) (rowAt A1 e) (rowAt A2 e) j := rfl

theorem G12_msg (e : Fin 800000) (hh : Fin 8) (d : Fin 16) :
    G12 A0 A1 A2 W3 b4 W5 b6 W7 b8 W9 b10 (ix2 e (⟨hh.val * 16 + d.val, by omega⟩ : Fin 136))
      = msg (Payload.wtsB W3 b4 W5 b6 W7 b8 W9 b10) (rowAt A0 e) (rowAt A1 e) (rowAt A2 e) hh d := by
  unfold G12
  split
  · congr 1
    · exact Fin.ext (by show (hh.val * 16 + d.val) / 16 = hh.val; omega)
    · exact Fin.ext (by show (hh.val * 16 + d.val) % 16 = d.val; omega)
  · rename_i h
    exact absurd (show hh.val * 16 + d.val < 128 by omega) h

theorem G12_wgt (e : Fin 800000) (hh : Fin 8) :
    G12 A0 A1 A2 W3 b4 W5 b6 W7 b8 W9 b10 (ix2 e (⟨128 + hh.val, by omega⟩ : Fin 136))
      = wgt (Payload.wtsB W3 b4 W5 b6 W7 b8 W9 b10) (rowAt A0 e) (rowAt A1 e) (rowAt A2 e) hh := by
  unfold G12
  split
  · rename_i h
    exact absurd (show 128 + hh.val < 128 from h) (by omega)
  · congr 1; exact Fin.ext (by show 128 + hh.val - 128 = hh.val; omega)

end

variable (m : (ℓ : Loc nD τ sig) → Buf (Elt Ideal) ℓ)

/-- The printed index maps, decided once over the 200 grid points: the three edge-row windows and the two output
    windows are at block (t, 0); the eight parameter windows stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

theorem t_lt (t : Fin cfg0.N) : t.val < 200 := by
  have hN : cfg0.N = 200 := N_0
  have := t.isLt
  omega

/-- Row p of edge-row block 0 at point t is row 4000 · t + p of its array. -/
theorem row0 (c : Dev nD) (t : Fin cfg0.N) (p : Fin 4000) :
    rowAt (iblk m c 0 t : Vec Ideal S4000x128 .bf16) p
      = rowAt (V m c main_v12 : S800000x128.Idx → EReal) ⟨4000 * t.val + p.val, by have := t_lt t; omega⟩ := by
  have e0 : win0_0.index t (0 : Fin 2) = t.val := (idx_facts t).1.1
  have e1 : win0_0.index t (1 : Fin 2) = 0 := (idx_facts t).1.2
  funext k
  show V m c main_v12 (((cfg0.win 0).blk t).view.emb (ix2 p k)) = V m c main_v12 (ix2 _ k)
  congr 1
  funext a
  apply Fin.ext
  match a with
  | ⟨0, _⟩ => show win0_0.index t (0 : Fin 2) * 4000 + 1 * p.val = 4000 * t.val + p.val; omega
  | ⟨1, _⟩ => show win0_0.index t (1 : Fin 2) * 128 + 1 * k.val = k.val; omega

/-- Row p of edge-row block 1 at point t is row 4000 · t + p of its array. -/
theorem row1 (c : Dev nD) (t : Fin cfg0.N) (p : Fin 4000) :
    rowAt (iblk m c 1 t : Vec Ideal S4000x128 .bf16) p
      = rowAt (V m c main_v19 : S800000x128.Idx → EReal) ⟨4000 * t.val + p.val, by have := t_lt t; omega⟩ := by
  have e0 : win0_1.index t (0 : Fin 2) = t.val := (idx_facts t).2.1.1
  have e1 : win0_1.index t (1 : Fin 2) = 0 := (idx_facts t).2.1.2
  funext k
  show V m c main_v19 (((cfg0.win 1).blk t).view.emb (ix2 p k)) = V m c main_v19 (ix2 _ k)
  congr 1
  funext a
  apply Fin.ext
  match a with
  | ⟨0, _⟩ => show win0_1.index t (0 : Fin 2) * 4000 + 1 * p.val = 4000 * t.val + p.val; omega
  | ⟨1, _⟩ => show win0_1.index t (1 : Fin 2) * 128 + 1 * k.val = k.val; omega

/-- Row p of edge-row block 2 at point t is row 4000 · t + p of its array. -/
theorem row2 (c : Dev nD) (t : Fin cfg0.N) (p : Fin 4000) :
    rowAt (iblk m c 2 t : Vec Ideal S4000x128 .bf16) p
      = rowAt (V m c main_v5 : S800000x128.Idx → EReal) ⟨4000 * t.val + p.val, by have := t_lt t; omega⟩ := by
  have e0 : win0_2.index t (0 : Fin 2) = t.val := (idx_facts t).2.2.1.1
  have e1 : win0_2.index t (1 : Fin 2) = 0 := (idx_facts t).2.2.1.2
  funext k
  show V m c main_v5 (((cfg0.win 2).blk t).view.emb (ix2 p k)) = V m c main_v5 (ix2 _ k)
  congr 1
  funext a
  apply Fin.ext
  match a with
  | ⟨0, _⟩ => show win0_2.index t (0 : Fin 2) * 4000 + 1 * p.val = 4000 * t.val + p.val; omega
  | ⟨1, _⟩ => show win0_2.index t (1 : Fin 2) * 128 + 1 * k.val = k.val; omega

/-! The eight parameter blocks are their whole arrays at every point. -/

theorem blk3 (c : Dev nD) (t : Fin cfg0.N) :
    (iblk m c 3 t : Vec Ideal S128x128 .f32) = (V m c main_arg6 : S128x128.Idx → EReal) := by
  have e0 : win0_3.index t (0 : Fin 2) = 0 := (idx_facts t).2.2.2.1.1
  have e1 : win0_3.index t (1 : Fin 2) = 0 := (idx_facts t).2.2.2.1.2
  funext y
  show V m c main_arg6 (((cfg0.win 3).blk t).view.emb y) = V m c main_arg6 y
  congr 1
  funext a
  apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blk4 (c : Dev nD) (t : Fin cfg0.N) :
    (iblk m c 4 t : Vec Ideal S1x128 .f32) = (V m c main_v1 : S1x128.Idx → EReal) := by
  have e0 : win0_4.index t (0 : Fin 2) = 0 := (idx_facts t).2.2.2.2.1.1
  have e1 : win0_4.index t (1 : Fin 2) = 0 := (idx_facts t).2.2.2.2.1.2
  funext y
  show V m c main_v1 (((cfg0.win 4).blk t).view.emb y) = V m c main_v1 y
  congr 1
  funext a
  apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem blk5 (c : Dev nD) (t : Fin cfg0.N) :
    (iblk m c 5 t : Vec Ideal S128x128 .f32) = (V m c main_arg8 : S128x128.Idx → EReal) := by
  have e0 : win0_5.index t (0 : Fin 2) = 0 := (idx_facts t).2.2.2.2.2.1.1
  have e1 : win0_5.index t (1 : Fin 2) = 0 := (idx_facts t).2.2.2.2.2.1.2
  funext y
  show V m c main_arg8 (((cfg0.win 5).blk t).view.emb y) = V m c main_arg8 y
  congr 1
  funext a
  apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem blk6 (c : Dev nD) (t : Fin cfg0.N) :
    (iblk m c 6 t : Vec Ideal S1x128 .f32) = (V m c main_v2 : S1x128.Idx → EReal) := by
  have e0 : win0_6.index t (0 : Fin 2) = 0 := (idx_facts t).2.2.2.2.2.2.1.1
  have e1 : win0_6.index t (1 : Fin 2) = 0 := (idx_facts t).2.2.2.2.2.2.1.2
  funext y
  show V m c main_v2 (((cfg0.win 6).blk t).view.emb y) = V m c main_v2 y
  congr 1
  funext a
  apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

theorem blk7 (c : Dev nD) (t : Fin cfg0.N) :
    (iblk m c 7 t : Vec Ideal S128x128 .f32) = (V m c main_arg4 : S128x128.Idx → EReal) := by
  have e0 : win0_7.index t (0 : Fin 2) = 0 := (idx_facts t).2.2.2.2.2.2.2.1.1
  have e1 : win0_7.index t (1 : Fin 2) = 0 := (idx_facts t).2.2.2.2.2.2.2.1.2
  funext y
  show V m c main_arg4 (((cfg0.win 7).blk t).view.emb y) = V m c main_arg4 y
  congr 1
  funext a
  apply Fin.ext
  match a with
  | ⟨0, _⟩ => show win0_7.index t (0 : Fin 2) * 128 + 1 * (y 0).val = (y 0).val; omega
  | ⟨1, _⟩ => show win0_7.index t (1 : Fin 2) * 128 + 1 * (y 1).val = (y 1).val; omega

theorem blk8 (c : Dev nD) (t : Fin cfg0.N) :
    (iblk m c 8 t : Vec Ideal S1x128 .f32) = (V m c main_v0 : S1x128.Idx → EReal) := by
  have e0 : win0_8.index t (0 : Fin 2) = 0 := (idx_facts t).2.2.2.2.2.2.2.2.1.1
  have e1 : win0_8.index t (1 : Fin 2) = 0 := (idx_facts t).2.2.2.2.2.2.2.2.1.2
  funext y
  show V m c main_v0 (((cfg0.win 8).blk t).view.emb y) = V m c main_v0 y
  congr 1
  funext a
  apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega

theorem blk9 (c : Dev nD) (t : Fin cfg0.N) :
    (iblk m c 9 t : Vec Ideal S128x128 .f32) = (V m c main_arg10 : S128x128.Idx → EReal) := by
  have e0 : win0_9.index t (0 : Fin 2) = 0 := (idx_facts t).2.2.2.2.2.2.2.2.2.1.1
  have e1 : win0_9.index t (1 : Fin 2) = 0 := (idx_facts t).2.2.2.2.2.2.2.2.2.1.2
  funext y
  show V m c main_arg10 (((cfg0.win 9).blk t).view.emb y) = V m c main_arg10 y
  congr 1
  funext a
  apply Fin.ext
  match a with
  | ⟨0, _⟩ => show win0_9.index t (0 : Fin 2) * 128 + 1 * (y 0).val = (y 0).val; omega
  | ⟨1, _⟩ => show win0_9.index t (1 : Fin 2) * 128 + 1 * (y 1).val = (y 1).val; omega

theorem blk10 (c : Dev nD) (t : Fin cfg0.N) :
    (iblk m c 10 t : Vec Ideal S1x128 .f32) = (V m c main_v3 : S1x128.Idx → EReal) := by
  have e0 : win0_10.index t (0 : Fin 2) = 0 := (idx_facts t).2.2.2.2.2.2.2.2.2.2.1.1
  have e1 : win0_10.index t (1 : Fin 2) = 0 := (idx_facts t).2.2.2.2.2.2.2.2.2.2.1.2
  funext y
  show V m c main_v3 (((cfg0.win 10).blk t).view.emb y) = V m c main_v3 y
  congr 1
  funext a
  apply Fin.ext
  match a with
  | ⟨0, _⟩ => show win0_10.index t (0 : Fin 2) * 1 + 1 * (y 0).val = (y 0).val; omega
  | ⟨1, _⟩ => show win0_10.index t (1 : Fin 2) * 128 + 1 * (y 1).val = (y 1).val; omega

/-! ## One row of one block, against the arrays -/

section
variable (x0 x1 x2 : Vec Ideal S4000x128 .bf16) (x3 : Vec Ideal S128x128 .f32) (x4 : Vec Ideal S1x128 .f32)
  (x5 : Vec Ideal S128x128 .f32) (x6 : Vec Ideal S1x128 .f32) (x7 : Vec Ideal S128x128 .f32) (x8 : Vec Ideal S1x128 .f32)
  (x9 : Vec Ideal S128x128 .f32) (x10 : Vec Ideal S1x128 .f32)
  (A0 A1 A2 : S800000x128.Idx → EReal) (W3 : S128x128.Idx → EReal) (b4 : S1x128.Idx → EReal)
  (W5 : S128x128.Idx → EReal) (b6 : S1x128.Idx → EReal) (W7 : S128x128.Idx → EReal) (b8 : S1x128.Idx → EReal)
  (W9 : S128x128.Idx → EReal) (b10 : S1x128.Idx → EReal)
  (e : Fin 800000) (p : Fin 4000)
  (h0 : rowAt x0 p = rowAt A0 e) (h1 : rowAt x1 p = rowAt A1 e) (h2 : rowAt x2 p = rowAt A2 e)
  (h3 : x3 = W3) (h4 : x4 = b4) (h5 : x5 = W5) (h6 : x6 = b6) (h7 : x7 = W7) (h8 : x8 = b8) (h9 : x9 = W9)
  (h10 : x10 = b10)
include h0 h1 h2 h3 h4 h5 h6 h7 h8 h9 h10

/-- When row p of the three edge-row blocks is row e of the three arrays and the parameter blocks are the parameter
    arrays, the score block at (p, j) is the score array at (e, j). -/
theorem score_point (j : Fin 128) :
    Terms.scoreBlk (F := Ideal) x0 x1 x2 x3 x4 x7 x8 x9 x10 (ix2 p j) = G11 A0 A1 A2 W3 b4 W5 b6 W7 b8 W9 b10 (ix2 e j) := by
  subst h3 h4 h5 h6 h7 h8 h9 h10
  rw [G11_apply, ← h0, ← h1, ← h2]
  exact Payload.scoreBlk_apply x0 x1 x2 x3 x4 x5 x6 x7 x8 x9 x10 p j

/-- Likewise the message block at (p, 16 · hh + d) is the second array at (e, 16 · hh + d). -/
theorem msg_point (hh : Fin 8) (d : Fin 16) :
    Terms.msgBlk (F := Ideal) x0 x1 x2 x3 x4 x5 x6 x7 x8 x9 x10 (ix2 p (col hh d))
      = G12 A0 A1 A2 W3 b4 W5 b6 W7 b8 W9 b10 (ix2 e (⟨hh.val * 16 + d.val, by omega⟩ : Fin 136)) := by
  subst h3 h4 h5 h6 h7 h8 h9 h10
  rw [G12_msg, ← h0, ← h1, ← h2]
  exact Payload.msgBlk_apply x0 x1 x2 x3 x4 x5 x6 x7 x8 x9 x10 p hh d

/-- and the weight block at (p, hh) is the second array at (e, 128 + hh). -/
theorem wgt_point (hh : Fin 8) :
    Terms.wgtBlk (F := Ideal) x0 x1 x2 x3 x4 x7 x8 x9 x10 (ix2 p hh)
      = G12 A0 A1 A2 W3 b4 W5 b6 W7 b8 W9 b10 (ix2 e (⟨128 + hh.val, by omega⟩ : Fin 136)) := by
  subst h3 h4 h5 h6 h7 h8 h9 h10
  rw [G12_wgt, ← h0, ← h1, ← h2]
  exact Payload.wgtBlk_apply x0 x1 x2 x3 x4 x5 x6 x7 x8 x9 x10 p hh

end

/-! ## The first output array -/

/-- The score block of point t at (p, j) is the score array at (4000 · t + p, j). -/
theorem point11 (c : Dev nD) (t : Fin cfg0.N) (p : Fin 4000) (j : Fin 128) :
    Terms.scoreBlk (F := Ideal) (iblk m c 0 t) (iblk m c 1 t) (iblk m c 2 t) (iblk m c 3 t) (iblk m c 4 t) (iblk m c 7 t) (iblk m c 8 t) (iblk m c 9 t) (iblk m c 10 t) (ix2 p j)
      = G11 (V m c main_v12) (V m c main_v19) (V m c main_v5) (V m c main_arg6) (V m c main_v1) (V m c main_arg8) (V m c main_v2) (V m c main_arg4) (V m c main_v0) (V m c main_arg10) (V m c main_v3) (ix2 (⟨4000 * t.val + p.val, by have := t_lt t; omega⟩ : Fin 800000) j) :=
  score_point (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v12) (V m c main_v19) (V m c main_v5) (V m c main_arg6) (V m c main_v1) (V m c main_arg8) (V m c main_v2) (V m c main_arg4) (V m c main_v0) (V m c main_arg10) (V m c main_v3) _ p
    (row0 m c t p) (row1 m c t p) (row2 m c t p) (blk3 m c t) (blk4 m c t) (blk5 m c t) (blk6 m c t) (blk7 m c t)
    (blk8 m c t) (blk9 m c t) (blk10 m c t) j

/-- What point t writes back to the first output array is block t of the score array. -/
theorem flushed11_eq (c : Dev nD) (t : Fin cfg0.N) :
    (dats m 0 c).flushed 11 t = ((cfg0.win 11).blk t).view.read (Elt Ideal) (G11 (V m c main_v12) (V m c main_v19) (V m c main_v5) (V m c main_arg6) (V m c main_v1) (V m c main_arg8) (V m c main_v2) (V m c main_arg4) (V m c main_v0) (V m c main_arg10) (V m c main_v3)) := by
  show (cfg0.win 11).cut (grid0.coords t) ((dats m 0 c).after 11 t) = _
  rw [after0_11]
  unfold outsAt0
  dsimp only
  rw [Pieces.out11_eq]
  have e0 : win0_11.index t (0 : Fin 2) = t.val := (idx_facts t).2.2.2.2.2.2.2.2.2.2.2.1.1
  have e1 : win0_11.index t (1 : Fin 2) = 0 := (idx_facts t).2.2.2.2.2.2.2.2.2.2.2.1.2
  refine funext fun (y : S4000x128.Idx) => ?_
  obtain ⟨p, j, rfl⟩ : ∃ (p : Fin 4000) (j : Fin 128), y = ix2 p j := ⟨y 0, y 1, eq_ix2 y⟩
  show Terms.scoreBlk (F := Ideal) (iblk m c 0 t) (iblk m c 1 t) (iblk m c 2 t) (iblk m c 3 t) (iblk m c 4 t) (iblk m c 7 t) (iblk m c 8 t) (iblk m c 9 t) (iblk m c 10 t) (ix2 p j)
    = G11 (V m c main_v12) (V m c main_v19) (V m c main_v5) (V m c main_arg6) (V m c main_v1) (V m c main_arg8) (V m c main_v2) (V m c main_arg4) (V m c main_v0) (V m c main_arg10) (V m c main_v3) (((cfg0.win 11).blk t).view.emb (ix2 p j))
  refine (point11 m c t p j).trans ?_
  congr 1
  funext a
  apply Fin.ext
  match a with
  | ⟨0, _⟩ => show 4000 * t.val + p.val = win0_11.index t (0 : Fin 2) * 4000 + 1 * p.val; omega
  | ⟨1, _⟩ => show j.val = win0_11.index t (1 : Fin 2) * 128 + 1 * j.val; omega

/-- An index of the first output array is in point t's block iff each coordinate is in the block's range. -/
theorem mem_blk11 (t : Fin cfg0.N) (i : S800000x128.Idx) :
    i ∈ ((cfg0.win 11).blk t).view.set ↔ ∀ a : Fin 2, win0_11.index t a * S4000x128.size a ≤ (i a).val
      ∧ (i a).val < win0_11.index t a * S4000x128.size a + S4000x128.size a := by
  show i ∈ ((View.whole main_v20_0).slice (win0_11.rect t)).set ↔ _
  rw [View.set_slice_whole, Rect.mem_set_unit]
  exact Iff.rfl

/-- Every index of the first output array is in the block of the point its row falls in. -/
theorem cover11 (i : S800000x128.Idx) :
    ∃ t : Fin cfg0.N, (cfg0.win 11).flush t = true ∧ i ∈ ((cfg0.win 11).blk t).view.set := by
  have hN : cfg0.N = 200 := N_0
  have hi0 : (i 0).val < 800000 := (i 0).isLt
  have hi1 : (i 1).val < 128 := (i 1).isLt
  refine ⟨⟨(i 0).val / 4000, by omega⟩, flush0_11 _, ?_⟩
  rw [mem_blk11]
  have e0 := (idx_facts (⟨(i 0).val / 4000, by omega⟩ : Fin cfg0.N)).2.2.2.2.2.2.2.2.2.2.2.1.1
  have e1 := (idx_facts (⟨(i 0).val / 4000, by omega⟩ : Fin cfg0.N)).2.2.2.2.2.2.2.2.2.2.2.1.2
  intro a
  match a with
  | ⟨0, _⟩ =>
    show win0_11.index _ (0 : Fin 2) * 4000 ≤ (i 0).val ∧ (i 0).val < win0_11.index _ (0 : Fin 2) * 4000 + 4000
    rw [e0]; show (i 0).val / 4000 * 4000 ≤ (i 0).val ∧ (i 0).val < (i 0).val / 4000 * 4000 + 4000; omega
  | ⟨1, _⟩ =>
    show win0_11.index _ (1 : Fin 2) * 128 ≤ (i 1).val ∧ (i 1).val < win0_11.index _ (1 : Fin 2) * 128 + 128
    rw [e1]; omega

/-- The first output array ends holding the score array. -/
theorem final11 (c : Dev nD) : (dats m 0 c).arrAt 11 cfg0.N = G11 (V m c main_v12) (V m c main_v19) (V m c main_v5) (V m c main_arg6) (V m c main_v1) (V m c main_arg8) (V m c main_v2) (V m c main_arg4) (V m c main_v0) (V m c main_arg10) (V m c main_v3) :=
  (dats m 0 c).arrAt_eq_of_cover 11 (G11 (V m c main_v12) (V m c main_v19) (V m c main_v5) (V m c main_arg6) (V m c main_v1) (V m c main_arg8) (V m c main_v2) (V m c main_arg4) (V m c main_v0) (V m c main_arg10) (V m c main_v3)) (fun t _ => flushed11_eq m c t) cover11

/-! ## The second output array -/

/-- A column of the second array is a lane of a head (below 128) or a head's weight column (from 128 on). -/
theorem col_cases (q : Fin 136) :
    (∃ (hh : Fin 8) (d : Fin 16), q = (⟨hh.val * 16 + d.val, by omega⟩ : Fin 136))
      ∨ (∃ hh : Fin 8, q = (⟨128 + hh.val, by omega⟩ : Fin 136)) := by
  have hq : q.val < 136 := q.isLt
  by_cases h : q.val < 128
  · exact Or.inl ⟨⟨q.val / 16, by omega⟩, ⟨q.val % 16, by omega⟩,
      Fin.ext (by show q.val = q.val / 16 * 16 + q.val % 16; omega)⟩
  · exact Or.inr ⟨⟨q.val - 128, by omega⟩, Fin.ext (by show q.val = 128 + (q.val - 128); omega)⟩

/-- What point t leaves at (p, 16 · hh + d) of its second block is the second array at (4000 · t + p, 16 · hh + d). -/
theorem point12_msg (c : Dev nD) (t : Fin cfg0.N) (p : Fin 4000) (hh : Fin 8) (d : Fin 16) :
    Gen.out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p (⟨hh.val * 16 + d.val, by omega⟩ : Fin 136))
      = G12 (V m c main_v12) (V m c main_v19) (V m c main_v5) (V m c main_arg6) (V m c main_v1) (V m c main_arg8) (V m c main_v2) (V m c main_arg4) (V m c main_v0) (V m c main_arg10) (V m c main_v3) (ix2 (⟨4000 * t.val + p.val, by have := t_lt t; omega⟩ : Fin 800000)
          (⟨hh.val * 16 + d.val, by omega⟩ : Fin 136)) :=
  (Pieces.out12_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) p (col hh d)).trans
    (msg_point (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v12) (V m c main_v19) (V m c main_v5) (V m c main_arg6) (V m c main_v1) (V m c main_arg8) (V m c main_v2) (V m c main_arg4) (V m c main_v0) (V m c main_arg10) (V m c main_v3) _ p
      (row0 m c t p) (row1 m c t p) (row2 m c t p) (blk3 m c t) (blk4 m c t) (blk5 m c t) (blk6 m c t) (blk7 m c t)
      (blk8 m c t) (blk9 m c t) (blk10 m c t) hh d)

/-- What point t leaves at (p, 128 + hh) of its second block is the second array at (4000 · t + p, 128 + hh). -/
theorem point12_wgt (c : Dev nD) (t : Fin cfg0.N) (p : Fin 4000) (hh : Fin 8) :
    Gen.out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p (⟨128 + hh.val, by omega⟩ : Fin 136))
      = G12 (V m c main_v12) (V m c main_v19) (V m c main_v5) (V m c main_arg6) (V m c main_v1) (V m c main_arg8) (V m c main_v2) (V m c main_arg4) (V m c main_v0) (V m c main_arg10) (V m c main_v3) (ix2 (⟨4000 * t.val + p.val, by have := t_lt t; omega⟩ : Fin 800000)
          (⟨128 + hh.val, by omega⟩ : Fin 136)) :=
  (Pieces.out12_right c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) p hh).trans
    (wgt_point (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v12) (V m c main_v19) (V m c main_v5) (V m c main_arg6) (V m c main_v1) (V m c main_arg8) (V m c main_v2) (V m c main_arg4) (V m c main_v0) (V m c main_arg10) (V m c main_v3) _ p
      (row0 m c t p) (row1 m c t p) (row2 m c t p) (blk3 m c t) (blk4 m c t) (blk5 m c t) (blk6 m c t) (blk7 m c t)
      (blk8 m c t) (blk9 m c t) (blk10 m c t) hh)

/-- Where point t's second block places its index (p, q): at (4000 · t + p, q) of the array. -/
theorem emb12 (t : Fin cfg0.N) (p : Fin 4000) (q : Fin 136) :
    ((cfg0.win 12).blk t).view.emb (ix2 p q : S4000x136.Idx)
      = (ix2 (⟨4000 * t.val + p.val, by have := t_lt t; omega⟩ : Fin 800000) q : S800000x136.Idx) := by
  have e0 : win0_12.index t (0 : Fin 2) = t.val := (idx_facts t).2.2.2.2.2.2.2.2.2.2.2.2.1
  have e1 : win0_12.index t (1 : Fin 2) = 0 := (idx_facts t).2.2.2.2.2.2.2.2.2.2.2.2.2
  funext a
  apply Fin.ext
  match a with
  | ⟨0, _⟩ => show win0_12.index t (0 : Fin 2) * 4000 + 1 * p.val = 4000 * t.val + p.val; omega
  | ⟨1, _⟩ => show win0_12.index t (1 : Fin 2) * 136 + 1 * q.val = q.val; omega

/-- What point t writes back to the second output array is block t of the message-and-weight array. -/
theorem flushed12_eq (c : Dev nD) (t : Fin cfg0.N) :
    (dats m 0 c).flushed 12 t = ((cfg0.win 12).blk t).view.read (Elt Ideal) (G12 (V m c main_v12) (V m c main_v19) (V m c main_v5) (V m c main_arg6) (V m c main_v1) (V m c main_arg8) (V m c main_v2) (V m c main_arg4) (V m c main_v0) (V m c main_arg10) (V m c main_v3)) := by
  show (cfg0.win 12).cut (grid0.coords t) ((dats m 0 c).after 12 t) = _
  rw [after0_12]
  unfold outsAt0
  dsimp only
  refine funext fun (y : S4000x136.Idx) => ?_
  obtain ⟨p, q, rfl⟩ : ∃ (p : Fin 4000) (q : Fin 136), y = ix2 p q := ⟨y 0, y 1, eq_ix2 y⟩
  show Gen.out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q) = G12 (V m c main_v12) (V m c main_v19) (V m c main_v5) (V m c main_arg6) (V m c main_v1) (V m c main_arg8) (V m c main_v2) (V m c main_arg4) (V m c main_v0) (V m c main_arg10) (V m c main_v3) (((cfg0.win 12).blk t).view.emb (ix2 p q))
  rw [emb12 t p q]
  rcases col_cases q with ⟨hh, d, rfl⟩ | ⟨hh, rfl⟩
  · exact point12_msg m c t p hh d
  · exact point12_wgt m c t p hh

/-- An index of the second output array is in point t's block iff each coordinate is in the block's range. -/
theorem mem_blk12 (t : Fin cfg0.N) (i : S800000x136.Idx) :
    i ∈ ((cfg0.win 12).blk t).view.set ↔ ∀ a : Fin 2, win0_12.index t a * S4000x136.size a ≤ (i a).val
      ∧ (i a).val < win0_12.index t a * S4000x136.size a + S4000x136.size a := by
  show i ∈ ((View.whole main_v20_1).slice (win0_12.rect t)).set ↔ _
  rw [View.set_slice_whole, Rect.mem_set_unit]
  exact Iff.rfl

/-- Every index of the second output array is in the block of the point its row falls in. -/
theorem cover12 (i : S800000x136.Idx) :
    ∃ t : Fin cfg0.N, (cfg0.win 12).flush t = true ∧ i ∈ ((cfg0.win 12).blk t).view.set := by
  have hN : cfg0.N = 200 := N_0
  have hi0 : (i 0).val < 800000 := (i 0).isLt
  have hi1 : (i 1).val < 136 := (i 1).isLt
  refine ⟨⟨(i 0).val / 4000, by omega⟩, flush0_12 _, ?_⟩
  rw [mem_blk12]
  have e0 := (idx_facts (⟨(i 0).val / 4000, by omega⟩ : Fin cfg0.N)).2.2.2.2.2.2.2.2.2.2.2.2.1
  have e1 := (idx_facts (⟨(i 0).val / 4000, by omega⟩ : Fin cfg0.N)).2.2.2.2.2.2.2.2.2.2.2.2.2
  intro a
  match a with
  | ⟨0, _⟩ =>
    show win0_12.index _ (0 : Fin 2) * 4000 ≤ (i 0).val ∧ (i 0).val < win0_12.index _ (0 : Fin 2) * 4000 + 4000
    rw [e0]; show (i 0).val / 4000 * 4000 ≤ (i 0).val ∧ (i 0).val < (i 0).val / 4000 * 4000 + 4000; omega
  | ⟨1, _⟩ =>
    show win0_12.index _ (1 : Fin 2) * 136 ≤ (i 1).val ∧ (i 1).val < win0_12.index _ (1 : Fin 2) * 136 + 136
    rw [e1]; omega

/-- The second output array ends holding the message-and-weight array. -/
theorem final12 (c : Dev nD) : (dats m 0 c).arrAt 12 cfg0.N = G12 (V m c main_v12) (V m c main_v19) (V m c main_v5) (V m c main_arg6) (V m c main_v1) (V m c main_arg8) (V m c main_v2) (V m c main_arg4) (V m c main_v0) (V m c main_arg10) (V m c main_v3) :=
  (dats m 0 c).arrAt_eq_of_cover 12 (G12 (V m c main_v12) (V m c main_v19) (V m c main_v5) (V m c main_arg6) (V m c main_v1) (V m c main_arg8) (V m c main_v2) (V m c main_arg4) (V m c main_v0) (V m c main_arg10) (V m c main_v3)) (fun t _ => flushed12_eq m c t) cover12

end Cert.KernelIdeal.Blocks
end
-- ==== Proof.HostSide.lean ====
/-
  What the pallas_call finds in its eleven input arrays, in terms of the argument arrays.

  Before the call the host program rounds the node and edge features to bf16 (the identity on the extended reals),
  gathers the node rows of every edge's wrapped source index and of its wrapped destination index, and reshapes the
  four bias vectors to 1 × 128 blocks.  So row e of the first two input arrays is the node row the edge's source
  (destination) index picks, row e of the third is the edge's own row, the matrices are the arguments themselves,
  and entry (0, j) of a bias block is entry j of the bias.
-/
import proofs.«129676_j36979668418616_2_alg».proof.Proof.Gen.KernelIdeal.Frame
import proofs.«129676_j36979668418616_2_alg».proof.Proof.Edges
import Idealize.ShloMosaic.Lib.StableHlo.Run
import Idealize.ShloMosaic.Lib.Pipeline.Value

set_option maxRecDepth 16384

noncomputable section

namespace Cert.KernelIdeal.HostSide

open Idealize.ShloMosaic Idealize.ShloMosaic.TcCoe Idealize.SL.Sem Idealize.ShloMosaic.StableHlo
open Cert.KernelIdeal Cert.KernelIdeal.Gen Idealize.ShloMosaic.ValueIdx Cert.Bridge

variable (m : (ℓ : Loc nD τ sig) → Buf (Elt Ideal) ℓ) (c : Dev nD)

/-! ## The arrays as terms of the arguments -/

/-- The source rows: the gather of the rounded node features at the wrapped source indices. -/
theorem V_src : (V m c main_v12 : S800000x128.Idx → EReal)
    = (Host.gather gather_S50000x128_S800000x1_S800000x128_1_0_n_n_0_1_1128
        (truncf (F := Ideal) .bf16 (m ((c : Thread nD τ).loc main_arg0)) bitsLt_bf16_f32)
        (Cert.ReferenceIdeal.Read.val_main_v25 (F := Ideal) (m ((c : Thread nD τ).loc main_arg2))) : S800000x128.Idx → EReal) := by
  show StableHlo.after hostOps0 (fun b => m (c, b)) (Proc.devRef .tc main_v12) = _
  after_results_simp
  all_goals rfl

/-- The destination rows: the gather at the wrapped destination indices. -/
theorem V_dst : (V m c main_v19 : S800000x128.Idx → EReal)
    = (Host.gather gather_S50000x128_S800000x1_S800000x128_1_0_n_n_0_1_1128
        (truncf (F := Ideal) .bf16 (m ((c : Thread nD τ).loc main_arg0)) bitsLt_bf16_f32)
        (Cert.ReferenceIdeal.Read.val_main_v32 (F := Ideal) (m ((c : Thread nD τ).loc main_arg3))) : S800000x128.Idx → EReal) := by
  show StableHlo.after hostOps0 (fun b => m (c, b)) (Proc.devRef .tc main_v19) = _
  after_results_simp
  all_goals rfl

/-- The edge rows: the rounded edge features. -/
theorem V_edge : (V m c main_v5 : S800000x128.Idx → EReal)
    = (truncf (F := Ideal) .bf16 (m ((c : Thread nD τ).loc main_arg1)) bitsLt_bf16_f32 : S800000x128.Idx → EReal) := by
  show StableHlo.after hostOps0 (fun b => m (c, b)) (Proc.devRef .tc main_v5) = _
  after_results_simp
  all_goals rfl

/-- The four bias blocks: the bias vectors reshaped to 1 × 128. -/
theorem V_bQ : (V m c main_v0 : S1x128.Idx → EReal)
    = shapeCast S1x128 (m ((c : Thread nD τ).loc main_arg5)) shapeCasts_S128_S1x128 := by
  show StableHlo.after hostOps0 (fun b => m (c, b)) (Proc.devRef .tc main_v0) = _
  after_results_simp
  all_goals rfl
theorem V_bK : (V m c main_v1 : S1x128.Idx → EReal)
    = shapeCast S1x128 (m ((c : Thread nD τ).loc main_arg7)) shapeCasts_S128_S1x128 := by
  show StableHlo.after hostOps0 (fun b => m (c, b)) (Proc.devRef .tc main_v1) = _
  after_results_simp
  all_goals rfl
theorem V_bV : (V m c main_v2 : S1x128.Idx → EReal)
    = shapeCast S1x128 (m ((c : Thread nD τ).loc main_arg9)) shapeCasts_S128_S1x128 := by
  show StableHlo.after hostOps0 (fun b => m (c, b)) (Proc.devRef .tc main_v2) = _
  after_results_simp
  all_goals rfl
theorem V_bE : (V m c main_v3 : S1x128.Idx → EReal)
    = shapeCast S1x128 (m ((c : Thread nD τ).loc main_arg11)) shapeCasts_S128_S1x128 := by
  show StableHlo.after hostOps0 (fun b => m (c, b)) (Proc.devRef .tc main_v3) = _
  after_results_simp
  all_goals rfl

/-! ## Rows and entries -/

/-- A vector of length 128 reshaped to a 1 × 128 block reads, at (0, j), the vector at j. -/
theorem row0_apply (x : S128.Idx → EReal) (j : Fin 128) :
    shapeCast S1x128 x shapeCasts_S128_S1x128 (ix2 (0 : Fin 1) j) = x (ix1 j) :=
  shapeCast_apply x shapeCasts_S128_S1x128 _ _ (by
    rw [Shape.rowMajor_val_one, Shape.rowMajor_val_two]
    show j.val = 0 * 128 + j.val
    omega)

/-- Entry (0, j) of each bias block is entry j of its bias vector. -/
theorem bias_Q (j : Fin 128) : (V m c main_v0 : S1x128.Idx → EReal) (ix2 (0 : Fin 1) j)
    = (m ((c : Thread nD τ).loc main_arg5) : S128.Idx → EReal) (ix1 j) := by
  rw [V_bQ]; exact row0_apply _ j
theorem bias_K (j : Fin 128) : (V m c main_v1 : S1x128.Idx → EReal) (ix2 (0 : Fin 1) j)
    = (m ((c : Thread nD τ).loc main_arg7) : S128.Idx → EReal) (ix1 j) := by
  rw [V_bK]; exact row0_apply _ j
theorem bias_V (j : Fin 128) : (V m c main_v2 : S1x128.Idx → EReal) (ix2 (0 : Fin 1) j)
    = (m ((c : Thread nD τ).loc main_arg9) : S128.Idx → EReal) (ix1 j) := by
  rw [V_bV]; exact row0_apply _ j
theorem bias_E (j : Fin 128) : (V m c main_v3 : S1x128.Idx → EReal) (ix2 (0 : Fin 1) j)
    = (m ((c : Thread nD τ).loc main_arg11) : S128.Idx → EReal) (ix1 j) := by
  rw [V_bE]; exact row0_apply _ j

/-- Row e of the source array is the node row the edge's source index picks. -/
theorem row_src (e : Fin 800000) :
    rowAt (V m c main_v12 : S800000x128.Idx → EReal) e
      = rowAt (m ((c : Thread nD τ).loc main_arg0) : S50000x128.Idx → EReal) (srcRow (m ((c : Thread nD τ).loc main_arg2)) e) := by
  funext k
  show (V m c main_v12 : S800000x128.Idx → EReal) (ix2 e k) = _
  rw [V_src]
  exact Cert.LibGather.gather_rows_apply (by norm_num) _ rfl rfl rfl rfl rfl rfl rfl _ _ e k

/-- Row e of the destination array is the node row the edge's destination index picks. -/
theorem row_dst (e : Fin 800000) :
    rowAt (V m c main_v19 : S800000x128.Idx → EReal) e
      = rowAt (m ((c : Thread nD τ).loc main_arg0) : S50000x128.Idx → EReal) (dstRow (m ((c : Thread nD τ).loc main_arg3)) e) := by
  funext k
  show (V m c main_v19 : S800000x128.Idx → EReal) (ix2 e k) = _
  rw [V_dst]
  exact Cert.LibGather.gather_rows_apply (by norm_num) _ rfl rfl rfl rfl rfl rfl rfl _ _ e k

/-- Row e of the edge array is the edge's own row. -/
theorem row_edge (e : Fin 800000) :
    rowAt (V m c main_v5 : S800000x128.Idx → EReal) e
      = rowAt (m ((c : Thread nD τ).loc main_arg1) : S800000x128.Idx → EReal) e := by
  funext k
  show (V m c main_v5 : S800000x128.Idx → EReal) (ix2 e k) = _
  rw [V_edge]
  rfl

/-- The parameters the pallas_call finds are the arguments' (a bias block's row 0 is the bias vector). -/
theorem wts_eq :
    (⟨(V m c main_arg6 : S128x128.Idx → EReal), fun j => (V m c main_v1 : S1x128.Idx → EReal) (ix2 (0 : Fin 1) j),
      (V m c main_arg8 : S128x128.Idx → EReal), fun j => (V m c main_v2 : S1x128.Idx → EReal) (ix2 (0 : Fin 1) j),
      (V m c main_arg4 : S128x128.Idx → EReal), fun j => (V m c main_v0 : S1x128.Idx → EReal) (ix2 (0 : Fin 1) j),
      (V m c main_arg10 : S128x128.Idx → EReal), fun j => (V m c main_v3 : S1x128.Idx → EReal) (ix2 (0 : Fin 1) j)⟩ : Wts)
      = wtsR (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11)) := by
  unfold wtsR
  rw [Wts.mk.injEq]
  exact ⟨V_main_arg6 m c, funext (bias_K m c), V_main_arg8 m c, funext (bias_V m c), V_main_arg4 m c,
    funext (bias_Q m c), V_main_arg10 m c, funext (bias_E m c)⟩

end Cert.KernelIdeal.HostSide

end
-- ==== Proof.KernelRun.lean ====
/-
  The kernel program's run, with its two results named: each is the layer's function of the twelve argument arrays.

  The pallas_call leaves, block by block, the edges' scores in its first output array and the edges' messages and
  weights side by side in its second; the host lines after it read the first array's 128 columns as 8 heads of 16
  lanes, sum the second array's rows into the nodes their destination indices name, and divide the summed messages
  by the summed weights plus the word of 1e-6.  Row e of the call's three edge inputs is the source node row, the
  destination node row and the edge's own row (the host lines before the call), so both results are the functions
  `outE` and `outH` of the arguments.
-/
import proofs.«129676_j36979668418616_2_alg».proof.Proof.Gen.KernelIdeal.Frame
import proofs.«129676_j36979668418616_2_alg».proof.Proof.Edges
import proofs.«129676_j36979668418616_2_alg».proof.Proof.Tail
import proofs.«129676_j36979668418616_2_alg».proof.Proof.Blocks
import proofs.«129676_j36979668418616_2_alg».proof.Proof.HostSide
import Idealize.ShloMosaic.Lib.StableHlo.Run
import Idealize.ShloMosaic.Lib.Pipeline.Value

set_option maxRecDepth 16384

noncomputable section

namespace Cert.KernelIdeal.Run

open Idealize.ShloMosaic Idealize.ShloMosaic.TcCoe Idealize.SL.Sem Idealize.ShloMosaic.StableHlo
open Cert.KernelIdeal Cert.KernelIdeal.Gen Idealize.ShloMosaic.ValueIdx Cert.Bridge

/-! ## The host lines after the call, from any contents of the buffers -/

/-- The first result is the quotient of the sums of the call's second output array. -/
theorem tail32 (W : Valuation τ sig (Elt Ideal)) :
    StableHlo.after (hostOps1 (F := Ideal)) W (Proc.devRef .tc main_v32)
      = Tail.tailH (W (Proc.devRef .tc main_arg3)) (W (Proc.devRef .tc main_v20_1)) := by
  after_results_simp
  all_goals rfl

/-- The second result is the call's first output array with its columns read as heads and lanes. -/
theorem tail21 (W : Valuation τ sig (Elt Ideal)) :
    StableHlo.after (hostOps1 (F := Ideal)) W (Proc.devRef .tc main_v21)
      = Tail.tailE (W (Proc.devRef .tc main_v20_0)) := by
  after_results_simp
  all_goals rfl

variable (m : (ℓ : Loc nD τ sig) → Buf (Elt Ideal) ℓ) (ρ : Dev nD → PrngReg)

/-- After the run the second result is that reading of the first output array as the call leaves it. -/
theorem res21 (c : Dev nD) : Pipeline.afterTail₀ cfgs (dats m) 0 (V0 m) [hostOps1] c main_v21
    = Tail.tailE ((dats m 0 c).arrAt 11 cfg0.N) := by
  unfold Pipeline.afterTail₀
  show StableHlo.after hostOps1 _ (Proc.devRef .tc main_v21) = _
  rw [tail21]
  refine congrArg Tail.tailE ?_
  exact Pipeline.withArrays_arr spec0 launch0.win.arr_inj c _ _ 11

/-- After the run the first result is that quotient over the second output array as the call leaves it, summed by the
    destination indices as launched. -/
theorem res32 (c : Dev nD) : Pipeline.afterTail₀ cfgs (dats m) 0 (V0 m) [hostOps1] c main_v32
    = Tail.tailH (m ((c : Thread nD τ).loc main_arg3)) ((dats m 0 c).arrAt 12 cfg0.N) := by
  unfold Pipeline.afterTail₀
  show StableHlo.after hostOps1 _ (Proc.devRef .tc main_v32) = _
  rw [tail32]
  refine congrArg₂ Tail.tailH ?_ ?_
  · exact (Pipeline.withArrays_of_ne _ c (V0 m c) _ main_arg3 (by exact (by decide : ∀ w, Pipeline.arrRef spec0 w ≠ main_arg3))).trans (V_main_arg3 m c)
  · exact Pipeline.withArrays_arr spec0 launch0.win.arr_inj c _ _ 12

/-! ## The two results as functions of the arguments -/

/-- The parameters the call finds are the arguments'. -/
theorem wts_eq (c : Dev nD) :
    Payload.wtsB (V m c main_arg6) (V m c main_v1) (V m c main_arg8) (V m c main_v2) (V m c main_arg4) (V m c main_v0)
        (V m c main_arg10) (V m c main_v3)
      = wtsR (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11)) :=
  HostSide.wts_eq m c

/-- The edges' scores, read as heads and lanes, are the second result. -/
theorem outE_eq (c : Dev nD) :
    Tail.tailE ((dats m 0 c).arrAt 11 cfg0.N) = outE (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext i
  obtain ⟨e, hh, d, rfl⟩ : ∃ (e : Fin 800000) (hh : Fin 8) (d : Fin 16), i = ix3 e hh d := ⟨i 0, i 1, i 2, eq_ix3 i⟩
  rw [Tail.tailE_apply, Blocks.final11 m c, Blocks.G11_apply, wts_eq m c, HostSide.row_src m c e, HostSide.row_dst m c e,
    HostSide.row_edge m c e]
  rfl

/-- The summed messages over the summed weights are the first result. -/
theorem outH_eq (c : Dev nD) :
    Tail.tailH (m ((c : Thread nD τ).loc main_arg3)) ((dats m 0 c).arrAt 12 cfg0.N) = outH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext i
  obtain ⟨n, hh, d, rfl⟩ : ∃ (n : Fin 50000) (hh : Fin 8) (d : Fin 16), i = ix3 n hh d := ⟨i 0, i 1, i 2, eq_ix3 i⟩
  rw [Tail.tailH_apply, Blocks.final12 m c]
  simp only [Blocks.G12_msg, Blocks.G12_wgt, wts_eq m c, HostSide.row_src m c, HostSide.row_dst m c, HostSide.row_edge m c]
  rfl

/-! ## The run -/

/-- Every weakly fair execution of the kernel program terminates with its first result at the summed messages over the
    summed weights, its second at the edges' scores, and its arguments unchanged. -/
theorem run : θ_run (defs (F := Ideal)) (onTc (τ := τ) (main (F := Ideal))) ⟨m, fun _ => 0, ρ⟩ (fun r => ∀ c : Dev nD,
      r.2.mem ((c.tc : Thread nD τ).loc main_v32)
        = outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v21)
        = outE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨((h c).2 main_v32 (Pipeline.mem_restRefs_of main_v32 (by decide) (by decide))).trans ((res32 m c).trans (outH_eq m c)),
      ((h c).2 main_v21 (Pipeline.mem_restRefs_of main_v21 (by decide) (by decide))).trans ((res21 m c).trans (outE_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 7).trans (((dats m 0 c).arrAt_in 7 rfl _).trans ((A_eq m c 7).trans (V_main_arg4 m c))),
      (((h c).2 main_arg5 (Pipeline.mem_restRefs_of main_arg5 (by decide) (by decide))).trans (W_main_arg5 m (dats m) c)),
      ((h c).1 3).trans (((dats m 0 c).arrAt_in 3 rfl _).trans ((A_eq m c 3).trans (V_main_arg6 m c))),
      (((h c).2 main_arg7 (Pipeline.mem_restRefs_of main_arg7 (by decide) (by decide))).trans (W_main_arg7 m (dats m) c)),
      ((h c).1 5).trans (((dats m 0 c).arrAt_in 5 rfl _).trans ((A_eq m c 5).trans (V_main_arg8 m c))),
      (((h c).2 main_arg9 (Pipeline.mem_restRefs_of main_arg9 (by decide) (by decide))).trans (W_main_arg9 m (dats m) c)),
      ((h c).1 9).trans (((dats m 0 c).arrAt_in 9 rfl _).trans ((A_eq m c 9).trans (V_main_arg10 m c))),
      (((h c).2 main_arg11 (Pipeline.mem_restRefs_of main_arg11 (by decide) (by decide))).trans (W_main_arg11 m (dats m) c))⟩)
    (run_main m ρ)

end Cert.KernelIdeal.Run

end
-- ==== Proof.Scalars.lean ====
/-
  The two float words of the score's scale, on the extended reals.

  The kernel multiplies by the word of 1/4; the reference divides by the square root of the word of 16.  The word
  0x41800000 is the real 16, whose square root is 4, and the word 0x3E800000 is the real 1/4; dividing any extended
  real by the real 4 is multiplying it by 1/4 (infinite values included: the divisor is a non-zero real).
-/
import Idealize.ShloMosaic.PureOps.Ideal

noncomputable section

namespace Cert.Bridge

open Idealize.ShloMosaic

/-- The word 0x41800000 is sixteen. -/
theorem ofBits_sixteen : Ideal.ofBits .f32 0x41800000#32 = ((16 : ℝ) : EReal) := by
  simp [Ideal.ofBits, Ideal.ieee, -EReal.coe_mul]; norm_num

/-- The word 0x3E800000 is one quarter. -/
theorem ofBits_quarter : Ideal.ofBits .f32 0x3E800000#32 = ((1 / 4 : ℝ) : EReal) := by
  simp [Ideal.ofBits, Ideal.ieee, -EReal.coe_mul]; norm_num

/-- The word of +0.0 is zero. -/
theorem ofBits_zero : Ideal.ofBits .f32 0x00000000#32 = 0 := by
  simp [Ideal.ofBits, Ideal.ieee]

/-- Dividing by the square root of sixteen is multiplying by one quarter, on every extended real. -/
theorem div_sqrt_sixteen (x : EReal) :
    Ideal.div x (Ideal.sqrt (Ideal.ofBits .f32 0x41800000#32)) = x * Ideal.ofBits .f32 0x3E800000#32 := by
  have h4 : Real.sqrt 16 = 4 := by
    rw [show (16 : ℝ) = 4 ^ 2 by norm_num]
    exact Real.sqrt_sq (by norm_num)
  rw [ofBits_sixteen, ofBits_quarter, Ideal.sqrt_coe, if_neg (by norm_num), h4,
    Ideal.div_coe (by norm_num : (4 : ℝ) ≠ 0)]

end Cert.Bridge

end
-- ==== Proof.LibGather3.lean ====
/-
  Slab gathers read at an entry.

  The lowering of array indexing of a three-axis array by a vector of slab numbers, with one scalar start index per
  result slab (an E × 1 index array, index vector along axis 1): operand N × A × B, result E × A × B, offset axes 1
  and 2, collapsed axis 0, slice sizes (1, A, B); result entry (e, a, b) is the operand's entry (rho e, a, b), where
  rho e is slab e's start index read signed and clamped into [0, N - 1] (the same row selection as the row gather of a
  matrix). It holds for every extent N, E, A, B.
-/
import Idealize.ShloMosaic.PureOps.Ideal
import Idealize.ShloMosaic.Lib.ValueIdx
import proofs.«129676_j36979668418616_2_alg».proof.Proof.LibGather

noncomputable section

namespace Cert.LibGather3

open Idealize.ShloMosaic Idealize.ShloMosaic.ValueIdx
open Cert.LibGather (clampRow clampRow_lt)

variable {α : Type}

section Slabs

variable {N E A B w : Nat}
  (wf : GatherDims.WF (⟨3, ![N, A, B]⟩ : Shape) ⟨2, ![E, 1]⟩ ⟨3, ![E, A, B]⟩ [1, 2] [0] [] [0] [] 1 ![1, A, B])

/-- The slab gather's dimension numbers. -/
abbrev slabDims : GatherDims (⟨3, ![N, A, B]⟩ : Shape) ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- The slab gather read at (e, a, b): the operand at (rho e, a, b). -/
theorem slabs_gather_apply (hN : 0 < N) (x : (⟨3, ![N, A, B]⟩ : Shape).Idx → α) (idx : IVec ⟨2, ![E, 1]⟩ w)
    (e : Fin E) (a : Fin A) (b : Fin B) :
    Host.gather (slabDims wf) x idx (ix3 e a b)
      = x (ix3 ⟨clampRow N (idx (ix2 e (0 : Fin 1))), clampRow_lt hN _⟩ a b) := by
  unfold Host.gather
  refine congrArg x (funext fun k => Fin.ext ?_)
  have hsi : (slabDims wf).siIdx (ix3 e a b) ⟨List.idxOf (0 : Fin 3) (slabDims wf).startIndexMap,
      List.idxOf_lt_length_iff.2 (List.mem_singleton.mpr rfl)⟩ = ix2 e (0 : Fin 1) := by
    funext c; refine Fin.ext ?_
    match c with
    | ⟨0, _⟩ => rfl
    | ⟨1, _⟩ => rfl
  match k with
  | ⟨0, _⟩ =>
    show (slabDims wf).start (ix3 e a b) idx 0 + (slabDims wf).batchCoord (ix3 e a b) 0
        + (slabDims wf).offCoord (ix3 e a b) 0
      = clampRow N (idx (ix2 e (0 : Fin 1)))
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims wf).startIndexMap from List.mem_singleton.mpr rfl), hsi]
    rfl
  | ⟨1, _⟩ =>
    show (slabDims wf).start (ix3 e a b) idx 1 + (slabDims wf).batchCoord (ix3 e a b) 1
        + (slabDims wf).offCoord (ix3 e a b) 1
      = a.val
    rw [GatherDims.batchCoord_eq_zero _ _ _ List.not_mem_nil]
    have hs : (slabDims wf).start (ix3 e a b) idx 1 = 0 := by
      unfold GatherDims.start
      rw [dif_neg (by decide : (1 : Fin 3) ∉ ([0] : List (Fin 3)))]
    have ho : (slabDims wf).offCoord (ix3 e a b) 1 = a.val := by
      unfold GatherDims.offCoord
      rw [dif_pos (show (1 : Fin 3) ∈ (slabDims wf).sKept from
        (GatherDims.mem_sKept _ _).mpr ⟨(by decide : (1 : Fin 3) ∉ ([0] : List (Fin 3))), List.not_mem_nil⟩)]
      rfl
    rw [hs, ho]; omega
  | ⟨2, _⟩ =>
    show (slabDims wf).start (ix3 e a b) idx 2 + (slabDims wf).batchCoord (ix3 e a b) 2
        + (slabDims wf).offCoord (ix3 e a b) 2
      = b.val
    rw [GatherDims.batchCoord_eq_zero _ _ _ List.not_mem_nil]
    have hs : (slabDims wf).start (ix3 e a b) idx 2 = 0 := by
      unfold GatherDims.start
      rw [dif_neg (by decide : (2 : Fin 3) ∉ ([0] : List (Fin 3)))]
    have ho : (slabDims wf).offCoord (ix3 e a b) 2 = b.val := by
      unfold GatherDims.offCoord
      rw [dif_pos (show (2 : Fin 3) ∈ (slabDims wf).sKept from
        (GatherDims.mem_sKept _ _).mpr ⟨(by decide : (2 : Fin 3) ∉ ([0] : List (Fin 3))), List.not_mem_nil⟩)]
      rfl
    rw [hs, ho]; omega

end Slabs

/-- A slab gather as a program states it (any record with the slab gather's dimension numbers), read at (e, a, b):
    the operand at (rho e, a, b). -/
theorem gather_slabs_apply {N E A B w : Nat} (hN : 0 < N)
    (d : GatherDims (⟨3, ![N, A, B]⟩ : Shape) ⟨2, ![E, 1]⟩ ⟨3, ![E, A, B]⟩)
    (h1 : d.offsetDims = [1, 2]) (h2 : d.collapsedSliceDims = [0]) (h3 : d.operandBatchingDims = [])
    (h4 : d.startIndicesBatchingDims = []) (h5 : d.startIndexMap = [0]) (h6 : d.indexVectorDim = 1)
    (h7 : d.sliceSizes = ![1, A, B])
    (x : (⟨3, ![N, A, B]⟩ : Shape).Idx → α) (idx : IVec ⟨2, ![E, 1]⟩ w) (e : Fin E) (a : Fin A) (b : Fin B) :
    Host.gather d x idx (ix3 e a b)
      = x (ix3 ⟨Cert.LibGather.clampRow N (idx (ix2 e (0 : Fin 1))), Cert.LibGather.clampRow_lt hN _⟩ a b) := by
  obtain ⟨o, cs, ob, sb, sm, iv, ss, wf⟩ := d
  simp only at h1 h2 h3 h4 h5 h6 h7
  subst h1 h2 h3 h4 h5 h6 h7
  exact slabs_gather_apply wf hN x idx e a b

end Cert.LibGather3

end
-- ==== Proof.LibScatter3.lean ====
/-
  A slab scatter-add read at an entry, on the extended reals.

  The lowering of a segment sum of a three-axis array: an N × A × B operand, E update slabs of A × B entries, and one
  scalar slab index per update slab (an E × 1 index array); update slab e is added into operand slab idx(e). On the
  extended reals the result's entry (n, a, b) is the operand's entry plus the sum, over the update slabs e whose index
  (read signed) equals n, of the update's entry (e, a, b): an update lands on (n, a, b) exactly when its slab index is
  n and its two window coordinates are a and b, and an index outside [0, N) lands nowhere. It holds for every extent
  N, E, A, B.
-/
import Idealize.ShloMosaic.PureOps.Ideal
import Idealize.ShloMosaic.Lib.ValueIdx

noncomputable section

open scoped BigOperators

namespace Cert.LibScatter3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

section Slabs

variable {N E A B w : Nat}
  (wf : ScatterDims.WF (⟨3, ![N, A, B]⟩ : Shape) ⟨2, ![E, 1]⟩ ⟨3, ![E, A, B]⟩ [1, 2] [0] [0] 1)

/-- The slab scatter's dimension numbers: window axes 1 and 2 of the updates, inserted axis 0 of the operand, the one
    index component goes to operand axis 0, and the index vector lies along axis 1 of the indices. -/
abbrev slabDims : ScatterDims (⟨3, ![N, A, B]⟩ : Shape) ⟨2, ![E, 1]⟩ ⟨3, ![E, A, B]⟩ := ⟨[1, 2], [0], [0], 1, wf⟩

/-- On operand axis 0 the window of update entry (e, a', b') starts at slab e's index, read signed: the one index
    component goes to axis 0, and it is read at (e, 0) of the indices. -/
theorem slabs_start0 (idx : IVec ⟨2, ![E, 1]⟩ w) (e : Fin E) (a' : Fin A) (b' : Fin B) :
    (slabDims wf).start (ix3 e a' b') idx 0 = (idx (ix2 e (0 : Fin 1))).toInt := by
  unfold ScatterDims.start
  rw [dif_pos (show (0 : Fin 3) ∈ (slabDims wf).scatterDimsToOperandDims from List.mem_singleton.mpr rfl)]
  have hsi : (slabDims wf).siIdx (ix3 e a' b') ⟨List.idxOf (0 : Fin 3) (slabDims wf).scatterDimsToOperandDims,
      List.idxOf_lt_length_iff.2 (List.mem_singleton.mpr rfl)⟩ = ix2 e (0 : Fin 1) := by
    funext c; refine Fin.ext ?_
    match c with
    | ⟨0, _⟩ => rfl
    | ⟨1, _⟩ => rfl
  rw [hsi]

/-- On operand axis 1, which no index component goes to, every window starts at 0. -/
theorem slabs_start1 (idx : IVec ⟨2, ![E, 1]⟩ w) (j : (⟨3, ![E, A, B]⟩ : Shape).Idx) :
    (slabDims wf).start j idx 1 = 0 := by
  unfold ScatterDims.start
  have h : (1 : Fin 3) ∉ (slabDims wf).scatterDimsToOperandDims :=
    (by decide : (1 : Fin 3) ∉ ([0] : List (Fin 3)))
  rw [dif_neg h]

/-- On operand axis 2, which no index component goes to, every window starts at 0. -/
theorem slabs_start2 (idx : IVec ⟨2, ![E, 1]⟩ w) (j : (⟨3, ![E, A, B]⟩ : Shape).Idx) :
    (slabDims wf).start j idx 2 = 0 := by
  unfold ScatterDims.start
  have h : (2 : Fin 3) ∉ (slabDims wf).scatterDimsToOperandDims :=
    (by decide : (2 : Fin 3) ∉ ([0] : List (Fin 3)))
  rw [dif_neg h]

/-- Operand axis 0 is inserted, so the window coordinate on it is 0. -/
theorem slabs_window0 (j : (⟨3, ![E, A, B]⟩ : Shape).Idx) : (slabDims wf).window j 0 = 0 := by
  unfold ScatterDims.window
  have h : (0 : Fin 3) ∉ (slabDims wf).sKept :=
    (by decide : (0 : Fin 3) ∉ (List.finRange 3).filter (· ∉ ([0] : List (Fin 3))))
  rw [dif_neg h]

/-- Operand axis 1 is the first kept axis; the window coordinate on it is the update entry's coordinate on its
    first window axis. -/
theorem slabs_window1 (e : Fin E) (a' : Fin A) (b' : Fin B) : (slabDims wf).window (ix3 e a' b') 1 = a'.val := by
  unfold ScatterDims.window
  have h : (1 : Fin 3) ∈ (slabDims wf).sKept :=
    (by decide : (1 : Fin 3) ∈ (List.finRange 3).filter (· ∉ ([0] : List (Fin 3))))
  rw [dif_pos h]
  rfl

/-- Operand axis 2 is the second kept axis; the window coordinate on it is the update entry's coordinate on its
    second window axis. -/
theorem slabs_window2 (e : Fin E) (a' : Fin A) (b' : Fin B) : (slabDims wf).window (ix3 e a' b') 2 = b'.val := by
  unfold ScatterDims.window
  have h : (2 : Fin 3) ∈ (slabDims wf).sKept :=
    (by decide : (2 : Fin 3) ∈ (List.finRange 3).filter (· ∉ ([0] : List (Fin 3))))
  rw [dif_pos h]
  rfl

/-- An update entry (e, a', b') lands on the operand entry (n, a, b) exactly when slab e's index, read signed, is n
    and the window coordinates agree: on axis 0 the result coordinate is the index itself (window coordinate 0), on
    axes 1 and 2 it is the window coordinate (start 0); an index outside [0, N) lands nowhere. -/
theorem slabs_resultIdx?_eq_some_iff (idx : IVec ⟨2, ![E, 1]⟩ w) (e : Fin E) (a' : Fin A) (b' : Fin B)
    (n : Fin N) (a : Fin A) (b : Fin B) :
    (slabDims wf).resultIdx? (ix3 e a' b') idx = some (ix3 n a b)
      ↔ (idx (ix2 e (0 : Fin 1))).toInt = (n.val : Int) ∧ a' = a ∧ b' = b := by
  unfold ScatterDims.resultIdx?
  constructor
  · intro h
    split at h
    · rename_i hb
      have hf := Option.some.inj h
      have h0 := congrArg Fin.val (congrFun hf 0)
      have h1 := congrArg Fin.val (congrFun hf 1)
      have h2 := congrArg Fin.val (congrFun hf 2)
      have hb0 := (hb 0).1
      simp only [slabs_start0, slabs_start1, slabs_start2, slabs_window0, slabs_window1, slabs_window2]
        at h0 h1 h2 hb0
      have h0' : ((idx (ix2 e (0 : Fin 1))).toInt + ((0 : Nat) : Int)).toNat = n.val := h0
      have h1' : ((0 : Int) + (a'.val : Int)).toNat = a.val := h1
      have h2' : ((0 : Int) + (b'.val : Int)).toNat = b.val := h2
      refine ⟨by omega, Fin.ext (by omega), Fin.ext (by omega)⟩
    · exact absurd h (by simp)
  · rintro ⟨hi, rfl, rfl⟩
    have hb : ∀ k, 0 ≤ (slabDims wf).start (ix3 e a' b') idx k + (slabDims wf).window (ix3 e a' b') k ∧
        (slabDims wf).start (ix3 e a' b') idx k + (slabDims wf).window (ix3 e a' b') k
          < (⟨3, ![N, A, B]⟩ : Shape).size k := by
      intro k
      match k with
      | ⟨0, _⟩ =>
        show 0 ≤ (slabDims wf).start (ix3 e a' b') idx 0 + (slabDims wf).window (ix3 e a' b') 0 ∧
          (slabDims wf).start (ix3 e a' b') idx 0 + (slabDims wf).window (ix3 e a' b') 0 < (N : Int)
        rw [slabs_start0, slabs_window0]
        have := n.isLt
        omega
      | ⟨1, _⟩ =>
        show 0 ≤ (slabDims wf).start (ix3 e a' b') idx 1 + (slabDims wf).window (ix3 e a' b') 1 ∧
          (slabDims wf).start (ix3 e a' b') idx 1 + (slabDims wf).window (ix3 e a' b') 1 < (A : Int)
        rw [slabs_start1, slabs_window1]
        have := a'.isLt
        omega
      | ⟨2, _⟩ =>
        show 0 ≤ (slabDims wf).start (ix3 e a' b') idx 2 + (slabDims wf).window (ix3 e a' b') 2 ∧
          (slabDims wf).start (ix3 e a' b') idx 2 + (slabDims wf).window (ix3 e a' b') 2 < (B : Int)
        rw [slabs_start2, slabs_window2]
        have := b'.isLt
        omega
    rw [dif_pos hb]
    congr 1
    funext k
    refine Fin.ext ?_
    match k with
    | ⟨0, _⟩ =>
      show ((slabDims wf).start (ix3 e a' b') idx 0 + (slabDims wf).window (ix3 e a' b') 0).toNat = n.val
      rw [slabs_start0, slabs_window0]
      omega
    | ⟨1, _⟩ =>
      show ((slabDims wf).start (ix3 e a' b') idx 1 + (slabDims wf).window (ix3 e a' b') 1).toNat = a'.val
      rw [slabs_start1, slabs_window1]
      omega
    | ⟨2, _⟩ =>
      show ((slabDims wf).start (ix3 e a' b') idx 2 + (slabDims wf).window (ix3 e a' b') 2).toNat = b'.val
      rw [slabs_start2, slabs_window2]
      omega

/-- The slab scatter-add at the literal dimension numbers, read at entry (n, a, b). -/
theorem slabs_hostScatterAdd_apply (x : (⟨3, ![N, A, B]⟩ : Shape).Idx → EReal) (idx : IVec ⟨2, ![E, 1]⟩ w)
    (upd : (⟨3, ![E, A, B]⟩ : Shape).Idx → EReal) (n : Fin N) (a : Fin A) (b : Fin B) :
    Ideal.hostScatterAdd (slabDims wf) x idx upd (ix3 n a b)
      = x (ix3 n a b)
        + ∑ e : Fin E, if (idx (ix2 e (0 : Fin 1))).toInt = (n.val : Int) then upd (ix3 e a b) else 0 := by
  unfold Ideal.hostScatterAdd
  congr 1
  rw [Finset.sum_filter, sum_idx3]
  refine Finset.sum_congr rfl fun e _ => ?_
  simp only [slabs_resultIdx?_eq_some_iff]
  by_cases hA : (idx (ix2 e (0 : Fin 1))).toInt = (n.val : Int)
  · simp only [hA, true_and]
    rw [Finset.sum_eq_single a (fun a' _ ha' => by simp [ha']) (fun h => absurd (Finset.mem_univ _) h),
      Finset.sum_eq_single b (fun b' _ hb' => by simp [hb']) (fun h => absurd (Finset.mem_univ _) h)]
    simp
  · simp [hA]

end Slabs

/-- A slab scatter-add (the lowering of a segment sum of a three-axis array): operand N×A×B, one scalar slab index per
    update slab (indices E×1), updates E×A×B, window axes 1 and 2, inserted axis 0. At the exact instance, entry
    (n, a, b) of the result is the operand's entry plus the sum, over the update slabs e whose index (read signed) is
    n, of the update's entry (e, a, b). -/
theorem hostScatterAdd_slabs_apply {N E A B w : Nat}
    (d : ScatterDims (⟨3, ![N, A, B]⟩ : Shape) ⟨2, ![E, 1]⟩ ⟨3, ![E, A, B]⟩)
    (hu : d.updateWindowDims = [1, 2]) (hi : d.insertedWindowDims = [0])
    (hs : d.scatterDimsToOperandDims = [0]) (hv : d.indexVectorDim = 1)
    (x : (⟨3, ![N, A, B]⟩ : Shape).Idx → EReal) (idx : IVec ⟨2, ![E, 1]⟩ w)
    (upd : (⟨3, ![E, A, B]⟩ : Shape).Idx → EReal) (n : Fin N) (a : Fin A) (b : Fin B) :
    Ideal.hostScatterAdd d x idx upd (ix3 n a b)
      = x (ix3 n a b)
        + ∑ e : Fin E, if (idx (ix2 e (0 : Fin 1))).toInt = (n.val : Int) then upd (ix3 e a b) else 0 := by
  obtain ⟨uw, iw, sd, iv, wf⟩ := d
  simp only at hu hi hs hv
  subst hu hi hs hv
  exact slabs_hostScatterAdd_apply wf x idx upd n a b

/-- The same, for the scatter as a host program states it. -/
theorem scatterAdd_slabs_apply {N E A B w : Nat}
    (d : ScatterDims (⟨3, ![N, A, B]⟩ : Shape) ⟨2, ![E, 1]⟩ ⟨3, ![E, A, B]⟩)
    (hu : d.updateWindowDims = [1, 2]) (hi : d.insertedWindowDims = [0])
    (hs : d.scatterDimsToOperandDims = [0]) (hv : d.indexVectorDim = 1)
    (x : FVec Ideal (⟨3, ![N, A, B]⟩ : Shape) .f32) (idx : IVec ⟨2, ![E, 1]⟩ w)
    (upd : FVec Ideal (⟨3, ![E, A, B]⟩ : Shape) .f32) (n : Fin N) (a : Fin A) (b : Fin B) :
    Host.scatterAdd d x idx upd (ix3 n a b)
      = x (ix3 n a b)
        + ∑ e : Fin E, if (idx (ix2 e (0 : Fin 1))).toInt = (n.val : Int) then upd (ix3 e a b) else 0 :=
  hostScatterAdd_slabs_apply d hu hi hs hv x idx upd n a b

end Cert.LibScatter3

end
-- ==== Proof.RefValue.lean ====
/-
  The reference program's two results, read at an entry, are the specification's functions.

  The program projects the node features by three affine maps and the edge features by a fourth, reshapes each
  128-column row into 8 heads of 16 lanes (column = 16 · head + lane), picks the key and the value at an edge's
  source row and the query at its destination row, and multiplies: key · query / sqrt 16 · edge projection is the
  score.  A head's score sum, clipped to [-5, 5] and exponentiated, is the edge's weight; value · weight is its
  message.  Messages and weights are summed into the node the destination index names, and the first result is the
  quotient of the two sums (the weights' sum plus the word of 1e-6).  Each step below reads one stage of the program
  at an entry; the sums over the edges are never unfolded.
-/
import proofs.«129676_j36979668418616_2_alg».proof.Proof.Edges
import proofs.«129676_j36979668418616_2_alg».proof.Proof.Scalars
import proofs.«129676_j36979668418616_2_alg».proof.Proof.LibGather3
import proofs.«129676_j36979668418616_2_alg».proof.Proof.LibScatter3

noncomputable section

namespace Cert.RefBridge

open Cert.Bridge Cert.ReferenceIdeal Cert.ReferenceIdeal.Read Idealize.ShloMosaic Idealize.ShloMosaic.ValueIdx

/-! ## Index arithmetic of the reshapes: entry (r, head, lane) of the reshaped array is entry (r, 16 · head + lane) -/

/-- Row-major position ((r · 8 + head) · 16 + lane) of an r × 8 × 16 array lies in row r of the r × 128 array … -/
theorem flat_div (r hh d : Nat) (h1 : hh < 8) (h2 : d < 16) : ((r * 8 + hh) * 16 + d) / 128 = r := by omega

/-- … at column 16 · head + lane. -/
theorem flat_mod (r hh d : Nat) (h1 : hh < 8) (h2 : d < 16) : ((r * 8 + hh) * 16 + d) % 128 = hh * 16 + d := by omega

section Args

variable (x0 : (⟨S50000x128, .f32⟩ : BufTy).Contents (Elt Ideal)) (x1 : (⟨S800000x128, .f32⟩ : BufTy).Contents (Elt Ideal))
  (x2 x3 : (⟨S800000, .i32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))

theorem idx_v4_eq (r : Fin 50000) (hh : Fin 8) (d : Fin 16) : idx_main_v4 (ix3 r hh d) = ix2 r (col hh d) :=
  funext fun a => Fin.ext (by
    match a with
    | ⟨0, _⟩ => exact flat_div r.val hh.val d.val hh.isLt d.isLt
    | ⟨1, _⟩ => exact flat_mod r.val hh.val d.val hh.isLt d.isLt)

theorem idx_v9_eq (r : Fin 50000) (hh : Fin 8) (d : Fin 16) : idx_main_v9 (ix3 r hh d) = ix2 r (col hh d) :=
  funext fun a => Fin.ext (by
    match a with
    | ⟨0, _⟩ => exact flat_div r.val hh.val d.val hh.isLt d.isLt
    | ⟨1, _⟩ => exact flat_mod r.val hh.val d.val hh.isLt d.isLt)

theorem idx_v14_eq (r : Fin 50000) (hh : Fin 8) (d : Fin 16) : idx_main_v14 (ix3 r hh d) = ix2 r (col hh d) :=
  funext fun a => Fin.ext (by
    match a with
    | ⟨0, _⟩ => exact flat_div r.val hh.val d.val hh.isLt d.isLt
    | ⟨1, _⟩ => exact flat_mod r.val hh.val d.val hh.isLt d.isLt)

theorem idx_v19_eq (e : Fin 800000) (hh : Fin 8) (d : Fin 16) : idx_main_v19 (ix3 e hh d) = ix2 e (col hh d) :=
  funext fun a => Fin.ext (by
    match a with
    | ⟨0, _⟩ => exact flat_div e.val hh.val d.val hh.isLt d.isLt
    | ⟨1, _⟩ => exact flat_mod e.val hh.val d.val hh.isLt d.isLt)

/-! ## The four affine maps at an entry -/

/-- The query stage before its reshape, at (r, j): the affine map (x4, x5) of row r of the node features. -/
theorem linQ_at (r : Fin 50000) (j : Fin 128) :
    val_main_v3 (F := Ideal) x0 x4 x5 (ix2 r j) = proj (rowAt x0 r) x4 (fun j => x5 (ix1 j)) j := by
  rw [val_main_v3_apply, val_main_v0_apply, val_main_v2_apply, val_main_v1_apply]
  have hb : idx_main_v1 (idx_main_v2 (ix2 r j)) = ix1 j :=
    funext fun a => Fin.ext (by match a with | ⟨0, _⟩ => rfl)
  have hl : ∀ k : Fin 128, lidx_main_v0 (ix2 r j) k = ix2 r k := fun k =>
    funext fun a => Fin.ext (by match a with | ⟨0, _⟩ => rfl | ⟨1, _⟩ => rfl)
  have hr : ∀ k : Fin 128, ridx_main_v0 (ix2 r j) k = ix2 k j := fun k =>
    funext fun a => Fin.ext (by match a with | ⟨0, _⟩ => rfl | ⟨1, _⟩ => rfl)
  rw [hb]
  simp only [hl, hr]
  rfl

/-- The key stage before its reshape, at (r, j): the affine map (x6, x7) of row r of the node features. -/
theorem linK_at (r : Fin 50000) (j : Fin 128) :
    val_main_v8 (F := Ideal) x0 x6 x7 (ix2 r j) = proj (rowAt x0 r) x6 (fun j => x7 (ix1 j)) j := by
  rw [val_main_v8_apply, val_main_v5_apply, val_main_v7_apply, val_main_v6_apply]
  have hb : idx_main_v6 (idx_main_v7 (ix2 r j)) = ix1 j :=
    funext fun a => Fin.ext (by match a with | ⟨0, _⟩ => rfl)
  have hl : ∀ k : Fin 128, lidx_main_v5 (ix2 r j) k = ix2 r k := fun k =>
    funext fun a => Fin.ext (by match a with | ⟨0, _⟩ => rfl | ⟨1, _⟩ => rfl)
  have hr : ∀ k : Fin 128, ridx_main_v5 (ix2 r j) k = ix2 k j := fun k =>
    funext fun a => Fin.ext (by match a with | ⟨0, _⟩ => rfl | ⟨1, _⟩ => rfl)
  rw [hb]
  simp only [hl, hr]
  rfl

/-- The value stage before its reshape, at (r, j): the affine map (x8, x9) of row r of the node features. -/
theorem linV_at (r : Fin 50000) (j : Fin 128) :
    val_main_v13 (F := Ideal) x0 x8 x9 (ix2 r j) = proj (rowAt x0 r) x8 (fun j => x9 (ix1 j)) j := by
  rw [val_main_v13_apply, val_main_v10_apply, val_main_v12_apply, val_main_v11_apply]
  have hb : idx_main_v11 (idx_main_v12 (ix2 r j)) = ix1 j :=
    funext fun a => Fin.ext (by match a with | ⟨0, _⟩ => rfl)
  have hl : ∀ k : Fin 128, lidx_main_v10 (ix2 r j) k = ix2 r k := fun k =>
    funext fun a => Fin.ext (by match a with | ⟨0, _⟩ => rfl | ⟨1, _⟩ => rfl)
  have hr : ∀ k : Fin 128, ridx_main_v10 (ix2 r j) k = ix2 k j := fun k =>
    funext fun a => Fin.ext (by match a with | ⟨0, _⟩ => rfl | ⟨1, _⟩ => rfl)
  rw [hb]
  simp only [hl, hr]
  rfl

/-- The edge projection before its reshape, at (e, j): the affine map (x10, x11) of row e of the edge features. -/
theorem linE_at (e : Fin 800000) (j : Fin 128) :
    val_main_v18 (F := Ideal) x1 x10 x11 (ix2 e j) = proj (rowAt x1 e) x10 (fun j => x11 (ix1 j)) j := by
  rw [val_main_v18_apply, val_main_v15_apply, val_main_v17_apply, val_main_v16_apply]
  have hb : idx_main_v16 (idx_main_v17 (ix2 e j)) = ix1 j :=
    funext fun a => Fin.ext (by match a with | ⟨0, _⟩ => rfl)
  have hl : ∀ k : Fin 128, lidx_main_v15 (ix2 e j) k = ix2 e k := fun k =>
    funext fun a => Fin.ext (by match a with | ⟨0, _⟩ => rfl | ⟨1, _⟩ => rfl)
  have hr : ∀ k : Fin 128, ridx_main_v15 (ix2 e j) k = ix2 k j := fun k =>
    funext fun a => Fin.ext (by match a with | ⟨0, _⟩ => rfl | ⟨1, _⟩ => rfl)
  rw [hb]
  simp only [hl, hr]
  rfl

/-- The query at (r, head, lane). -/
theorem Q_at (r : Fin 50000) (hh : Fin 8) (d : Fin 16) :
    val_main_v4 (F := Ideal) x0 x4 x5 (ix3 r hh d) = proj (rowAt x0 r) x4 (fun j => x5 (ix1 j)) (col hh d) :=
  (val_main_v4_apply x0 x4 x5 (ix3 r hh d)).trans
    ((congrArg (val_main_v3 (F := Ideal) x0 x4 x5) (idx_v4_eq r hh d)).trans (linQ_at x0 x4 x5 r (col hh d)))

/-- The key at (r, head, lane). -/
theorem K_at (r : Fin 50000) (hh : Fin 8) (d : Fin 16) :
    val_main_v9 (F := Ideal) x0 x6 x7 (ix3 r hh d) = proj (rowAt x0 r) x6 (fun j => x7 (ix1 j)) (col hh d) :=
  (val_main_v9_apply x0 x6 x7 (ix3 r hh d)).trans
    ((congrArg (val_main_v8 (F := Ideal) x0 x6 x7) (idx_v9_eq r hh d)).trans (linK_at x0 x6 x7 r (col hh d)))

/-- The value at (r, head, lane). -/
theorem V_at (r : Fin 50000) (hh : Fin 8) (d : Fin 16) :
    val_main_v14 (F := Ideal) x0 x8 x9 (ix3 r hh d) = proj (rowAt x0 r) x8 (fun j => x9 (ix1 j)) (col hh d) :=
  (val_main_v14_apply x0 x8 x9 (ix3 r hh d)).trans
    ((congrArg (val_main_v13 (F := Ideal) x0 x8 x9) (idx_v14_eq r hh d)).trans (linV_at x0 x8 x9 r (col hh d)))

/-- The edge projection at (e, head, lane). -/
theorem Qe_at (e : Fin 800000) (hh : Fin 8) (d : Fin 16) :
    val_main_v19 (F := Ideal) x1 x10 x11 (ix3 e hh d) = proj (rowAt x1 e) x10 (fun j => x11 (ix1 j)) (col hh d) :=
  (val_main_v19_apply x1 x10 x11 (ix3 e hh d)).trans
    ((congrArg (val_main_v18 (F := Ideal) x1 x10 x11) (idx_v19_eq e hh d)).trans (linE_at x1 x10 x11 e (col hh d)))

/-! ## The score -/

/-- The divisor of the score: the square root of the word of 16, at every entry. -/
theorem sqrt16_at (i : S800000x8x16.Idx) :
    val_main_v36 (F := Ideal) i = Ideal.sqrt (Ideal.ofBits .f32 0x41800000#32) :=
  (val_main_v36_apply (F := Ideal) i).trans rfl

/-- The gathered key of edge e: the key at the edge's source row. -/
theorem gatherK_at (e : Fin 800000) (hh : Fin 8) (d : Fin 16) :
    val_main_v26 (F := Ideal) x0 x2 x6 x7 (ix3 e hh d)
      = proj (rowAt x0 (srcRow x2 e)) x6 (fun j => x7 (ix1 j)) (col hh d) :=
  (Cert.LibGather3.gather_slabs_apply (by norm_num) gather_S50000x8x16_S800000x1_S800000x8x16_12_0_n_n_0_1_1816
      rfl rfl rfl rfl rfl rfl rfl (val_main_v9 (F := Ideal) x0 x6 x7) (val_main_v25 (F := Ideal) x2) e hh d).trans
    (K_at x0 x6 x7 (srcRow x2 e) hh d)

/-- The gathered query of edge e: the query at the edge's destination row. -/
theorem gatherQ_at (e : Fin 800000) (hh : Fin 8) (d : Fin 16) :
    val_main_v33 (F := Ideal) x0 x3 x4 x5 (ix3 e hh d)
      = proj (rowAt x0 (dstRow x3 e)) x4 (fun j => x5 (ix1 j)) (col hh d) :=
  (Cert.LibGather3.gather_slabs_apply (by norm_num) gather_S50000x8x16_S800000x1_S800000x8x16_12_0_n_n_0_1_1816
      rfl rfl rfl rfl rfl rfl rfl (val_main_v4 (F := Ideal) x0 x4 x5) (val_main_v32 (F := Ideal) x3) e hh d).trans
    (Q_at x0 x4 x5 (dstRow x3 e) hh d)

/-- The second result at (e, head, lane) is the score of edge e there. -/
theorem ref_score (e : Fin 800000) (hh : Fin 8) (d : Fin 16) :
    val_main_v38 (F := Ideal) x0 x1 x2 x3 x4 x5 x6 x7 x10 x11 (ix3 e hh d)
      = eOut (wtsR x4 x5 x6 x7 x8 x9 x10 x11) (edges x0 x1 x2 x3) e hh d := by
  rw [val_main_v38_apply, val_main_v37_apply, val_main_v34_apply, gatherK_at, gatherQ_at, sqrt16_at, Qe_at]
  exact congrArg (fun t => t * proj (rowAt x1 e) x10 (fun j => x11 (ix1 j)) (col hh d)) (div_sqrt_sixteen _)

/-! ## The weight and the message -/

theorem idx_v39_eq (e : Fin 800000) (hh : Fin 8) (k : Fin 16) :
    idx_main_v39 (idx_main_v40 (ix3 e hh (0 : Fin 1))) k = ix3 e hh k :=
  funext fun a => Fin.ext (by match a with | ⟨0, _⟩ => rfl | ⟨1, _⟩ => rfl | ⟨2, _⟩ => rfl)

theorem idx_v50_eq (e : Fin 800000) (hh : Fin 8) (d : Fin 16) :
    idx_main_v50 (ix3 e hh d) = ix3 e hh (0 : Fin 1) :=
  funext fun a => Fin.ext (by match a with | ⟨0, _⟩ => rfl | ⟨1, _⟩ => rfl | ⟨2, _⟩ => rfl)

theorem idx_v60_eq (n : Fin 50000) (hh : Fin 8) (d : Fin 16) :
    idx_main_v60 (ix3 n hh d) = ix3 n hh (0 : Fin 1) :=
  funext fun a => Fin.ext (by match a with | ⟨0, _⟩ => rfl | ⟨1, _⟩ => rfl | ⟨2, _⟩ => rfl)

/-- A head's score sum: the initial value is the word of zero, and the 16 summands are the edge's scores. -/
theorem sum_at (e : Fin 800000) (hh : Fin 8) :
    val_main_v40 (F := Ideal) x0 x1 x2 x3 x4 x5 x6 x7 x10 x11 (ix3 e hh (0 : Fin 1))
      = ∑ d : Fin 16, eOut (wtsR x4 x5 x6 x7 x8 x9 x10 x11) (edges x0 x1 x2 x3) e hh d := by
  rw [val_main_v40_apply, val_main_v39_apply]
  show Ideal.ofBits .f32 0x00000000#32 + _ = _
  rw [ofBits_zero, zero_add]
  refine Finset.sum_congr rfl fun k _ => ?_
  rw [idx_v39_eq]
  exact ref_score x0 x1 x2 x3 x4 x5 x6 x7 x8 x9 x10 x11 e hh k

/-- The weight of edge e on a head: exp of the clipped score sum. -/
theorem wgt_at (e : Fin 800000) (hh : Fin 8) :
    val_main_v42 (F := Ideal) x0 x1 x2 x3 x4 x5 x6 x7 x10 x11 (ix3 e hh (0 : Fin 1))
      = wgt (wtsR x4 x5 x6 x7 x8 x9 x10 x11) ((edges x0 x1 x2 x3).xs e) ((edges x0 x1 x2 x3).xd e)
          ((edges x0 x1 x2 x3).xe e) hh := by
  rw [val_main_v42_apply, val_main_v41_apply, val_main_call0_v2_apply, val_main_call0_v4_apply,
    val_main_call0_v1_apply, sum_at x0 x1 x2 x3 x4 x5 x6 x7 x8 x9 x10 x11]
  rfl

/-- The third gather's indices are the first's: the same wrapped source indices. -/
theorem v48_eq : val_main_v48 (F := Ideal) x2 = val_main_v25 (F := Ideal) x2 := rfl

/-- The gathered value of edge e: the value at the edge's source row. -/
theorem gatherV_at (e : Fin 800000) (hh : Fin 8) (d : Fin 16) :
    val_main_v49 (F := Ideal) x0 x2 x8 x9 (ix3 e hh d)
      = proj (rowAt x0 (srcRow x2 e)) x8 (fun j => x9 (ix1 j)) (col hh d) :=
  (Cert.LibGather3.gather_slabs_apply (by norm_num) gather_S50000x8x16_S800000x1_S800000x8x16_12_0_n_n_0_1_1816
      rfl rfl rfl rfl rfl rfl rfl (val_main_v14 (F := Ideal) x0 x8 x9) (val_main_v25 (F := Ideal) x2) e hh d).trans
    (V_at x0 x8 x9 (srcRow x2 e) hh d)

/-- The message of edge e at (head, lane): the source's value there times the head's weight. -/
theorem msg_at (e : Fin 800000) (hh : Fin 8) (d : Fin 16) :
    val_main_v51 (F := Ideal) x0 x1 x2 x3 x4 x5 x6 x7 x8 x9 x10 x11 (ix3 e hh d)
      = msg (wtsR x4 x5 x6 x7 x8 x9 x10 x11) ((edges x0 x1 x2 x3).xs e) ((edges x0 x1 x2 x3).xd e)
          ((edges x0 x1 x2 x3).xe e) hh d := by
  rw [val_main_v51_apply, gatherV_at, val_main_v50_apply, idx_v50_eq,
    wgt_at x0 x1 x2 x3 x4 x5 x6 x7 x8 x9 x10 x11]
  rfl

/-! ## The two sums over the edges and their quotient -/

/-- The summed messages of node n: the scatter adds, into zeros, the messages of the edges whose destination index
    (read as it is) names n. -/
theorem num_at (n : Fin 50000) (hh : Fin 8) (d : Fin 16) :
    val_main_v54 (F := Ideal) x0 x1 x2 x3 x4 x5 x6 x7 x8 x9 x10 x11 (ix3 n hh d)
      = ∑ e : Fin 800000, if (edges x0 x1 x2 x3).seg e = (n.val : Int)
          then msg (wtsR x4 x5 x6 x7 x8 x9 x10 x11) ((edges x0 x1 x2 x3).xs e) ((edges x0 x1 x2 x3).xd e)
            ((edges x0 x1 x2 x3).xe e) hh d else 0 := by
  refine (Cert.LibScatter3.scatterAdd_slabs_apply scatter_S50000x8x16_S800000x1_S800000x8x16_12_0_0_1
    rfl rfl rfl rfl (val_main_v52 (F := Ideal)) (val_main_v53 (F := Ideal) x3)
    (val_main_v51 (F := Ideal) x0 x1 x2 x3 x4 x5 x6 x7 x8 x9 x10 x11) n hh d).trans ?_
  rw [val_main_v52_apply]
  show Ideal.ofBits .f32 0x00000000#32 + _ = _
  rw [ofBits_zero, zero_add]
  refine Finset.sum_congr rfl fun e _ => ?_
  rw [msg_at x0 x1 x2 x3 x4 x5 x6 x7 x8 x9 x10 x11]
  rfl

/-- The summed weights of node n on a head. -/
theorem wsum_at (n : Fin 50000) (hh : Fin 8) :
    val_main_v57 (F := Ideal) x0 x1 x2 x3 x4 x5 x6 x7 x10 x11 (ix3 n hh (0 : Fin 1))
      = ∑ e : Fin 800000, if (edges x0 x1 x2 x3).seg e = (n.val : Int)
          then wgt (wtsR x4 x5 x6 x7 x8 x9 x10 x11) ((edges x0 x1 x2 x3).xs e) ((edges x0 x1 x2 x3).xd e)
            ((edges x0 x1 x2 x3).xe e) hh else 0 := by
  refine (Cert.LibScatter3.scatterAdd_slabs_apply scatter_S50000x8x1_S800000x1_S800000x8x1_12_0_0_1
    rfl rfl rfl rfl (val_main_v55 (F := Ideal)) (val_main_v53 (F := Ideal) x3)
    (val_main_v42 (F := Ideal) x0 x1 x2 x3 x4 x5 x6 x7 x10 x11) n hh (0 : Fin 1)).trans ?_
  rw [val_main_v55_apply]
  show Ideal.ofBits .f32 0x00000000#32 + _ = _
  rw [ofBits_zero, zero_add]
  refine Finset.sum_congr rfl fun e _ => ?_
  rw [wgt_at x0 x1 x2 x3 x4 x5 x6 x7 x8 x9 x10 x11]
  rfl

/-- The first result at (n, head, lane): the summed messages over the summed weights plus the word of 1e-6. -/
theorem ref_hout (n : Fin 50000) (hh : Fin 8) (d : Fin 16) :
    val_main_v61 (F := Ideal) x0 x1 x2 x3 x4 x5 x6 x7 x8 x9 x10 x11 (ix3 n hh d)
      = hOut (wtsR x4 x5 x6 x7 x8 x9 x10 x11) (edges x0 x1 x2 x3) n hh d := by
  rw [val_main_v61_apply, val_main_v60_apply, idx_v60_eq, val_main_v59_apply, val_main_v58_apply,
    num_at x0 x1 x2 x3 x4 x5 x6 x7 x8 x9 x10 x11, wsum_at x0 x1 x2 x3 x4 x5 x6 x7 x8 x9 x10 x11]
  rfl

/-! ## The whole arrays -/

/-- The second result is the specification's array of scores. -/
theorem ref_outE :
    val_main_v38 (F := Ideal) x0 x1 x2 x3 x4 x5 x6 x7 x10 x11 = outE x0 x1 x2 x3 x4 x5 x6 x7 x8 x9 x10 x11 := by
  funext i
  rw [eq_ix3 i]
  exact ref_score x0 x1 x2 x3 x4 x5 x6 x7 x8 x9 x10 x11 (i 0) (i 1) (i 2)

/-- The first result is the specification's array of quotients. -/
theorem ref_outH :
    val_main_v61 (F := Ideal) x0 x1 x2 x3 x4 x5 x6 x7 x8 x9 x10 x11 = outH x0 x1 x2 x3 x4 x5 x6 x7 x8 x9 x10 x11 := by
  funext i
  rw [eq_ix3 i]
  exact ref_hout x0 x1 x2 x3 x4 x5 x6 x7 x8 x9 x10 x11 (i 0) (i 1) (i 2)

end Args

end Cert.RefBridge

end
-- ==== Proof.lean ====
/-
  The certificate's five claims.  The kernel program as printed, the same program on the extended reals, and the
  reference on the extended reals each run to the end and leave their twelve argument arrays unchanged; the kernel's
  idealization rewrote no operation; and on the extended reals, from memories that agree on the twelve arguments, the
  kernel program and the reference end with equal results.  Both pairs of results are one function of the argument
  arrays, the edge attention layer of Spec.lean and Edges.lean: the first result is, per node, head and lane, the
  summed messages of the edges into the node over their summed weights plus the word of 1e-6, and the second is the
  score of every edge on every head and lane.
-/
import proofs.«129676_j36979668418616_2_alg».proof.Defs
import proofs.«129676_j36979668418616_2_alg».proof.Proof.Gen.Kernel
import proofs.«129676_j36979668418616_2_alg».proof.Proof.Gen.Kernel.Frame
import proofs.«129676_j36979668418616_2_alg».proof.Proof.Gen.KernelIdeal
import proofs.«129676_j36979668418616_2_alg».proof.Proof.Gen.KernelIdeal.Frame
import proofs.«129676_j36979668418616_2_alg».proof.Proof.Gen.ReferenceIdeal
import proofs.«129676_j36979668418616_2_alg».proof.Proof.Gen.Pre_finite_inputs
import proofs.«129676_j36979668418616_2_alg».proof.Proof.Gen.ReferenceIdeal.Run
import proofs.«129676_j36979668418616_2_alg».proof.Proof.Gen.ReferenceIdeal.Read
import proofs.«129676_j36979668418616_2_alg».proof.Proof.KernelRun
import proofs.«129676_j36979668418616_2_alg».proof.Proof.RefValue
import Idealize.ShloMosaic.Adequacy
import Idealize.ShloMosaic.Init

noncomputable section

namespace Cert.Proof

open Idealize.ShloMosaic Idealize.SL.Sem

/-- The kernel program as printed runs and leaves its arguments unchanged. -/
theorem frame_k : Cert.frame_Kernel := fun m ρ _ => Cert.Kernel.Gen.frame m ρ

/-- The kernel program on the extended reals runs and leaves its arguments unchanged. -/
theorem frame_ki : Cert.frame_KernelIdeal := fun m ρ _ => Cert.KernelIdeal.Gen.frame m ρ

/-- The reference on the extended reals runs and leaves its arguments unchanged: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation: nothing to preserve. -/
theorem preserves : Cert.preserves_Kernel_KernelIdeal := trivial

/-- On the extended reals the kernel program ends with the layer's two results of its argument arrays, and so does the
    reference of its own; the two memories agree on the arguments, so the results are equal. -/
theorem algebraic : Cert.algebraic_KernelIdeal_ReferenceIdeal := by
  intro m ρ m' ρ' _ hagree
  refine ⟨_, _, Cert.KernelIdeal.Run.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11⟩ := hagree c
    rw [← e0, ← e1, ← e2, ← e3, ← e4, ← e5, ← e6, ← e7, ← e8, ← e9, ← e10, ← e11]
    exact (Cert.ReferenceIdeal.Read.val_main_v61_eq m' c).trans (Cert.RefBridge.ref_outH ..)
  · obtain ⟨e0, e1, e2, e3, e4, e5, e6, e7, e8, e9, e10, e11⟩ := hagree c
    rw [← e0, ← e1, ← e2, ← e3, ← e4, ← e5, ← e6, ← e7, ← e8, ← e9, ← e10, ← e11]
    exact (Cert.ReferenceIdeal.Read.val_main_v38_eq ..).trans (Cert.RefBridge.ref_outE ..)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
